-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S1x256 : Shape := ⟨2, ![1, 256]⟩
abbrev S1 : Shape := ⟨1, ![1]⟩
abbrev S128x283 : Shape := ⟨2, ![128, 283]⟩
abbrev S128 : Shape := ⟨1, ![128]⟩
abbrev S3x128 : Shape := ⟨2, ![3, 128]⟩
abbrev S3 : Shape := ⟨1, ![3]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S256x63 : S_.BroadcastsInDim S256x63 (![] : Fin 0 → Fin S256x63.rank)
  reducesTo_S256x63_S_d0_1 : S256x63.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x319 : S_.BroadcastsInDim S256x319 (![] : Fin 0 → Fin S256x319.rank)
  reducesTo_S256x319_S_d0_1 : S256x319.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S128x283 : S_.BroadcastsInDim S128x283 (![] : Fin 0 → Fin S128x283.rank)
  reducesTo_S128x283_S_d0_1 : S128x283.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part7 {F : FTy → Type} [FloatOps F] (main_arg25 : FVec F S3 .f32) (main_v118 : IVec S_ 1) (main_v119 : FVec F S3x128 .f32) : IVec S_ 1 :=
  let main_cst_46 : FVec F S_ .f32 := constant S_ .f32 0x7F800000#32
  let main_v120 : FVec F S3x128 .f32 := broadcastInDim S3x128 ![] bcast_S_S3x128 main_cst_46
  let main_v121 : IVec S3x128 1 := cmpf .olt main_v119 main_v120
  let main_c_47 : IVec S_ 1 := constantI S_ 1 1#1
  let main_v122 : IVec S_ 1 := (fun x v => Host.reduce IntOp.andi x v reducesTo_S3x128_S_d0_1 h_S_) main_v121 main_c_47
  let main_v123 : IVec S_ 1 := andi main_v118 main_v122
  let main_v124 : FVec F S3 .f32 := Host.absf main_arg25
  let main_cst_48 : FVec F S_ .f32 := constant S_ .f32 0x7F800000#32
  let main_v125 : FVec F S3 .f32 := broadcastInDim S3 ![] bcast_S_S3 main_cst_48
  let main_v126 : IVec S3 1 := cmpf .olt main_v124 main_v125
  let main_c_49 : IVec S_ 1 := constantI S_ 1 1#1
  let main_v127 : IVec S_ 1 := (fun x v => Host.reduce IntOp.andi x v reducesTo_S3_S_d0 h_S_) main_v126 main_c_49
  let main_v128 : IVec S_ 1 := andi main_v123 main_v127
  main_v128

def fn_part6 {F : FTy → Type} [FloatOps F] (main_arg21 : FVec F S256 .f32) (main_arg22 : FVec F S128x283 .f32) (main_arg23 : FVec F S128 .f32) (main_arg24 : FVec F S3x128 .f32) (main_arg25 : FVec F S3 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S128x283 .f32 := Host.absf main_arg22
  let main_cst_42 : FVec F S_ .f32 := constant S_ .f32 0x7F800000#32
  let main_v110 : FVec F S128x283 .f32 := broadcastInDim S128x283 ![] bcast_S_S128x283 main_cst_42
  let main_v111 : IVec S128x283 1 := cmpf .olt main_v109 main_v110
  let main_c_43 : IVec S_ 1 := constantI S_ 1 1#1
  let main_v112 : IVec S_ 1 := (fun x v => Host.reduce IntOp.andi x v reducesTo_S128x283_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S3x128 .f32 := Host.absf main_arg24
  fn_part7 (F := F) main_arg25 main_v118 main_v119

def fn_part5 {F : FTy → Type} [FloatOps F] (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S1x256 .f32 := Host.absf main_arg18
  let main_cst_34 : FVec F S_ .f32 := constant S_ .f32 0x7F800000#32
  let main_v90 : FVec F S1x256 .f32 := broadcastInDim S1x256 ![] bcast_S_S1x256 main_cst_34
  let main_v91 : IVec S1x256 1 := cmpf .olt main_v89 main_v90
  let main_c_35 : IVec S_ 1 := constantI S_ 1 1#1
  let main_v92 : IVec S_ 1 := (fun x v => Host.reduce IntOp.andi x v reducesTo_S1x256_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x319 .f32 := Host.absf main_arg12
  let main_cst_22 : FVec F S_ .f32 := constant S_ .f32 0x7F800000#32
  let main_v60 : FVec F S256x319 .f32 := broadcastInDim S256x319 ![] bcast_S_S256x319 main_cst_22
  let main_v61 : IVec S256x319 1 := cmpf .olt main_v59 main_v60
  let main_c_23 : IVec S_ 1 := constantI S_ 1 1#1
  let main_v62 : IVec S_ 1 := (fun x v => Host.reduce IntOp.andi x v reducesTo_S256x319_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S262144x3 .f32) (main_arg1 : FVec F S262144x3 .f32) (main_arg2 : FVec F S256x63 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x319 .f32) (main_arg13 : FVec F S256 .f32) (main_arg14 : FVec F S256x256 .f32) (main_arg15 : FVec F S256 .f32) (main_arg16 : FVec F S256x256 .f32) (main_arg17 : FVec F S256 .f32) (main_arg18 : FVec F S1x256 .f32) (main_arg19 : FVec F S1 .f32) (main_arg20 : FVec F S256x256 .f32) (main_arg21 : FVec F S256 .f32) (main_arg22 : FVec F S128x283 .f32) (main_arg23 : FVec F S128 .f32) (main_arg24 : FVec F S3x128 .f32) (main_arg25 : FVec F S3 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S262144x3 .f32 := Host.absf main_arg1
  let main_cst_0 : FVec F S_ .f32 := constant S_ .f32 0x7F800000#32
  let main_v5 : FVec F S262144x3 .f32 := broadcastInDim S262144x3 ![] bcast_S_S262144x3 main_cst_0
  let main_v6 : IVec S262144x3 1 := cmpf .olt main_v4 main_v5
  let main_c_1 : IVec S_ 1 := constantI S_ 1 1#1
  let main_v7 : IVec S_ 1 := (fun x v => Host.reduce IntOp.andi x v reducesTo_S262144x3_S_d0_1 h_S_) main_v6 main_c_1
  let main_v8 : IVec S_ 1 := andi main_v3 main_v7
  let main_v9 : FVec F S256x63 .f32 := Host.absf main_arg2
  let main_cst_2 : FVec F S_ .f32 := constant S_ .f32 0x7F800000#32
  let main_v10 : FVec F S256x63 .f32 := broadcastInDim S256x63 ![] bcast_S_S256x63 main_cst_2
  let main_v11 : IVec S256x63 1 := cmpf .olt main_v9 main_v10
  let main_c_3 : IVec S_ 1 := constantI S_ 1 1#1
  let main_v12 : IVec S_ 1 := (fun x v => Host.reduce IntOp.andi x v reducesTo_S256x63_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S262144x3 : Shape := ⟨2, ![262144, 3]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S1x256 : Shape := ⟨2, ![1, 256]⟩
abbrev S1 : Shape := ⟨1, ![1]⟩
abbrev S128x283 : Shape := ⟨2, ![128, 283]⟩
abbrev S128 : Shape := ⟨1, ![128]⟩
abbrev S3x128 : Shape := ⟨2, ![3, 128]⟩
abbrev S3 : Shape := ⟨1, ![3]⟩
abbrev S262144x6 : Shape := ⟨2, ![262144, 6]⟩
abbrev S63x256 : Shape := ⟨2, ![63, 256]⟩
abbrev S319x256 : Shape := ⟨2, ![319, 256]⟩
abbrev S256x1 : Shape := ⟨2, ![256, 1]⟩
abbrev S283x128 : Shape := ⟨2, ![283, 128]⟩
abbrev S256x128 : Shape := ⟨2, ![256, 128]⟩
abbrev S27x128 : Shape := ⟨2, ![27, 128]⟩
abbrev S128x3 : Shape := ⟨2, ![128, 3]⟩
abbrev S262144x32 : Shape := ⟨2, ![262144, 32]⟩
abbrev S4096x6 : Shape := ⟨2, ![4096, 6]⟩
abbrev S4096x32 : Shape := ⟨2, ![4096, 32]⟩
abbrev S4096x3 : Shape := ⟨2, ![4096, 3]⟩
abbrev S4096x63 : Shape := ⟨2, ![4096, 63]⟩
abbrev S4096x27 : Shape := ⟨2, ![4096, 27]⟩
abbrev S4096x256 : Shape := ⟨2, ![4096, 256]⟩
abbrev S4096x1 : Shape := ⟨2, ![4096, 1]⟩
abbrev S1x1 : Shape := ⟨2, ![1, 1]⟩
abbrev S4096x128 : Shape := ⟨2, ![4096, 128]⟩
abbrev S1x128 : Shape := ⟨2, ![1, 128]⟩
abbrev S1x3 : Shape := ⟨2, ![1, 3]⟩
abbrev S262144x1 : Shape := ⟨2, ![262144, 1]⟩
abbrev S262144 : Shape := ⟨1, ![262144]⟩
abbrev S262144x27 : Shape := ⟨2, ![262144, 27]⟩

abbrev nBuf : Space → Nat
  | .hbm => 60
  | .vmem => 30
  | .smem => 0
  | _ => 0

abbrev bufTy : (tb : Table) → Fin (tcTables nBuf tb) → BufTy
  | .hbm, ⟨0, _⟩ => ⟨S262144x3, .f32⟩
  | .hbm, ⟨1, _⟩ => ⟨S262144x3, .f32⟩
  | .hbm, ⟨2, _⟩ => ⟨S256x63, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x319, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S1x256, .f32⟩
  | .hbm, ⟨19, _⟩ => ⟨S1, .f32⟩
  | .hbm, ⟨20, _⟩ => ⟨S256x256, .f32⟩
  | .hbm, ⟨21, _⟩ => ⟨S256, .f32⟩
  | .hbm, ⟨22, _⟩ => ⟨S128x283, .f32⟩
  | .hbm, ⟨23, _⟩ => ⟨S128, .f32⟩
  | .hbm, ⟨24, _⟩ => ⟨S3x128, .f32⟩
  | .hbm, ⟨25, _⟩ => ⟨S3, .f32⟩
  | .hbm, ⟨26, _⟩ => ⟨S262144x6, .f32⟩
  | .hbm, ⟨27, _⟩ => ⟨S63x256, .f32⟩
  | .hbm, ⟨28, _⟩ => ⟨S63x256, .bf16⟩
  | .hbm, ⟨29, _⟩ => ⟨S256x256, .f32⟩
  | .hbm, ⟨30, _⟩ => ⟨S256x256, .bf16⟩
  | .hbm, ⟨31, _⟩ => ⟨S256x256, .f32⟩
  | .hbm, ⟨32, _⟩ => ⟨S256x256, .bf16⟩
  | .hbm, ⟨33, _⟩ => ⟨S256x256, .f32⟩
  | .hbm, ⟨34, _⟩ => ⟨S256x256, .bf16⟩
  | .hbm, ⟨35, _⟩ => ⟨S256x256, .f32⟩
  | .hbm, ⟨36, _⟩ => ⟨S256x256, .bf16⟩
  | .hbm, ⟨37, _⟩ => ⟨S319x256, .f32⟩
  | .hbm, ⟨38, _⟩ => ⟨S319x256, .bf16⟩
  | .hbm, ⟨39, _⟩ => ⟨S63x256, .bf16⟩
  | .hbm, ⟨40, _⟩ => ⟨S256x256, .bf16⟩
  | .hbm, ⟨41, _⟩ => ⟨S256x256, .f32⟩
  | .hbm, ⟨42, _⟩ => ⟨S256x256, .bf16⟩
  | .hbm, ⟨43, _⟩ => ⟨S256x256, .f32⟩
  | .hbm, ⟨44, _⟩ => ⟨S256x256, .bf16⟩
  | .hbm, ⟨45, _⟩ => ⟨S256x1, .f32⟩
  | .hbm, ⟨46, _⟩ => ⟨S256x1, .bf16⟩
  | .hbm, ⟨47, _⟩ => ⟨S256x256, .f32⟩
  | .hbm, ⟨48, _⟩ => ⟨S256x256, .bf16⟩
  | .hbm, ⟨49, _⟩ => ⟨S283x128, .f32⟩
  | .hbm, ⟨50, _⟩ => ⟨S283x128, .bf16⟩
  | .hbm, ⟨51, _⟩ => ⟨S256x128, .bf16⟩
  | .hbm, ⟨52, _⟩ => ⟨S27x128, .bf16⟩
  | .hbm, ⟨53, _⟩ => ⟨S128x3, .f32⟩
  | .hbm, ⟨54, _⟩ => ⟨S128x3, .bf16⟩
  | .hbm, ⟨55, _⟩ => ⟨S262144x32, .f32⟩
  | .hbm, ⟨56, _⟩ => ⟨S262144x3, .f32⟩
  | .hbm, ⟨57, _⟩ => ⟨S262144x1, .f32⟩
  | .hbm, ⟨58, _⟩ => ⟨S262144, .f32⟩
  | .hbm, ⟨59, _⟩ => ⟨S262144x27, .f32⟩
  | .local _ .vmem, ⟨0, _⟩ => ⟨S4096x6, .f32⟩
  | .local _ .vmem, ⟨1, _⟩ => ⟨S4096x6, .f32⟩
  | .local _ .vmem, ⟨2, _⟩ => ⟨S63x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S256x256, .bf16⟩
  | .local _ .vmem, ⟨11, _⟩ => ⟨S256, .f32⟩
  | .local _ .vmem, ⟨12, _⟩ => ⟨S63x256, .bf16⟩
  | .local _ .vmem, ⟨13, _⟩ => ⟨S256x256, .bf16⟩
  | .local _ .vmem, ⟨14, _⟩ => ⟨S256, .f32⟩
  | .local _ .vmem, ⟨15, _⟩ => ⟨S256x256, .bf16⟩
  | .local _ .vmem, ⟨16, _⟩ => ⟨S256, .f32⟩
  | .local _ .vmem, ⟨17, _⟩ => ⟨S256x256, .bf16⟩
  | .local _ .vmem, ⟨18, _⟩ => ⟨S256, .f32⟩
  | .local _ .vmem, ⟨19, _⟩ => ⟨S256x1, .bf16⟩
  | .local _ .vmem, ⟨20, _⟩ => ⟨S1, .f32⟩
  | .local _ .vmem, ⟨21, _⟩ => ⟨S256x256, .bf16⟩
  | .local _ .vmem, ⟨22, _⟩ => ⟨S256, .f32⟩
  | .local _ .vmem, ⟨23, _⟩ => ⟨S256x128, .bf16⟩
  | .local _ .vmem, ⟨24, _⟩ => ⟨S27x128, .bf16⟩
  | .local _ .vmem, ⟨25, _⟩ => ⟨S128, .f32⟩
  | .local _ .vmem, ⟨26, _⟩ => ⟨S128x3, .bf16⟩
  | .local _ .vmem, ⟨27, _⟩ => ⟨S3, .f32⟩
  | .local _ .vmem, ⟨28, _⟩ => ⟨S4096x32, .f32⟩
  | .local _ .vmem, ⟨29, _⟩ => ⟨S4096x32, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S63x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S27x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x3 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S3 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S4096x32 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  concatenates_S262144x3_S262144x3_S262144x6_d1 : Shape.Concatenates [S262144x3, S262144x3] S262144x6 1
  transposes_S256x63_S63x256_1_0 : S256x63.Transposes [1, 0] S63x256
  bitsLt_bf16_f32 : FTy.bits .bf16 < FTy.bits .f32
  transposes_S256x256_S256x256_1_0 : S256x256.Transposes [1, 0] S256x256
  transposes_S256x319_S319x256_1_0 : S256x319.Transposes [1, 0] S319x256
  slices_S319x256_S63x256_0_0 : S319x256.Slices ![0, 0] S63x256
  slices_S319x256_S256x256_63_0 : S319x256.Slices ![63, 0] S256x256
  transposes_S1x256_S256x1_1_0 : S1x256.Transposes [1, 0] S256x1
  transposes_S128x283_S283x128_1_0 : S128x283.Transposes [1, 0] S283x128
  slices_S283x128_S256x128_0_0 : S283x128.Slices ![0, 0] S256x128
  slices_S283x128_S27x128_256_0 : S283x128.Slices ![256, 0] S27x128
  transposes_S3x128_S128x3_1_0 : S3x128.Transposes [1, 0] S128x3
  inb_S4096x6_S4096x6_0_0 : ∀ a, (![0, 0] : Fin 2 → Nat) a + S4096x6.size a ≤ S4096x6.size a
  h_S4096x6 : 0 < S4096x6.numel
  shapeCasts_S4096x6_S4096x6 : S4096x6.ShapeCasts S4096x6
  slices_S4096x6_o0_0_S4096x3 : S4096x6.Slices ![0, 0] S4096x3
  slices_S4096x6_o0_3_S4096x3 : S4096x6.Slices ![0, 3] S4096x3
  concatenates_S4096x3_S4096x3_S4096x3_S4096x3_S4096x3_S4096x3_S4096x3_S4096x3_S4096x3_S4096x3_S4096x3_S4096x3_S4096x3_S4096x3_S4096x3_S4096x3_S4096x3_S4096x3_S4096x3_S4096x3_S4096x3_S4096x63_d1 : Shape.Concatenates [S4096x3, S4096x3, S4096x3, S4096x3, S4096x3, S4096x3, S4096x3, S4096x3, S4096x3, S4096x3, S4096x3, S4096x3, S4096x3, S4096x3, S4096x3, S4096x3, S4096x3, S4096x3, S4096x3, S4096x3, S4096x3] S4096x63 1
  concatenates_S4096x3_S4096x3_S4096x3_S4096x3_S4096x3_S4096x3_S4096x3_S4096x3_S4096x3_S4096x27_d1 : Shape.Concatenates [S4096x3, S4096x3, S4096x3, S4096x3, S4096x3, S4096x3, S4096x3, S4096x3, S4096x3] S4096x27 1
  inb_S63x256_S63x256_0_0 : ∀ a, (![0, 0] : Fin 2 → Nat) a + S63x256.size a ≤ S63x256.size a
  h_S63x256 : 0 < S63x256.numel
  shapeCasts_S63x256_S63x256 : S63x256.ShapeCasts S63x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S27x128_S27x128_0_0 : ∀ a, (![0, 0] : Fin 2 → Nat) a + S27x128.size a ≤ S27x128.size a
  h_S27x128 : 0 < S27x128.numel
  shapeCasts_S27x128_S27x128 : S27x128.ShapeCasts S27x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S3_S3_0 : ∀ a, (![0] : Fin 1 → Nat) a + S3.size a ≤ S3.size a
  h_S3 : 0 < S3.numel
  shapeCasts_S3_S1x3 : S3.ShapeCasts S1x3
  broadcasts_S1x3_S4096x3 : S1x3.Broadcasts S4096x3
  inb_S4096x32_S4096x3_0_0 : ∀ a, (![0, 0] : Fin 2 → Nat) a + S4096x3.size a ≤ S4096x32.size a
  h_S4096x3 : 0 < S4096x3.numel
  inb_S4096x32_S4096x1_0_3 : ∀ a, (![0, 3] : Fin 2 → Nat) a + S4096x1.size a ≤ S4096x32.size a
  h_S4096x1 : 0 < S4096x1.numel
  inb_S4096x32_S4096x27_0_4 : ∀ a, (![0, 4] : Fin 2 → Nat) a + S4096x27.size a ≤ S4096x32.size a
  h_S4096x27 : 0 < S4096x27.numel
  inb_S4096x32_S4096x1_0_31 : ∀ a, (![0, 31] : Fin 2 → Nat) a + S4096x1.size a ≤ S4096x32.size a
  slices_S262144x32_S262144x3_0_0 : S262144x32.Slices ![0, 0] S262144x3
  slices_S262144x32_S262144x1_0_3 : S262144x32.Slices ![0, 3] S262144x1
  shapeCasts_S262144x1_S262144 : S262144x1.ShapeCasts S262144
  slices_S262144x32_S262144x27_0_4 : S262144x32.Slices ![0, 4] S262144x27
  dot_S4096x63_S63x256_S4096x256_1_0_0_1_n_n_wf : DotDims.WF S4096x63 S63x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  dot_S4096x256_S256x128_S4096x128_1_0_0_1_n_n_wf : DotDims.WF S4096x256 S256x128 S4096x128 [1] [0] [0] [1] [] []
  dot_S4096x27_S27x128_S4096x128_1_0_0_1_n_n_wf : DotDims.WF S4096x27 S27x128 S4096x128 [1] [0] [0] [1] [] []
  dot_S4096x128_S128x3_S4096x3_1_0_0_1_n_n_wf : DotDims.WF S4096x128 S128x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x6.size a ≤ S262144x6.size a
  hwx0_0 : ∀ i : grid0.Coords, EltTy.bits .f32 = 32 ∨ (Rect.block (s := S262144x6) S4096x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x256.size a ≤ S63x256.size a
  hwx0_1 : ∀ i : grid0.Coords, EltTy.bits .bf16 = 32 ∨ (Rect.block (s := S63x256) S63x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S63x256.size a ≤ S63x256.size a
  hwx0_11 : ∀ i : grid0.Coords, EltTy.bits .bf16 = 32 ∨ (Rect.block (s := S63x256) S63x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .bf16 = 32 ∨ (Rect.block (s := S256x256) S256x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S256x256.size a
  hwx0_16 : ∀ i : grid0.Coords, EltTy.bits .bf16 = 32 ∨ (Rect.block (s := S256x256) S256x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x1.size a ≤ S256x1.size a
  hwx0_18 : ∀ i : grid0.Coords, EltTy.bits .bf16 = 32 ∨ (Rect.block (s := S256x1) S256x1.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1.size a ≤ S1.size a
  hwx0_19 : ∀ i : grid0.Coords, EltTy.bits .f32 = 32 ∨ (Rect.block (s := S1) S1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x256.size a ≤ S256x256.size a
  hwx0_20 : ∀ i : grid0.Coords, EltTy.bits .bf16 = 32 ∨ (Rect.block (s := S256x256) S256x256.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256.size a ≤ S256.size a
  hwx0_21 : ∀ i : grid0.Coords, EltTy.bits .f32 = 32 ∨ (Rect.block (s := S256) S256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x128.size a ≤ S256x128.size a
  hwx0_22 : ∀ i : grid0.Coords, EltTy.bits .bf16 = 32 ∨ (Rect.block (s := S256x128) S256x128.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S27x128.size a ≤ S27x128.size a
  hwx0_23 : ∀ i : grid0.Coords, EltTy.bits .bf16 = 32 ∨ (Rect.block (s := S27x128) S27x128.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S128.size a ≤ S128.size a
  hwx0_24 : ∀ i : grid0.Coords, EltTy.bits .f32 = 32 ∨ (Rect.block (s := S128) S128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128x3.size a ≤ S128x3.size a
  hwx0_25 : ∀ i : grid0.Coords, EltTy.bits .bf16 = 32 ∨ (Rect.block (s := S128x3) S128x3.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S3.size a ≤ S3.size a
  hwx0_26 : ∀ i : grid0.Coords, EltTy.bits .f32 = 32 ∨ (Rect.block (s := S3) S3.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S4096x32.size a ≤ S262144x32.size a
  hwx0_27 : ∀ i : grid0.Coords, EltTy.bits .f32 = 32 ∨ (Rect.block (s := S262144x32) S4096x32.size (cc0_transform_27 i) (hinb0_27 i)).WholeWords (EltTy.packing .f32)

variable [Facts₀]

def dot_S4096x63_S63x256_S4096x256_1_0_0_1_n_n : DotDims S4096x63 S63x256 S4096x256 where
  lhsContracting := [1]
  rhsContracting := [0]
  lhsNonContracting := [0]
  rhsNonContracting := [1]
  lhsBatch := []
  rhsBatch := []
  wf := dot_S4096x63_S63x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x27_S27x128_S4096x128_1_0_0_1_n_n : DotDims S4096x27 S27x128 S4096x128 where
  lhsContracting := [1]
  rhsContracting := [0]
  lhsNonContracting := [0]
  rhsNonContracting := [1]
  lhsBatch := []
  rhsBatch := []
  wf := dot_S4096x27_S27x128_S4096x128_1_0_0_1_n_n_wf
def dot_S4096x128_S128x3_S4096x3_1_0_0_1_n_n : DotDims S4096x128 S128x3 S4096x3 where
  lhsContracting := [1]
  rhsContracting := [0]
  lhsNonContracting := [0]
  rhsNonContracting := [1]
  lhsBatch := []
  rhsBatch := []
  wf := dot_S4096x128_S128x3_S4096x3_1_0_0_1_n_n_wf

abbrev win0_0 : Pipeline.Window sig grid0 :=
  Pipeline.Window.ofSpec (Memref.whole main_v0) S4096x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S63x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S63x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v18) S256x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v20) S256x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v22) S256x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v25) S256x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v26) S27x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg23) S128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v28) S128x3.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg25) S3.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v29) S4096x32.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S262144x3 : Shape := ⟨2, ![262144, 3]⟩
abbrev S256x63 : Shape := ⟨2, ![256, 63]⟩
abbrev S256 : Shape := ⟨1, ![256]⟩
abbrev S256x256 : Shape := ⟨2, ![256, 256]⟩
abbrev S256x319 : Shape := ⟨2, ![256, 319]⟩
abbrev S1x256 : Shape := ⟨2, ![1, 256]⟩
abbrev S1 : Shape := ⟨1, ![1]⟩
abbrev S128x283 : Shape := ⟨2, ![128, 283]⟩
abbrev S128 : Shape := ⟨1, ![128]⟩
abbrev S3x128 : Shape := ⟨2, ![3, 128]⟩
abbrev S3 : Shape := ⟨1, ![3]⟩
abbrev S10 : Shape := ⟨1, ![10]⟩
abbrev S_ : Shape := ⟨0, ![]⟩
abbrev S262144x1x3 : Shape := ⟨3, ![262144, 1, 3]⟩
abbrev S10x1 : Shape := ⟨2, ![10, 1]⟩
abbrev S1x10x1 : Shape := ⟨3, ![1, 10, 1]⟩
abbrev S262144x10x3 : Shape := ⟨3, ![262144, 10, 3]⟩
abbrev S262144x10x1x3 : Shape := ⟨4, ![262144, 10, 1, 3]⟩
abbrev S262144x10x2x3 : Shape := ⟨4, ![262144, 10, 2, 3]⟩
abbrev S262144x60 : Shape := ⟨2, ![262144, 60]⟩
abbrev S262144x63 : Shape := ⟨2, ![262144, 63]⟩
abbrev S4 : Shape := ⟨1, ![4]⟩
abbrev S4x1 : Shape := ⟨2, ![4, 1]⟩
abbrev S1x4x1 : Shape := ⟨3, ![1, 4, 1]⟩
abbrev S262144x4x3 : Shape := ⟨3, ![262144, 4, 3]⟩
abbrev S262144x4x1x3 : Shape := ⟨4, ![262144, 4, 1, 3]⟩
abbrev S262144x4x2x3 : Shape := ⟨4, ![262144, 4, 2, 3]⟩
abbrev S262144x24 : Shape := ⟨2, ![262144, 24]⟩
abbrev S262144x27 : Shape := ⟨2, ![262144, 27]⟩
abbrev S63x256 : Shape := ⟨2, ![63, 256]⟩
abbrev S262144x256 : Shape := ⟨2, ![262144, 256]⟩
abbrev S262144x319 : Shape := ⟨2, ![262144, 319]⟩
abbrev S319x256 : Shape := ⟨2, ![319, 256]⟩
abbrev S256x1 : Shape := ⟨2, ![256, 1]⟩
abbrev S262144x1 : Shape := ⟨2, ![262144, 1]⟩
abbrev S1x1 : Shape := ⟨2, ![1, 1]⟩
abbrev S262144x283 : Shape := ⟨2, ![262144, 283]⟩
abbrev S283x128 : Shape := ⟨2, ![283, 128]⟩
abbrev S262144x128 : Shape := ⟨2, ![262144, 128]⟩
abbrev S1x128 : Shape := ⟨2, ![1, 128]⟩
abbrev S128x3 : Shape := ⟨2, ![128, 3]⟩
abbrev S1x3 : Shape := ⟨2, ![1, 3]⟩
abbrev S262144 : Shape := ⟨1, ![262144]⟩

abbrev nBuf : Space → Nat
  | .hbm => 172
  | .vmem => 0
  | .smem => 0
  | _ => 0

abbrev hbmTy0_0 (i : Nat) : BufTy := match i % 128 with
  | 0 => ⟨S262144x3, .f32⟩
  | 1 => ⟨S262144x3, .f32⟩
  | 2 => ⟨S256x63, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x319, .f32⟩
  | 13 => ⟨S256, .f32⟩
  | 14 => ⟨S256x256, .f32⟩
  | 15 => ⟨S256, .f32⟩
  | 16 => ⟨S256x256, .f32⟩
  | 17 => ⟨S256, .f32⟩
  | 18 => ⟨S1x256, .f32⟩
  | 19 => ⟨S1, .f32⟩
  | 20 => ⟨S256x256, .f32⟩
  | 21 => ⟨S256, .f32⟩
  | 22 => ⟨S128x283, .f32⟩
  | 23 => ⟨S128, .f32⟩
  | 24 => ⟨S3x128, .f32⟩
  | 25 => ⟨S3, .f32⟩
  | 26 => ⟨S10, .i32⟩
  | 27 => ⟨S10, .f32⟩
  | 28 => ⟨S_, .f32⟩
  | 29 => ⟨S10, .f32⟩
  | 30 => ⟨S10, .f32⟩
  | 31 => ⟨S10, .f32⟩
  | 32 => ⟨S262144x1x3, .f32⟩
  | 33 => ⟨S10x1, .f32⟩
  | 34 => ⟨S1x10x1, .f32⟩
  | 35 => ⟨S262144x10x3, .f32⟩
  | 36 => ⟨S262144x10x3, .f32⟩
  | 37 => ⟨S262144x10x3, .f32⟩
  | 38 => ⟨S262144x10x3, .f32⟩
  | 39 => ⟨S262144x10x3, .f32⟩
  | 40 => ⟨S262144x10x1x3, .f32⟩
  | 41 => ⟨S262144x10x1x3, .f32⟩
  | 42 => ⟨S262144x10x2x3, .f32⟩
  | 43 => ⟨S262144x60, .f32⟩
  | 44 => ⟨S262144x63, .f32⟩
  | 45 => ⟨S4, .i32⟩
  | 46 => ⟨S4, .f32⟩
  | 47 => ⟨S_, .f32⟩
  | 48 => ⟨S4, .f32⟩
  | 49 => ⟨S4, .f32⟩
  | 50 => ⟨S4, .f32⟩
  | 51 => ⟨S262144x1x3, .f32⟩
  | 52 => ⟨S4x1, .f32⟩
  | 53 => ⟨S1x4x1, .f32⟩
  | 54 => ⟨S262144x4x3, .f32⟩
  | 55 => ⟨S262144x4x3, .f32⟩
  | 56 => ⟨S262144x4x3, .f32⟩
  | 57 => ⟨S262144x4x3, .f32⟩
  | 58 => ⟨S262144x4x3, .f32⟩
  | 59 => ⟨S262144x4x1x3, .f32⟩
  | 60 => ⟨S262144x4x1x3, .f32⟩
  | 61 => ⟨S262144x4x2x3, .f32⟩
  | 62 => ⟨S262144x24, .f32⟩
  | 63 => ⟨S262144x27, .f32⟩
  | 64 => ⟨S63x256, .f32⟩
  | 65 => ⟨S262144x256, .f32⟩
  | 66 => ⟨S1x256, .f32⟩
  | 67 => ⟨S262144x256, .f32⟩
  | 68 => ⟨S262144x256, .f32⟩
  | 69 => ⟨S_, .f32⟩
  | 70 => ⟨S262144x256, .f32⟩
  | 71 => ⟨S262144x256, .f32⟩
  | 72 => ⟨S256x256, .f32⟩
  | 73 => ⟨S262144x256, .f32⟩
  | 74 => ⟨S1x256, .f32⟩
  | 75 => ⟨S262144x256, .f32⟩
  | 76 => ⟨S262144x256, .f32⟩
  | 77 => ⟨S_, .f32⟩
  | 78 => ⟨S262144x256, .f32⟩
  | 79 => ⟨S262144x256, .f32⟩
  | 80 => ⟨S256x256, .f32⟩
  | 81 => ⟨S262144x256, .f32⟩
  | 82 => ⟨S1x256, .f32⟩
  | 83 => ⟨S262144x256, .f32⟩
  | 84 => ⟨S262144x256, .f32⟩
  | 85 => ⟨S_, .f32⟩
  | 86 => ⟨S262144x256, .f32⟩
  | 87 => ⟨S262144x256, .f32⟩
  | 88 => ⟨S256x256, .f32⟩
  | 89 => ⟨S262144x256, .f32⟩
  | 90 => ⟨S1x256, .f32⟩
  | 91 => ⟨S262144x256, .f32⟩
  | 92 => ⟨S262144x256, .f32⟩
  | 93 => ⟨S_, .f32⟩
  | 94 => ⟨S262144x256, .f32⟩
  | 95 => ⟨S262144x256, .f32⟩
  | 96 => ⟨S256x256, .f32⟩
  | 97 => ⟨S262144x256, .f32⟩
  | 98 => ⟨S1x256, .f32⟩
  | 99 => ⟨S262144x256, .f32⟩
  | 100 => ⟨S262144x256, .f32⟩
  | 101 => ⟨S_, .f32⟩
  | 102 => ⟨S262144x256, .f32⟩
  | 103 => ⟨S262144x256, .f32⟩
  | 104 => ⟨S262144x319, .f32⟩
  | 105 => ⟨S319x256, .f32⟩
  | 106 => ⟨S262144x256, .f32⟩
  | 107 => ⟨S1x256, .f32⟩
  | 108 => ⟨S262144x256, .f32⟩
  | 109 => ⟨S262144x256, .f32⟩
  | 110 => ⟨S_, .f32⟩
  | 111 => ⟨S262144x256, .f32⟩
  | 112 => ⟨S262144x256, .f32⟩
  | 113 => ⟨S256x256, .f32⟩
  | 114 => ⟨S262144x256, .f32⟩
  | 115 => ⟨S1x256, .f32⟩
  | 116 => ⟨S262144x256, .f32⟩
  | 117 => ⟨S262144x256, .f32⟩
  | 118 => ⟨S_, .f32⟩
  | 119 => ⟨S262144x256, .f32⟩
  | 120 => ⟨S262144x256, .f32⟩
  | 121 => ⟨S256x256, .f32⟩
  | 122 => ⟨S262144x256, .f32⟩
  | 123 => ⟨S1x256, .f32⟩
  | 124 => ⟨S262144x256, .f32⟩
  | 125 => ⟨S262144x256, .f32⟩
  | 126 => ⟨S_, .f32⟩
  | 127 => ⟨S262144x256, .f32⟩
  | _ => ⟨S262144x3, .f32⟩

abbrev hbmTy0_1 (i : Nat) : BufTy := match i % 128 with
  | 0 => ⟨S262144x256, .f32⟩
  | 1 => ⟨S256x1, .f32⟩
  | 2 => ⟨S262144x1, .f32⟩
  | 3 => ⟨S1x1, .f32⟩
  | 4 => ⟨S262144x1, .f32⟩
  | 5 => ⟨S262144x1, .f32⟩
  | 6 => ⟨S_, .f32⟩
  | 7 => ⟨S262144x1, .f32⟩
  | 8 => ⟨S262144x1, .f32⟩
  | 9 => ⟨S_, .f32⟩
  | 10 => ⟨S262144x1, .f32⟩
  | 11 => ⟨S262144x1, .f32⟩
  | 12 => ⟨S262144x1, .f32⟩
  | 13 => ⟨S256x256, .f32⟩
  | 14 => ⟨S262144x256, .f32⟩
  | 15 => ⟨S1x256, .f32⟩
  | 16 => ⟨S262144x256, .f32⟩
  | 17 => ⟨S262144x256, .f32⟩
  | 18 => ⟨S_, .f32⟩
  | 19 => ⟨S262144x256, .f32⟩
  | 20 => ⟨S262144x256, .f32⟩
  | 21 => ⟨S262144x283, .f32⟩
  | 22 => ⟨S283x128, .f32⟩
  | 23 => ⟨S262144x128, .f32⟩
  | 24 => ⟨S1x128, .f32⟩
  | 25 => ⟨S262144x128, .f32⟩
  | 26 => ⟨S262144x128, .f32⟩
  | 27 => ⟨S_, .f32⟩
  | 28 => ⟨S262144x128, .f32⟩
  | 29 => ⟨S262144x128, .f32⟩
  | 30 => ⟨S128x3, .f32⟩
  | 31 => ⟨S262144x3, .f32⟩
  | 32 => ⟨S1x3, .f32⟩
  | 33 => ⟨S262144x3, .f32⟩
  | 34 => ⟨S262144x3, .f32⟩
  | 35 => ⟨S262144x3, .f32⟩
  | 36 => ⟨S262144x3, .f32⟩
  | 37 => ⟨S_, .f32⟩
  | 38 => ⟨S262144x3, .f32⟩
  | 39 => ⟨S262144x3, .f32⟩
  | 40 => ⟨S_, .f32⟩
  | 41 => ⟨S262144x3, .f32⟩
  | 42 => ⟨S262144x3, .f32⟩
  | 43 => ⟨S262144, .f32⟩
  | _ => ⟨S262144x3, .f32⟩

abbrev hbmTy (i : Nat) : BufTy := match i / 128 with
  | 0 => hbmTy0_0 i
  | 1 => hbmTy0_1 i
  | _ => ⟨S262144x3, .f32⟩

abbrev bufTy : (tb : Table) → Fin (tcTables nBuf tb) → BufTy
  | .hbm, ⟨i, _⟩ => hbmTy i
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call0_cst : Ref sig .tc := ⟨.hbm, 69, rfl⟩
abbrev main_call0_v0 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call2_cst : Ref sig .tc := ⟨.hbm, 85, rfl⟩
abbrev main_call2_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call3_cst : Ref sig .tc := ⟨.hbm, 93, rfl⟩
abbrev main_call3_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call4_cst : Ref sig .tc := ⟨.hbm, 101, rfl⟩
abbrev main_call4_v0 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_call5_cst : Ref sig .tc := ⟨.hbm, 110, rfl⟩
abbrev main_call5_v0 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call6_cst : Ref sig .tc := ⟨.hbm, 118, rfl⟩
abbrev main_call6_v0 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_call7_cst : Ref sig .tc := ⟨.hbm, 126, rfl⟩
abbrev main_call7_v0 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_call8_cst : Ref sig .tc := ⟨.hbm, 134, rfl⟩
abbrev main_call8_v0 : Ref sig .tc := ⟨.hbm, 135, rfl⟩
abbrev main_v90 : Ref sig .tc := ⟨.hbm, 136, rfl⟩
abbrev main_cst_1 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_call9_cst : Ref sig .tc := ⟨.hbm, 146, rfl⟩
abbrev main_call9_v0 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_call10_cst : Ref sig .tc := ⟨.hbm, 155, rfl⟩
abbrev main_call10_v0 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_2 : Ref sig .tc := ⟨.hbm, 165, rfl⟩
abbrev main_v114 : Ref sig .tc := ⟨.hbm, 166, rfl⟩
abbrev main_v115 : Ref sig .tc := ⟨.hbm, 167, rfl⟩
abbrev main_cst_3 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩

abbrev nD : Nat := 1
abbrev τ : Topo := Topo.v7x

variable {F : FTy → Type} [FloatOps F]

class Facts₀ : Prop where
  bcast_S_S10 : S_.BroadcastsInDim S10 (![] : Fin 0 → Fin S10.rank)
  bcast_S262144x3_S262144x1x3_0_2 : S262144x3.BroadcastsInDim S262144x1x3 (![0, 2] : Fin 2 → Fin S262144x1x3.rank)
  bcast_S10_S10x1_0 : S10.BroadcastsInDim S10x1 (![0] : Fin 1 → Fin S10x1.rank)
  bcast_S10x1_S1x10x1_1_2 : S10x1.BroadcastsInDim S1x10x1 (![1, 2] : Fin 2 → Fin S1x10x1.rank)
  bcast_S262144x1x3_S262144x10x3_0_1_2 : S262144x1x3.BroadcastsInDim S262144x10x3 (![0, 1, 2] : Fin 3 → Fin S262144x10x3.rank)
  bcast_S1x10x1_S262144x10x3_0_1_2 : S1x10x1.BroadcastsInDim S262144x10x3 (![0, 1, 2] : Fin 3 → Fin S262144x10x3.rank)
  bcast_S262144x10x3_S262144x10x1x3_0_1_3 : S262144x10x3.BroadcastsInDim S262144x10x1x3 (![0, 1, 3] : Fin 3 → Fin S262144x10x1x3.rank)
  concatenates_S262144x10x1x3_S262144x10x1x3_S262144x10x2x3_d2 : Shape.Concatenates [S262144x10x1x3, S262144x10x1x3] S262144x10x2x3 2
  shapeCasts_S262144x10x2x3_S262144x60 : S262144x10x2x3.ShapeCasts S262144x60
  concatenates_S262144x3_S262144x60_S262144x63_d1 : Shape.Concatenates [S262144x3, S262144x60] S262144x63 1
  bcast_S_S4 : S_.BroadcastsInDim S4 (![] : Fin 0 → Fin S4.rank)
  bcast_S4_S4x1_0 : S4.BroadcastsInDim S4x1 (![0] : Fin 1 → Fin S4x1.rank)
  bcast_S4x1_S1x4x1_1_2 : S4x1.BroadcastsInDim S1x4x1 (![1, 2] : Fin 2 → Fin S1x4x1.rank)
  bcast_S262144x1x3_S262144x4x3_0_1_2 : S262144x1x3.BroadcastsInDim S262144x4x3 (![0, 1, 2] : Fin 3 → Fin S262144x4x3.rank)
  bcast_S1x4x1_S262144x4x3_0_1_2 : S1x4x1.BroadcastsInDim S262144x4x3 (![0, 1, 2] : Fin 3 → Fin S262144x4x3.rank)
  bcast_S262144x4x3_S262144x4x1x3_0_1_3 : S262144x4x3.BroadcastsInDim S262144x4x1x3 (![0, 1, 3] : Fin 3 → Fin S262144x4x1x3.rank)
  concatenates_S262144x4x1x3_S262144x4x1x3_S262144x4x2x3_d2 : Shape.Concatenates [S262144x4x1x3, S262144x4x1x3] S262144x4x2x3 2
  shapeCasts_S262144x4x2x3_S262144x24 : S262144x4x2x3.ShapeCasts S262144x24
  concatenates_S262144x3_S262144x24_S262144x27_d1 : Shape.Concatenates [S262144x3, S262144x24] S262144x27 1
  transposes_S256x63_S63x256_1_0 : S256x63.Transposes [1, 0] S63x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S256x256_S256x256_1_0 : S256x256.Transposes [1, 0] S256x256
  concatenates_S262144x63_S262144x256_S262144x319_d1 : Shape.Concatenates [S262144x63, S262144x256] S262144x319 1
  transposes_S256x319_S319x256_1_0 : S256x319.Transposes [1, 0] S319x256
  transposes_S1x256_S256x1_1_0 : S1x256.Transposes [1, 0] S256x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  concatenates_S262144x256_S262144x27_S262144x283_d1 : Shape.Concatenates [S262144x256, S262144x27] S262144x283 1
  transposes_S128x283_S283x128_1_0 : S128x283.Transposes [1, 0] S283x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  transposes_S3x128_S128x3_1_0 : S3x128.Transposes [1, 0] S128x3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  bcast_S_S262144x3 : S_.BroadcastsInDim S262144x3 (![] : Fin 0 → Fin S262144x3.rank)
  shapeCasts_S262144x1_S262144 : S262144x1.ShapeCasts S262144
  dot_S262144x63_S63x256_S262144x256_1_0_0_1_n_n_wf : DotDims.WF S262144x63 S63x256 S262144x256 [1] [0] [0] [1] [] []
  dot_S262144x256_S256x256_S262144x256_1_0_0_1_n_n_wf : DotDims.WF S262144x256 S256x256 S262144x256 [1] [0] [0] [1] [] []
  dot_S262144x319_S319x256_S262144x256_1_0_0_1_n_n_wf : DotDims.WF S262144x319 S319x256 S262144x256 [1] [0] [0] [1] [] []
  dot_S262144x256_S256x1_S262144x1_1_0_0_1_n_n_wf : DotDims.WF S262144x256 S256x1 S262144x1 [1] [0] [0] [1] [] []
  dot_S262144x283_S283x128_S262144x128_1_0_0_1_n_n_wf : DotDims.WF S262144x283 S283x128 S262144x128 [1] [0] [0] [1] [] []
  dot_S262144x128_S128x3_S262144x3_1_0_0_1_n_n_wf : DotDims.WF S262144x128 S128x3 S262144x3 [1] [0] [0] [1] [] []

variable [Facts₀]

def dot_S262144x63_S63x256_S262144x256_1_0_0_1_n_n : DotDims S262144x63 S63x256 S262144x256 where
  lhsContracting := [1]
  rhsContracting := [0]
  lhsNonContracting := [0]
  rhsNonContracting := [1]
  lhsBatch := []
  rhsBatch := []
  wf := dot_S262144x63_S63x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x319_S319x256_S262144x256_1_0_0_1_n_n : DotDims S262144x319 S319x256 S262144x256 where
  lhsContracting := [1]
  rhsContracting := [0]
  lhsNonContracting := [0]
  rhsNonContracting := [1]
  lhsBatch := []
  rhsBatch := []
  wf := dot_S262144x319_S319x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf
def dot_S262144x283_S283x128_S262144x128_1_0_0_1_n_n : DotDims S262144x283 S283x128 S262144x128 where
  lhsContracting := [1]
  rhsContracting := [0]
  lhsNonContracting := [0]
  rhsNonContracting := [1]
  lhsBatch := []
  rhsBatch := []
  wf := dot_S262144x283_S283x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.PackedArray.lean ====
/-
  The packed result array after the run. Grid point `t` writes back rows `4096 t … 4096 t + 4095` (all 32 columns) of the
  [262144, 32] array, and what it writes is what the body left in its output block at that point. So the array after the
  run is ONE function of the index: row `R`, column `q` holds entry `(R % 4096, q)` of the block the body left at point
  `R / 4096`. The 64 blocks tile the array (row `R` lies in point `R / 4096`'s block), so every entry is covered.
-/
import proofs.«118394_j18519898980813_2_alg».proof.Proof.GenPKernelIdealFrame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx

namespace Cert.KernelIdeal.Packed

open Cert.KernelIdeal Cert.KernelIdeal.Gen Cert.KernelIdeal.GenP

variable {F : FTy → Type} [FloatOps F]
variable (m : (ℓ : Loc nD τ sig) → Buf (Elt F) ℓ)

/-- Point `t` of the 64 as a grid point. -/
abbrev pt (t : Fin 64) : Fin cfg0.N := Fin.cast N_0.symm t

/-- The packed array: entry `(R, q)` is entry `(R % 4096, q)` of the block the body leaves at grid point `R / 4096`. -/
def arr (c : Dev nD) : S262144x32.Idx → Elt F .f32 := fun i =>
  outsAt0 m c ⟨(i 0).val / 4096, by have h := idx2_lt0 i; rw [show cfg0.N = 64 from N_0]; omega⟩
    (ix2 (n0 := 4096) (n1 := 32) ⟨(i 0).val % 4096, Nat.mod_lt _ (by decide)⟩ ⟨(i 1).val, idx2_lt1 i⟩)

/-- The packed array at row `4096 t + p`, column `q`: entry `(p, q)` of point `t`'s block. -/
theorem arr_apply (c : Dev nD) (i : S262144x32.Idx) (t : Fin cfg0.N) (p : Fin 4096) (q : Fin 32)
    (h0 : (i 0).val = 4096 * t.val + p.val) (h1 : (i 1).val = q.val) :
    arr m c i = outsAt0 m c t (ix2 p q) := by
  have ht : (i 0).val / 4096 = t.val := by have := p.isLt; omega
  have hp : (i 0).val % 4096 = p.val := by have := p.isLt; omega
  unfold arr
  exact congr (congrArg (outsAt0 m c) (Fin.ext ht))
    (funext fun a => match a with
      | ⟨0, _⟩ => Fin.ext hp
      | ⟨1, _⟩ => Fin.ext h1)

/-- The same over a block index `j`: the array at row `4096 t + j₀`, column `j₁` is entry `j` of point `t`'s block. -/
theorem arr_emb (c : Dev nD) (t : Fin cfg0.N) (j : S4096x32.Idx) (i : S262144x32.Idx)
    (h0 : (i 0).val = 4096 * t.val + (j 0).val) (h1 : (i 1).val = (j 1).val) :
    arr m c i = outsAt0 m c t j :=
  (arr_apply m c i t (j 0) (j 1) h0 h1).trans (congrArg (outsAt0 m c t) (eq_ix2 j).symm)

-- The array's entries are given by `arr_apply` and `arr_emb`; its defining expression is not opened again.
attribute [irreducible] arr

/-- The output window's block index at point `t`: block row `t`, block column 0 (decided over the 64 points). -/
theorem out_index : ∀ t : Fin cfg0.N, win0_27.index t (0 : Fin 2) = t.val ∧ win0_27.index t (1 : Fin 2) = 0 :=
  (by decide +kernel : ∀ t : Fin grid0.N, _)

/-- What point `t` writes back is block `t` of the packed array: the block's entry `(p, q)` sits at row
    `4096 t + p`, column `q`. -/
theorem flushed_eq (c : Dev nD) (t : Fin cfg0.N) :
    (dats m 0 c).flushed 27 t = ((cfg0.win 27).blk t).view.read (Elt F) (arr m c) := by
  show (cfg0.win 27).cut (grid0.coords t) ((dats m 0 c).after 27 t) = _
  rw [after0_27]
  refine funext fun (j : S4096x32.Idx) => ?_
  rw [View.read_apply]
  refine (arr_emb m c t j _ ?_ ?_).symm
  · show win0_27.index t (0 : Fin 2) * 4096 + 1 * (j 0).val = 4096 * t.val + (j 0).val
    rw [(out_index t).1]; omega
  · show win0_27.index t (1 : Fin 2) * 32 + 1 * (j 1).val = (j 1).val
    rw [(out_index t).2]; omega

/-- An index of the array is in point `t`'s block iff each coordinate is in the block's range on its axis. -/
theorem mem_blk (t : Fin cfg0.N) (i : S262144x32.Idx) :
    i ∈ ((cfg0.win 27).blk t).view.set ↔ ∀ a : Fin 2, win0_27.index t a * S4096x32.size a ≤ (i a).val ∧ (i a).val < win0_27.index t a * S4096x32.size a + S4096x32.size a := by
  show i ∈ ((View.whole main_v29).slice (win0_27.rect t)).set ↔ _
  rw [View.set_slice_whole, Rect.mem_set_unit]
  exact Iff.rfl

/-- Every entry of the array is written back by some point: row `R` by point `R / 4096`. -/
theorem cover (i : S262144x32.Idx) :
    ∃ t : Fin cfg0.N, (cfg0.win 27).flush t = true ∧ i ∈ ((cfg0.win 27).blk t).view.set := by
  have h0 : (i 0).val < 262144 := idx2_lt0 i
  have h1 : (i 1).val < 32 := idx2_lt1 i
  have hN : cfg0.N = 64 := N_0
  refine ⟨⟨(i 0).val / 4096, by omega⟩, flush0_27 _, ?_⟩
  rw [mem_blk]
  intro a
  match a with
  | ⟨0, _⟩ =>
    show win0_27.index ⟨(i 0).val / 4096, _⟩ (0 : Fin 2) * 4096 ≤ (i 0).val ∧ (i 0).val < win0_27.index ⟨(i 0).val / 4096, _⟩ (0 : Fin 2) * 4096 + 4096
    rw [(out_index _).1]
    show (i 0).val / 4096 * 4096 ≤ (i 0).val ∧ (i 0).val < (i 0).val / 4096 * 4096 + 4096
    omega
  | ⟨1, _⟩ =>
    show win0_27.index ⟨(i 0).val / 4096, _⟩ (1 : Fin 2) * 32 ≤ (i 1).val ∧ (i 1).val < win0_27.index ⟨(i 0).val / 4096, _⟩ (1 : Fin 2) * 32 + 32
    rw [(out_index _).2]
    omega

/-- So the result array of the region ends holding the packed array. -/
theorem final (c : Dev nD) : (dats m 0 c).arrAt 27 cfg0.N = arr m c :=
  (dats m 0 c).arrAt_eq_of_cover 27 (arr m c) (fun t _ => flushed_eq m c t) cover

end Cert.KernelIdeal.Packed

end
-- ==== Proof.PackedRun.lean ====
/-
  The kernel's run, read. After the region the host slices the packed [262144, 32] array into the three results:
  columns 0 … 2 (a [262144, 3] array), column 3 (a [262144, 1] array, then flattened to [262144]), and columns 4 … 30
  (a [262144, 27] array). The region leaves the packed array of the module before this one, so each result is that
  slice of it; the arguments end as they were launched.
-/
import proofs.«118394_j18519898980813_2_alg».proof.Proof.PackedArray
import Idealize.ShloMosaic.Lib.StableHlo.Run
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx
open Idealize.ShloMosaic.Rounds

namespace Cert.KernelIdeal.Packed

open Cert.KernelIdeal Cert.KernelIdeal.Gen Cert.KernelIdeal.GenP

variable {F : FTy → Type} [FloatOps F]
variable (m : (ℓ : Loc nD τ sig) → Buf (Elt F) ℓ)

/-- Columns 0 … 2 of the packed array. -/
def rgb (c : Dev nD) : Buf (Elt F) ((c.tc : Thread nD τ).loc main_v30) :=
  extractStridedSlice S262144x3 ![0, 0] (arr m c) slices_S262144x32_S262144x3_0_0

/-- Column 3 of the packed array, flattened to one axis. -/
def sigma (c : Dev nD) : Buf (Elt F) ((c.tc : Thread nD τ).loc main_v32) :=
  shapeCast S262144 (extractStridedSlice S262144x1 ![0, 3] (arr m c) slices_S262144x32_S262144x1_0_3) shapeCasts_S262144x1_S262144

/-- Columns 4 … 30 of the packed array. -/
def dirs (c : Dev nD) : Buf (Elt F) ((c.tc : Thread nD τ).loc main_v33) :=
  extractStridedSlice S262144x27 ![0, 4] (arr m c) slices_S262144x32_S262144x27_0_4

/-- What the host operations after the region find in the region's result buffer: the packed array. -/
theorem region_arr (c : Dev nD) :
    Pipeline.withArrays spec0 c (V0 m c) (fun w => (dats m 0 c).arrAt w cfg0.N) (Proc.devRef .tc main_v29) = arr m c :=
  (Pipeline.withArrays_arr spec0 launch0.win.arr_inj c _ _ 27).trans (final m c)

theorem tail_rgb (c : Dev nD) : Pipeline.afterTail₀ cfgs (dats m) 0 (V0 m) [hostOps1] c main_v30 = rgb m c := by
  unfold Pipeline.afterTail₀
  show StableHlo.after hostOps1 _ (Proc.devRef .tc main_v30) = _
  after_results
  exact congrArg (fun x => extractStridedSlice S262144x3 ![0, 0] x slices_S262144x32_S262144x3_0_0) (region_arr m c)

theorem tail_sigma (c : Dev nD) : Pipeline.afterTail₀ cfgs (dats m) 0 (V0 m) [hostOps1] c main_v32 = sigma m c := by
  unfold Pipeline.afterTail₀
  show StableHlo.after hostOps1 _ (Proc.devRef .tc main_v32) = _
  after_results
  exact congrArg (fun x => shapeCast S262144 (extractStridedSlice S262144x1 ![0, 3] x slices_S262144x32_S262144x1_0_3) shapeCasts_S262144x1_S262144) (region_arr m c)

theorem tail_dirs (c : Dev nD) : Pipeline.afterTail₀ cfgs (dats m) 0 (V0 m) [hostOps1] c main_v33 = dirs m c := by
  unfold Pipeline.afterTail₀
  show StableHlo.after hostOps1 _ (Proc.devRef .tc main_v33) = _
  after_results
  exact congrArg (fun x => extractStridedSlice S262144x27 ![0, 4] x slices_S262144x32_S262144x27_0_4) (region_arr m c)

set_option maxHeartbeats 2400000 in
/-- The run's post from the frame run's, for ANY proof data `D` whose arrays are the region-entry contents (`hA`) and whose
    three results after the host tail are `G30`, `G32`, `G33`: the results are those, and every argument ends as launched
    (an argument a window stages by the first clause of the frame run's post, any other by the second). -/
theorem run_of (ρ : Dev nD → PrngReg)
    (D : (p : Fin 1) → (c : Dev nD) → Dat τ (Elt F) Unit ℕ (UR sig nD τ) ℕ (cfgs p) c)
    (hA : ∀ c w, (D 0 c).A w = V m c (Pipeline.arrRef spec0 w))
    (G30 : (c : Dev nD) → Buf (Elt F) ((c.tc : Thread nD τ).loc main_v30))
    (G32 : (c : Dev nD) → Buf (Elt F) ((c.tc : Thread nD τ).loc main_v32))
    (G33 : (c : Dev nD) → Buf (Elt F) ((c.tc : Thread nD τ).loc main_v33))
    (h30 : ∀ c, Pipeline.afterTail₀ cfgs D 0 (V0 m) [hostOps1] c main_v30 = G30 c)
    (h32 : ∀ c, Pipeline.afterTail₀ cfgs D 0 (V0 m) [hostOps1] c main_v32 = G32 c)
    (h33 : ∀ c, Pipeline.afterTail₀ cfgs D 0 (V0 m) [hostOps1] c main_v33 = G33 c)
    (h : θ_run defs (onTc (τ := τ) (main (F := F))) (s₀ m ρ) (Pipeline.FramePost cfgs D 0 (Pipeline.afterTail₀ cfgs D 0 (V0 m) [hostOps1]))) :
    θ_run defs (onTc (τ := τ) (main (F := F))) ⟨m, fun _ => 0, ρ⟩ (fun r => ∀ c : Dev nD,
      r.2.mem ((c.tc : Thread nD τ).loc main_v30) = G30 c
      ∧ r.2.mem ((c.tc : Thread nD τ).loc main_v32) = G32 c
      ∧ r.2.mem ((c.tc : Thread nD τ).loc main_v33) = G33 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨
      ((h c).2 main_v30 (Pipeline.mem_restRefs_of main_v30 (by decide) (by decide))).trans (h30 c),
      ((h c).2 main_v32 (Pipeline.mem_restRefs_of main_v32 (by decide) (by decide))).trans (h32 c),
      ((h c).2 main_v33 (Pipeline.mem_restRefs_of main_v33 (by decide) (by decide))).trans (h33 c),
      ((h c).2 main_arg0 (Pipeline.mem_restRefs_of main_arg0 (by decide) (by decide))).trans (W_main_arg0 m D c),
      ((h c).2 main_arg1 (Pipeline.mem_restRefs_of main_arg1 (by decide) (by decide))).trans (W_main_arg1 m D c),
      ((h c).2 main_arg2 (Pipeline.mem_restRefs_of main_arg2 (by decide) (by decide))).trans (W_main_arg2 m D c),
      ((h c).1 2).trans (((D 0 c).arrAt_in 2 rfl _).trans ((hA c 2).trans (V_main_arg3 m c))),
      ((h c).2 main_arg4 (Pipeline.mem_restRefs_of main_arg4 (by decide) (by decide))).trans (W_main_arg4 m D c),
      ((h c).1 4).trans (((D 0 c).arrAt_in 4 rfl _).trans ((hA c 4).trans (V_main_arg5 m c))),
      ((h c).2 main_arg6 (Pipeline.mem_restRefs_of main_arg6 (by decide) (by decide))).trans (W_main_arg6 m D c),
      ((h c).1 6).trans (((D 0 c).arrAt_in 6 rfl _).trans ((hA c 6).trans (V_main_arg7 m c))),
      ((h c).2 main_arg8 (Pipeline.mem_restRefs_of main_arg8 (by decide) (by decide))).trans (W_main_arg8 m D c),
      ((h c).1 8).trans (((D 0 c).arrAt_in 8 rfl _).trans ((hA c 8).trans (V_main_arg9 m c))),
      ((h c).2 main_arg10 (Pipeline.mem_restRefs_of main_arg10 (by decide) (by decide))).trans (W_main_arg10 m D c),
      ((h c).1 10).trans (((D 0 c).arrAt_in 10 rfl _).trans ((hA c 10).trans (V_main_arg11 m c))),
      ((h c).2 main_arg12 (Pipeline.mem_restRefs_of main_arg12 (by decide) (by decide))).trans (W_main_arg12 m D c),
      ((h c).1 13).trans (((D 0 c).arrAt_in 13 rfl _).trans ((hA c 13).trans (V_main_arg13 m c))),
      ((h c).2 main_arg14 (Pipeline.mem_restRefs_of main_arg14 (by decide) (by decide))).trans (W_main_arg14 m D c),
      ((h c).1 15).trans (((D 0 c).arrAt_in 15 rfl _).trans ((hA c 15).trans (V_main_arg15 m c))),
      ((h c).2 main_arg16 (Pipeline.mem_restRefs_of main_arg16 (by decide) (by decide))).trans (W_main_arg16 m D c),
      ((h c).1 17).trans (((D 0 c).arrAt_in 17 rfl _).trans ((hA c 17).trans (V_main_arg17 m c))),
      ((h c).2 main_arg18 (Pipeline.mem_restRefs_of main_arg18 (by decide) (by decide))).trans (W_main_arg18 m D c),
      ((h c).1 19).trans (((D 0 c).arrAt_in 19 rfl _).trans ((hA c 19).trans (V_main_arg19 m c))),
      ((h c).2 main_arg20 (Pipeline.mem_restRefs_of main_arg20 (by decide) (by decide))).trans (W_main_arg20 m D c),
      ((h c).1 21).trans (((D 0 c).arrAt_in 21 rfl _).trans ((hA c 21).trans (V_main_arg21 m c))),
      ((h c).2 main_arg22 (Pipeline.mem_restRefs_of main_arg22 (by decide) (by decide))).trans (W_main_arg22 m D c),
      ((h c).1 24).trans (((D 0 c).arrAt_in 24 rfl _).trans ((hA c 24).trans (V_main_arg23 m c))),
      ((h c).2 main_arg24 (Pipeline.mem_restRefs_of main_arg24 (by decide) (by decide))).trans (W_main_arg24 m D c),
      ((h c).1 26).trans (((D 0 c).arrAt_in 26 rfl _).trans ((hA c 26).trans (V_main_arg25 m c)))⟩) h

/-- The run: every execution of the program ends with the three results at the slices of the packed array and every
    argument as launched. -/
theorem run (ρ : Dev nD → PrngReg) : θ_run defs (onTc (τ := τ) (main (F := F))) ⟨m, fun _ => 0, ρ⟩ (fun r => ∀ c : Dev nD,
      r.2.mem ((c.tc : Thread nD τ).loc main_v30) = rgb m c
      ∧ r.2.mem ((c.tc : Thread nD τ).loc main_v32) = sigma m c
      ∧ r.2.mem ((c.tc : Thread nD τ).loc main_v33) = dirs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  run_of m ρ (dats m) (A_eq m) (rgb m) (sigma m) (dirs m) (tail_rgb m) (tail_sigma m) (tail_dirs m) (run_main m ρ)

end Cert.KernelIdeal.Packed

end
-- ==== Proof.PackedPieces.lean ====
/-
  What the kernel body leaves in its [4096, 32] output block, entry by entry. The body makes four stores into the block, each
  through a rectangle of whole rows: columns 0 … 2, column 3, columns 4 … 30, column 31. The rectangles are disjoint, so an
  entry of the block holds the payload of the one store whose columns contain it, read at the entry's column counted from the
  rectangle's first column.
-/
import proofs.«118394_j18519898980813_2_alg».proof.Proof.GenPKernelIdealFrame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx

namespace Cert.KernelIdeal.Packed

open Cert.KernelIdeal Cert.KernelIdeal.Gen Cert.KernelIdeal.GenP

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- The block the body leaves is the overlay of its four stores (the last store first), each payload a term of the input
    blocks alone: every load of an input reads the whole block. -/
theorem out_canon (c : Dev nD) (i : grid0.Coords) (arg1 : Memref sig .tc .vmem S4096x6 .f32) (harg1 : arg1.IsWhole) (arg2 : Memref sig .tc .vmem S63x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S256x256 .bf16) (harg10 : arg10.IsWhole) (arg11 : Memref sig .tc .vmem S256 .f32) (harg11 : arg11.IsWhole) (arg12 : Memref sig .tc .vmem S63x256 .bf16) (harg12 : arg12.IsWhole) (arg13 : Memref sig .tc .vmem S256x256 .bf16) (harg13 : arg13.IsWhole) (arg14 : Memref sig .tc .vmem S256 .f32) (harg14 : arg14.IsWhole) (arg15 : Memref sig .tc .vmem S256x256 .bf16) (harg15 : arg15.IsWhole) (arg16 : Memref sig .tc .vmem S256 .f32) (harg16 : arg16.IsWhole) (arg17 : Memref sig .tc .vmem S256x256 .bf16) (harg17 : arg17.IsWhole) (arg18 : Memref sig .tc .vmem S256 .f32) (harg18 : arg18.IsWhole) (arg19 : Memref sig .tc .vmem S256x1 .bf16) (harg19 : arg19.IsWhole) (arg20 : Memref sig .tc .vmem S1 .f32) (harg20 : arg20.IsWhole) (arg21 : Memref sig .tc .vmem S256x256 .bf16) (harg21 : arg21.IsWhole) (arg22 : Memref sig .tc .vmem S256 .f32) (harg22 : arg22.IsWhole) (arg23 : Memref sig .tc .vmem S256x128 .bf16) (harg23 : arg23.IsWhole) (arg24 : Memref sig .tc .vmem S27x128 .bf16) (harg24 : arg24.IsWhole) (arg25 : Memref sig .tc .vmem S128 .f32) (harg25 : arg25.IsWhole) (arg26 : Memref sig .tc .vmem S128x3 .bf16) (harg26 : arg26.IsWhole) (arg27 : Memref sig .tc .vmem S3 .f32) (harg27 : arg27.IsWhole) (arg28 : Memref sig .tc .vmem S4096x32 .f32) (harg28 : arg28.IsWhole)
    (x0 : Vec F S4096x6 .f32) (x1 : Vec F S63x256 .bf16) (x2 : Vec F S256 .f32) (x3 : Vec F S256x256 .bf16) (x4 : Vec F S256 .f32) (x5 : Vec F S256x256 .bf16) (x6 : Vec F S256 .f32) (x7 : Vec F S256x256 .bf16) (x8 : Vec F S256 .f32) (x9 : Vec F S256x256 .bf16) (x10 : Vec F S256 .f32) (x11 : Vec F S63x256 .bf16) (x12 : Vec F S256x256 .bf16) (x13 : Vec F S256 .f32) (x14 : Vec F S256x256 .bf16) (x15 : Vec F S256 .f32) (x16 : Vec F S256x256 .bf16) (x17 : Vec F S256 .f32) (x18 : Vec F S256x1 .bf16) (x19 : Vec F S1 .f32) (x20 : Vec F S256x256 .bf16) (x21 : Vec F S256 .f32) (x22 : Vec F S256x128 .bf16) (x23 : Vec F S27x128 .bf16) (x24 : Vec F S128 .f32) (x25 : Vec F S128x3 .bf16) (x26 : Vec F S3 .f32) :
    out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26
      = View.canon (Val := Elt F)
          [(⟨Rect.unit (s := S4096x32) ![0, 31] S4096x1.size inb_S4096x32_S4096x1_0_31, k0_pay2 (F := F)⟩ : View.Piece (Elt F) S4096x32 .f32),
           ⟨Rect.unit (s := S4096x32) ![0, 4] S4096x27.size inb_S4096x32_S4096x27_0_4, (k0_pay7 (k0_pay4 x0) k0_pay6)⟩,
           ⟨Rect.unit (s := S4096x32) ![0, 3] S4096x1.size inb_S4096x32_S4096x1_0_3, (k0_pay12 (k0_pay10 (k0_pay5 x0) (k0_pay8 (k0_pay5 x0) x1 x2 x3 x4 x5) (k0_pay9 x6) x7 x8 x9 x10 x11 x12 x13) x14 x15 x16 x17 x18 x19)⟩,
           ⟨Rect.unit (s := S4096x32) ![0, 0] S4096x3.size inb_S4096x32_S4096x3_0_0, (k0_pay1 (k0_pay13 (k0_pay10 (k0_pay5 x0) (k0_pay8 (k0_pay5 x0) x1 x2 x3 x4 x5) (k0_pay9 x6) x7 x8 x9 x10 x11 x12 x13) x14 x15 x16 x17 x20 x21) (k0_pay14 (k0_pay7 (k0_pay4 x0) k0_pay6)) (k0_pay15 x22) x23 x24 x25 x26)⟩] := by
  unfold out0_A_27
  rw [View.read_writes_eq_canon _ _ _ (cover0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread,
    View.ld_unit_zero (S := S4096x6) hz2, View.ld_unit_zero (S := S63x256) hz2, View.ld_unit_zero (S := S256x256) hz2,
    View.ld_unit_zero (S := S256x1) hz2, View.ld_unit_zero (S := S256x128) hz2, View.ld_unit_zero (S := S27x128) hz2,
    View.ld_unit_zero (S := S128x3) hz2, View.ld_unit_zero (S := S256) hz1, View.ld_unit_zero (S := S1) hz1,
    View.ld_unit_zero (S := S128) hz1, View.ld_unit_zero (S := S3) hz1] <;> rfl

/-- Columns 4 … 30 of the block: the third store's payload. Column `q + 4` is not column 31, and is column `q` of the
    rectangle that starts at column 4. -/
theorem out_dirs (c : Dev nD) (i : grid0.Coords) (arg1 : Memref sig .tc .vmem S4096x6 .f32) (harg1 : arg1.IsWhole) (arg2 : Memref sig .tc .vmem S63x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S256x256 .bf16) (harg10 : arg10.IsWhole) (arg11 : Memref sig .tc .vmem S256 .f32) (harg11 : arg11.IsWhole) (arg12 : Memref sig .tc .vmem S63x256 .bf16) (harg12 : arg12.IsWhole) (arg13 : Memref sig .tc .vmem S256x256 .bf16) (harg13 : arg13.IsWhole) (arg14 : Memref sig .tc .vmem S256 .f32) (harg14 : arg14.IsWhole) (arg15 : Memref sig .tc .vmem S256x256 .bf16) (harg15 : arg15.IsWhole) (arg16 : Memref sig .tc .vmem S256 .f32) (harg16 : arg16.IsWhole) (arg17 : Memref sig .tc .vmem S256x256 .bf16) (harg17 : arg17.IsWhole) (arg18 : Memref sig .tc .vmem S256 .f32) (harg18 : arg18.IsWhole) (arg19 : Memref sig .tc .vmem S256x1 .bf16) (harg19 : arg19.IsWhole) (arg20 : Memref sig .tc .vmem S1 .f32) (harg20 : arg20.IsWhole) (arg21 : Memref sig .tc .vmem S256x256 .bf16) (harg21 : arg21.IsWhole) (arg22 : Memref sig .tc .vmem S256 .f32) (harg22 : arg22.IsWhole) (arg23 : Memref sig .tc .vmem S256x128 .bf16) (harg23 : arg23.IsWhole) (arg24 : Memref sig .tc .vmem S27x128 .bf16) (harg24 : arg24.IsWhole) (arg25 : Memref sig .tc .vmem S128 .f32) (harg25 : arg25.IsWhole) (arg26 : Memref sig .tc .vmem S128x3 .bf16) (harg26 : arg26.IsWhole) (arg27 : Memref sig .tc .vmem S3 .f32) (harg27 : arg27.IsWhole) (arg28 : Memref sig .tc .vmem S4096x32 .f32) (harg28 : arg28.IsWhole)
    (x0 : Vec F S4096x6 .f32) (x1 : Vec F S63x256 .bf16) (x2 : Vec F S256 .f32) (x3 : Vec F S256x256 .bf16) (x4 : Vec F S256 .f32) (x5 : Vec F S256x256 .bf16) (x6 : Vec F S256 .f32) (x7 : Vec F S256x256 .bf16) (x8 : Vec F S256 .f32) (x9 : Vec F S256x256 .bf16) (x10 : Vec F S256 .f32) (x11 : Vec F S63x256 .bf16) (x12 : Vec F S256x256 .bf16) (x13 : Vec F S256 .f32) (x14 : Vec F S256x256 .bf16) (x15 : Vec F S256 .f32) (x16 : Vec F S256x256 .bf16) (x17 : Vec F S256 .f32) (x18 : Vec F S256x1 .bf16) (x19 : Vec F S1 .f32) (x20 : Vec F S256x256 .bf16) (x21 : Vec F S256 .f32) (x22 : Vec F S256x128 .bf16) (x23 : Vec F S27x128 .bf16) (x24 : Vec F S128 .f32) (x25 : Vec F S128x3 .bf16) (x26 : Vec F S3 .f32) (p : Fin 4096) (q : Fin 27) :
    out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26 (ix2 p (⟨q.val + 4, by have := q.isLt; omega⟩ : Fin 32))
      = (k0_pay7 (k0_pay4 x0) k0_pay6) (ix2 p q) := by
  have hq := q.isLt
  rw [out_canon]
  rw [View.canon_cons_of_not_mem _ _ (by
    rw [Rect.mem_set_unit]; intro h
    have h1 : 31 ≤ q.val + 4 := (h 1).1
    omega)]
  have e : (ix2 p (⟨q.val + 4, by omega⟩ : Fin 32) : S4096x32.Idx)
      = (Rect.unit (s := S4096x32) ![0, 4] S4096x27.size inb_S4096x32_S4096x27_0_4).emb (ix2 p q) := by
    funext a; apply Fin.ext
    match a with
    | ⟨0, _⟩ => show p.val = 0 + 1 * p.val; omega
    | ⟨1, _⟩ => show q.val + 4 = 4 + 1 * q.val; omega
  rw [e, View.canon_cons_emb]

/-- Column 3 of the block: the second store's payload, a one-column block. Column 3 is neither column 31 nor one of
    columns 4 … 30. -/
theorem out_sigma (c : Dev nD) (i : grid0.Coords) (arg1 : Memref sig .tc .vmem S4096x6 .f32) (harg1 : arg1.IsWhole) (arg2 : Memref sig .tc .vmem S63x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S256x256 .bf16) (harg10 : arg10.IsWhole) (arg11 : Memref sig .tc .vmem S256 .f32) (harg11 : arg11.IsWhole) (arg12 : Memref sig .tc .vmem S63x256 .bf16) (harg12 : arg12.IsWhole) (arg13 : Memref sig .tc .vmem S256x256 .bf16) (harg13 : arg13.IsWhole) (arg14 : Memref sig .tc .vmem S256 .f32) (harg14 : arg14.IsWhole) (arg15 : Memref sig .tc .vmem S256x256 .bf16) (harg15 : arg15.IsWhole) (arg16 : Memref sig .tc .vmem S256 .f32) (harg16 : arg16.IsWhole) (arg17 : Memref sig .tc .vmem S256x256 .bf16) (harg17 : arg17.IsWhole) (arg18 : Memref sig .tc .vmem S256 .f32) (harg18 : arg18.IsWhole) (arg19 : Memref sig .tc .vmem S256x1 .bf16) (harg19 : arg19.IsWhole) (arg20 : Memref sig .tc .vmem S1 .f32) (harg20 : arg20.IsWhole) (arg21 : Memref sig .tc .vmem S256x256 .bf16) (harg21 : arg21.IsWhole) (arg22 : Memref sig .tc .vmem S256 .f32) (harg22 : arg22.IsWhole) (arg23 : Memref sig .tc .vmem S256x128 .bf16) (harg23 : arg23.IsWhole) (arg24 : Memref sig .tc .vmem S27x128 .bf16) (harg24 : arg24.IsWhole) (arg25 : Memref sig .tc .vmem S128 .f32) (harg25 : arg25.IsWhole) (arg26 : Memref sig .tc .vmem S128x3 .bf16) (harg26 : arg26.IsWhole) (arg27 : Memref sig .tc .vmem S3 .f32) (harg27 : arg27.IsWhole) (arg28 : Memref sig .tc .vmem S4096x32 .f32) (harg28 : arg28.IsWhole)
    (x0 : Vec F S4096x6 .f32) (x1 : Vec F S63x256 .bf16) (x2 : Vec F S256 .f32) (x3 : Vec F S256x256 .bf16) (x4 : Vec F S256 .f32) (x5 : Vec F S256x256 .bf16) (x6 : Vec F S256 .f32) (x7 : Vec F S256x256 .bf16) (x8 : Vec F S256 .f32) (x9 : Vec F S256x256 .bf16) (x10 : Vec F S256 .f32) (x11 : Vec F S63x256 .bf16) (x12 : Vec F S256x256 .bf16) (x13 : Vec F S256 .f32) (x14 : Vec F S256x256 .bf16) (x15 : Vec F S256 .f32) (x16 : Vec F S256x256 .bf16) (x17 : Vec F S256 .f32) (x18 : Vec F S256x1 .bf16) (x19 : Vec F S1 .f32) (x20 : Vec F S256x256 .bf16) (x21 : Vec F S256 .f32) (x22 : Vec F S256x128 .bf16) (x23 : Vec F S27x128 .bf16) (x24 : Vec F S128 .f32) (x25 : Vec F S128x3 .bf16) (x26 : Vec F S3 .f32) (p : Fin 4096) :
    out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26 (ix2 p (3 : Fin 32))
      = (k0_pay12 (k0_pay10 (k0_pay5 x0) (k0_pay8 (k0_pay5 x0) x1 x2 x3 x4 x5) (k0_pay9 x6) x7 x8 x9 x10 x11 x12 x13) x14 x15 x16 x17 x18 x19) (ix2 p (0 : Fin 1)) := by
  rw [out_canon]
  rw [View.canon_cons_of_not_mem _ _ (by
    rw [Rect.mem_set_unit]; intro h
    have h1 : 31 ≤ 3 := (h 1).1
    omega)]
  rw [View.canon_cons_of_not_mem _ _ (by
    rw [Rect.mem_set_unit]; intro h
    have h1 : 4 ≤ 3 := (h 1).1
    omega)]
  have e : (ix2 p (3 : Fin 32) : S4096x32.Idx)
      = (Rect.unit (s := S4096x32) ![0, 3] S4096x1.size inb_S4096x32_S4096x1_0_3).emb (ix2 p (0 : Fin 1)) := by
    funext a; apply Fin.ext
    match a with
    | ⟨0, _⟩ => show p.val = 0 + 1 * p.val; omega
    | ⟨1, _⟩ => show 3 = 3 + 1 * 0; rfl
  rw [e, View.canon_cons_emb]

/-- Columns 0 … 2 of the block: the first store's payload. Column `q < 3` is in none of the later stores' columns. -/
theorem out_rgb (c : Dev nD) (i : grid0.Coords) (arg1 : Memref sig .tc .vmem S4096x6 .f32) (harg1 : arg1.IsWhole) (arg2 : Memref sig .tc .vmem S63x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S256x256 .bf16) (harg10 : arg10.IsWhole) (arg11 : Memref sig .tc .vmem S256 .f32) (harg11 : arg11.IsWhole) (arg12 : Memref sig .tc .vmem S63x256 .bf16) (harg12 : arg12.IsWhole) (arg13 : Memref sig .tc .vmem S256x256 .bf16) (harg13 : arg13.IsWhole) (arg14 : Memref sig .tc .vmem S256 .f32) (harg14 : arg14.IsWhole) (arg15 : Memref sig .tc .vmem S256x256 .bf16) (harg15 : arg15.IsWhole) (arg16 : Memref sig .tc .vmem S256 .f32) (harg16 : arg16.IsWhole) (arg17 : Memref sig .tc .vmem S256x256 .bf16) (harg17 : arg17.IsWhole) (arg18 : Memref sig .tc .vmem S256 .f32) (harg18 : arg18.IsWhole) (arg19 : Memref sig .tc .vmem S256x1 .bf16) (harg19 : arg19.IsWhole) (arg20 : Memref sig .tc .vmem S1 .f32) (harg20 : arg20.IsWhole) (arg21 : Memref sig .tc .vmem S256x256 .bf16) (harg21 : arg21.IsWhole) (arg22 : Memref sig .tc .vmem S256 .f32) (harg22 : arg22.IsWhole) (arg23 : Memref sig .tc .vmem S256x128 .bf16) (harg23 : arg23.IsWhole) (arg24 : Memref sig .tc .vmem S27x128 .bf16) (harg24 : arg24.IsWhole) (arg25 : Memref sig .tc .vmem S128 .f32) (harg25 : arg25.IsWhole) (arg26 : Memref sig .tc .vmem S128x3 .bf16) (harg26 : arg26.IsWhole) (arg27 : Memref sig .tc .vmem S3 .f32) (harg27 : arg27.IsWhole) (arg28 : Memref sig .tc .vmem S4096x32 .f32) (harg28 : arg28.IsWhole)
    (x0 : Vec F S4096x6 .f32) (x1 : Vec F S63x256 .bf16) (x2 : Vec F S256 .f32) (x3 : Vec F S256x256 .bf16) (x4 : Vec F S256 .f32) (x5 : Vec F S256x256 .bf16) (x6 : Vec F S256 .f32) (x7 : Vec F S256x256 .bf16) (x8 : Vec F S256 .f32) (x9 : Vec F S256x256 .bf16) (x10 : Vec F S256 .f32) (x11 : Vec F S63x256 .bf16) (x12 : Vec F S256x256 .bf16) (x13 : Vec F S256 .f32) (x14 : Vec F S256x256 .bf16) (x15 : Vec F S256 .f32) (x16 : Vec F S256x256 .bf16) (x17 : Vec F S256 .f32) (x18 : Vec F S256x1 .bf16) (x19 : Vec F S1 .f32) (x20 : Vec F S256x256 .bf16) (x21 : Vec F S256 .f32) (x22 : Vec F S256x128 .bf16) (x23 : Vec F S27x128 .bf16) (x24 : Vec F S128 .f32) (x25 : Vec F S128x3 .bf16) (x26 : Vec F S3 .f32) (p : Fin 4096) (q : Fin 3) :
    out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 x26 (ix2 p (⟨q.val, by have := q.isLt; omega⟩ : Fin 32))
      = (k0_pay1 (k0_pay13 (k0_pay10 (k0_pay5 x0) (k0_pay8 (k0_pay5 x0) x1 x2 x3 x4 x5) (k0_pay9 x6) x7 x8 x9 x10 x11 x12 x13) x14 x15 x16 x17 x20 x21) (k0_pay14 (k0_pay7 (k0_pay4 x0) k0_pay6)) (k0_pay15 x22) x23 x24 x25 x26) (ix2 p q) := by
  have hq := q.isLt
  rw [out_canon]
  rw [View.canon_cons_of_not_mem _ _ (by
    rw [Rect.mem_set_unit]; intro h
    have h1 : 31 ≤ q.val := (h 1).1
    omega)]
  rw [View.canon_cons_of_not_mem _ _ (by
    rw [Rect.mem_set_unit]; intro h
    have h1 : 4 ≤ q.val := (h 1).1
    omega)]
  rw [View.canon_cons_of_not_mem _ _ (by
    rw [Rect.mem_set_unit]; intro h
    have h1 : 3 ≤ q.val := (h 1).1
    omega)]
  have e : (ix2 p (⟨q.val, by omega⟩ : Fin 32) : S4096x32.Idx)
      = (Rect.unit (s := S4096x32) ![0, 0] S4096x3.size inb_S4096x32_S4096x3_0_0).emb (ix2 p q) := by
    funext a; apply Fin.ext
    match a with
    | ⟨0, _⟩ => show p.val = 0 + 1 * p.val; omega
    | ⟨1, _⟩ => show q.val = 0 + 1 * q.val; omega
  rw [e, View.canon_cons_emb]

end Cert.KernelIdeal.Packed

end
-- ==== Proof.PackedSlices.lean ====
/-
  The three host slices of a [262144, 32] array, read at an index: columns 0 … 2 at `(R, q)` read the array at `(R, q)`;
  column 3, flattened to one axis, at `R` reads the array at `(R, 3)`; columns 4 … 30 at `(R, q)` read it at `(R, q + 4)`.
-/
import proofs.«118394_j18519898980813_2_alg».proof.Proof.Gen.KernelIdeal
import Idealize.ShloMosaic.Lib.Pipeline.Value
import Idealize.ShloMosaic.Lib.ValueIdx

noncomputable section

open Idealize.ShloMosaic
open Idealize.ShloMosaic.ValueIdx

namespace Cert.KernelIdeal.Packed

open Cert.KernelIdeal Cert.KernelIdeal.Gen

variable {α : Type}

/-- Columns 0 … 2: entry `(R, q)` of the slice is entry `(R, q)` of the array. -/
theorem slice_cols0_apply (x : S262144x32.Idx → α) (R : Fin 262144) (q : Fin 3) :
    extractStridedSlice S262144x3 ![0, 0] x slices_S262144x32_S262144x3_0_0 (ix2 R q)
      = x (ix2 R ⟨q.val, by have := q.isLt; omega⟩) := by
  refine extractStridedSlice_apply ![0, 0] x slices_S262144x32_S262144x3_0_0 (ix2 R q) _ fun a => ?_
  match a with
  | ⟨0, _⟩ => show R.val = 0 + R.val; omega
  | ⟨1, _⟩ => show q.val = 0 + q.val; omega

/-- Column 3, flattened: entry `R` is entry `(R, 3)` of the array. -/
theorem slice_col3_apply (x : S262144x32.Idx → α) (R : Fin 262144) :
    shapeCast S262144 (extractStridedSlice S262144x1 ![0, 3] x slices_S262144x32_S262144x1_0_3) shapeCasts_S262144x1_S262144 (ix1 R)
      = x (ix2 R (3 : Fin 32)) := by
  refine (shapeCast_apply _ shapeCasts_S262144x1_S262144 (ix1 R) (ix2 R (0 : Fin 1)) ?_).trans ?_
  · rw [Shape.rowMajor_val_two, Shape.rowMajor_val_one]
    show R.val * 1 + 0 = R.val
    omega
  · refine extractStridedSlice_apply ![0, 3] x slices_S262144x32_S262144x1_0_3 (ix2 R (0 : Fin 1)) _ fun a => ?_
    match a with
    | ⟨0, _⟩ => show R.val = 0 + R.val; omega
    | ⟨1, _⟩ => show (3 : Nat) = 3 + 0; rfl

/-- Columns 4 … 30: entry `(R, q)` of the slice is entry `(R, q + 4)` of the array. -/
theorem slice_cols4_apply (x : S262144x32.Idx → α) (R : Fin 262144) (q : Fin 27) :
    extractStridedSlice S262144x27 ![0, 4] x slices_S262144x32_S262144x27_0_4 (ix2 R q)
      = x (ix2 R ⟨q.val + 4, by have := q.isLt; omega⟩) := by
  refine extractStridedSlice_apply ![0, 4] x slices_S262144x32_S262144x27_0_4 (ix2 R q) _ fun a => ?_
  match a with
  | ⟨0, _⟩ => show R.val = 0 + R.val; omega
  | ⟨1, _⟩ => show q.val + 4 = 4 + q.val; omega

end Cert.KernelIdeal.Packed

end
-- ==== Proof.PackedRead.lean ====
/-
  The three results, read at an index. Row `4096 t + p` of the packed array lies in grid point `t`'s block at block row
  `p`; columns 0 … 2, column 3 and columns 4 … 30 of that block are the payloads of the body's first three stores, over the
  input windows' blocks at point `t`. So each result's entry is the corresponding payload's entry at block row `p`.
-/
import proofs.«118394_j18519898980813_2_alg».proof.Proof.PackedRun
import proofs.«118394_j18519898980813_2_alg».proof.Proof.PackedPieces
import proofs.«118394_j18519898980813_2_alg».proof.Proof.PackedSlices
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx

namespace Cert.KernelIdeal.Packed

open Cert.KernelIdeal Cert.KernelIdeal.Gen Cert.KernelIdeal.GenP

variable {F : FTy → Type} [FloatOps F]
variable (m : (ℓ : Loc nD τ sig) → Buf (Elt F) ℓ)

/-- Columns 0 … 2 at row `4096 t + p`: the first store's payload at block row `p`. -/
theorem rgb_apply (c : Dev nD) (t : Fin cfg0.N) (p : Fin 4096) (q : Fin 3) (R : Fin 262144) (hR : R.val = 4096 * t.val + p.val) :
    (rgb m c : S262144x3.Idx → Elt F .f32) (ix2 R q)
      = (k0_pay1 (k0_pay13 (k0_pay10 (k0_pay5 (iblk m c 0 t)) (k0_pay8 (k0_pay5 (iblk m c 0 t)) (iblk m c 1 t) (iblk m c 2 t) (iblk m c 3 t) (iblk m c 4 t) (iblk m c 5 t)) (k0_pay9 (iblk m c 6 t)) (iblk m c 7 t) (iblk m c 8 t) (iblk m c 9 t) (iblk m c 10 t) (iblk m c 11 t) (iblk m c 12 t) (iblk m c 13 t)) (iblk m c 14 t) (iblk m c 15 t) (iblk m c 16 t) (iblk m c 17 t) (iblk m c 20 t) (iblk m c 21 t)) (k0_pay14 (k0_pay7 (k0_pay4 (iblk m c 0 t)) k0_pay6)) (k0_pay15 (iblk m c 22 t)) (iblk m c 23 t) (iblk m c 24 t) (iblk m c 25 t) (iblk m c 26 t)) (ix2 p q) := by
  unfold rgb
  rw [slice_cols0_apply, arr_apply m c _ t p ⟨q.val, by have := q.isLt; omega⟩ hR rfl]
  unfold outsAt0
  exact out_rgb (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) p q

/-- Column 3 at row `4096 t + p`: the second store's payload at block row `p`. -/
theorem sigma_apply (c : Dev nD) (t : Fin cfg0.N) (p : Fin 4096) (R : Fin 262144) (hR : R.val = 4096 * t.val + p.val) :
    (sigma m c : S262144.Idx → Elt F .f32) (ix1 R)
      = (k0_pay12 (k0_pay10 (k0_pay5 (iblk m c 0 t)) (k0_pay8 (k0_pay5 (iblk m c 0 t)) (iblk m c 1 t) (iblk m c 2 t) (iblk m c 3 t) (iblk m c 4 t) (iblk m c 5 t)) (k0_pay9 (iblk m c 6 t)) (iblk m c 7 t) (iblk m c 8 t) (iblk m c 9 t) (iblk m c 10 t) (iblk m c 11 t) (iblk m c 12 t) (iblk m c 13 t)) (iblk m c 14 t) (iblk m c 15 t) (iblk m c 16 t) (iblk m c 17 t) (iblk m c 18 t) (iblk m c 19 t)) (ix2 p (0 : Fin 1)) := by
  unfold sigma
  rw [slice_col3_apply, arr_apply m c _ t p (3 : Fin 32) hR rfl]
  unfold outsAt0
  exact out_sigma (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) p

/-- Columns 4 … 30 at row `4096 t + p`: the third store's payload at block row `p`. -/
theorem dirs_apply (c : Dev nD) (t : Fin cfg0.N) (p : Fin 4096) (q : Fin 27) (R : Fin 262144) (hR : R.val = 4096 * t.val + p.val) :
    (dirs m c : S262144x27.Idx → Elt F .f32) (ix2 R q)
      = (k0_pay7 (k0_pay4 (iblk m c 0 t)) k0_pay6) (ix2 p q) := by
  unfold dirs
  rw [slice_cols4_apply, arr_apply m c _ t p ⟨q.val + 4, by have := q.isLt; omega⟩ hR rfl]
  unfold outsAt0
  exact out_dirs (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) p q

end Cert.KernelIdeal.Packed

end
-- ==== Proof.PackedBlocksA.lean ====
/-
  What the kernel's input windows hold, part A: each window of a weight or a bias has ONE block, its whole array,
  so its block at every grid point is the array the host operations before the region computed from the arguments
  (a weight: the argument transposed and narrowed to bf16, for two of them a row range of that; a bias: the argument itself).
-/
import proofs.«118394_j18519898980813_2_alg».proof.Proof.Gen.KernelIdeal.Frame.Runs
import Idealize.ShloMosaic.Lib.StableHlo.Run
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx

namespace Cert.KernelIdeal.Packed

open Cert.KernelIdeal Cert.KernelIdeal.Gen

variable {F : FTy → Type} [FloatOps F]
variable (m : (ℓ : Loc nD τ sig) → Buf (Elt F) ℓ)

/-- Window 0's block at point `t` is rows `4096 t … 4096 t + 4095` of arguments 0 and 1 laid side by side
    (columns 0 … 2 from argument 0, columns 3 … 5 from argument 1): the concatenation along axis 1, read at row `4096 t + p`. -/
theorem blk0 (c : Dev nD) (t : Fin cfg0.N) (p : Fin 4096) (j : Fin 6) (R : Fin 262144) (hR : R.val = 4096 * t.val + p.val) :
    (iblk m c 0 t : Vec F S4096x6 .f32) (ix2 p j)
      = (concatenate S262144x6 1 [⟨S262144x3, m ((c : Thread nD τ).loc main_arg0)⟩, ⟨S262144x3, m ((c : Thread nD τ).loc main_arg1)⟩] concatenates_S262144x3_S262144x3_S262144x6_d1 : S262144x6.Idx → Elt F .f32) (ix2 R j) := by
  have hi : ∀ t : Fin cfg0.N, win0_0.index t (0 : Fin 2) = t.val ∧ win0_0.index t (1 : Fin 2) = 0 :=
    (by decide +kernel : ∀ t : Fin grid0.N, _)
  have e : (V m c main_v0 : S262144x6.Idx → Elt F .f32)
      = concatenate S262144x6 1 [⟨S262144x3, m ((c : Thread nD τ).loc main_arg0)⟩, ⟨S262144x3, m ((c : Thread nD τ).loc main_arg1)⟩] concatenates_S262144x3_S262144x3_S262144x6_d1 := by
    show StableHlo.after hostOps0 (fun b => m (c, b)) (Proc.devRef .tc main_v0) = _
    after_results
  rw [← e]
  unfold iblk
  rw [View.read_apply]
  show V m c main_v0 _ = V m c main_v0 (ix2 R j)
  congr 1
  funext a
  apply Fin.ext
  match a with
  | ⟨0, _⟩ => show win0_0.index t (0 : Fin 2) * 4096 + 1 * p.val = R.val; rw [(hi t).1, hR]; omega
  | ⟨1, _⟩ => show win0_0.index t (1 : Fin 2) * 6 + 1 * j.val = j.val; rw [(hi t).2]; omega

/-- Window 1's block is its whole array at every point: argument 2 transposed to [63,256], narrowed to bf16. -/
theorem blk1 (c : Dev nD) (t : Fin cfg0.N) :
    (iblk m c 1 t : Vec F S63x256 .bf16)
      = truncf .bf16 (transpose S63x256 [1, 0] (m ((c : Thread nD τ).loc main_arg2)) transposes_S256x63_S63x256_1_0) bitsLt_bf16_f32 := by
  have hi : ∀ t : Fin cfg0.N, win0_1.index t (0 : Fin 2) = 0 ∧ win0_1.index t (1 : Fin 2) = 0 :=
    (by decide +kernel : ∀ t : Fin grid0.N, _)
  have e : (V m c main_v2 : S63x256.Idx → Elt F .bf16)
      = truncf .bf16 (transpose S63x256 [1, 0] (m ((c : Thread nD τ).loc main_arg2)) transposes_S256x63_S63x256_1_0) bitsLt_bf16_f32 := by
    show StableHlo.after hostOps0 (fun b => m (c, b)) (Proc.devRef .tc main_v2) = _
    after_results
  rw [← e]
  funext j
  unfold iblk
  rw [View.read_apply]
  show V m c main_v2 _ = V m c main_v2 j
  congr 1
  funext a
  apply Fin.ext
  match a with
  | ⟨0, _⟩ => show win0_1.index t (0 : Fin 2) * 63 + 1 * (j 0).val = (j 0).val; rw [(hi t).1]; omega
  | ⟨1, _⟩ => show win0_1.index t (1 : Fin 2) * 256 + 1 * (j 1).val = (j 1).val; rw [(hi t).2]; omega

/-- Window 2's block is its whole array at every point: argument 3. -/
theorem blk2 (c : Dev nD) (t : Fin cfg0.N) :
    (iblk m c 2 t : Vec F S256 .f32)
      = m ((c : Thread nD τ).loc main_arg3) := by
  have hi : ∀ t : Fin cfg0.N, win0_2.index t (0 : Fin 1) = 0 :=
    (by decide +kernel : ∀ t : Fin grid0.N, _)
  rw [← V_main_arg3 m c]
  funext j
  unfold iblk
  rw [View.read_apply]
  show V m c main_arg3 _ = V m c main_arg3 j
  congr 1
  funext a
  apply Fin.ext
  match a with
  | ⟨0, _⟩ => show win0_2.index t (0 : Fin 1) * 256 + 1 * (j 0).val = (j 0).val; rw [hi t]; omega

/-- Window 3's block is its whole array at every point: argument 4 transposed, narrowed to bf16. -/
theorem blk3 (c : Dev nD) (t : Fin cfg0.N) :
    (iblk m c 3 t : Vec F S256x256 .bf16)
      = truncf .bf16 (transpose S256x256 [1, 0] (m ((c : Thread nD τ).loc main_arg4)) transposes_S256x256_S256x256_1_0) bitsLt_bf16_f32 := by
  have hi : ∀ t : Fin cfg0.N, win0_3.index t (0 : Fin 2) = 0 ∧ win0_3.index t (1 : Fin 2) = 0 :=
    (by decide +kernel : ∀ t : Fin grid0.N, _)
  have e : (V m c main_v4 : S256x256.Idx → Elt F .bf16)
      = truncf .bf16 (transpose S256x256 [1, 0] (m ((c : Thread nD τ).loc main_arg4)) transposes_S256x256_S256x256_1_0) bitsLt_bf16_f32 := by
    show StableHlo.after hostOps0 (fun b => m (c, b)) (Proc.devRef .tc main_v4) = _
    after_results
  rw [← e]
  funext j
  unfold iblk
  rw [View.read_apply]
  show V m c main_v4 _ = V m c main_v4 j
  congr 1
  funext a
  apply Fin.ext
  match a with
  | ⟨0, _⟩ => show win0_3.index t (0 : Fin 2) * 256 + 1 * (j 0).val = (j 0).val; rw [(hi t).1]; omega
  | ⟨1, _⟩ => show win0_3.index t (1 : Fin 2) * 256 + 1 * (j 1).val = (j 1).val; rw [(hi t).2]; omega

/-- Window 4's block is its whole array at every point: argument 5. -/
theorem blk4 (c : Dev nD) (t : Fin cfg0.N) :
    (iblk m c 4 t : Vec F S256 .f32)
      = m ((c : Thread nD τ).loc main_arg5) := by
  have hi : ∀ t : Fin cfg0.N, win0_4.index t (0 : Fin 1) = 0 :=
    (by decide +kernel : ∀ t : Fin grid0.N, _)
  rw [← V_main_arg5 m c]
  funext j
  unfold iblk
  rw [View.read_apply]
  show V m c main_arg5 _ = V m c main_arg5 j
  congr 1
  funext a
  apply Fin.ext
  match a with
  | ⟨0, _⟩ => show win0_4.index t (0 : Fin 1) * 256 + 1 * (j 0).val = (j 0).val; rw [hi t]; omega

/-- Window 5's block is its whole array at every point: argument 6 transposed, narrowed to bf16. -/
theorem blk5 (c : Dev nD) (t : Fin cfg0.N) :
    (iblk m c 5 t : Vec F S256x256 .bf16)
      = truncf .bf16 (transpose S256x256 [1, 0] (m ((c : Thread nD τ).loc main_arg6)) transposes_S256x256_S256x256_1_0) bitsLt_bf16_f32 := by
  have hi : ∀ t : Fin cfg0.N, win0_5.index t (0 : Fin 2) = 0 ∧ win0_5.index t (1 : Fin 2) = 0 :=
    (by decide +kernel : ∀ t : Fin grid0.N, _)
  have e : (V m c main_v6 : S256x256.Idx → Elt F .bf16)
      = truncf .bf16 (transpose S256x256 [1, 0] (m ((c : Thread nD τ).loc main_arg6)) transposes_S256x256_S256x256_1_0) bitsLt_bf16_f32 := by
    show StableHlo.after hostOps0 (fun b => m (c, b)) (Proc.devRef .tc main_v6) = _
    after_results
  rw [← e]
  funext j
  unfold iblk
  rw [View.read_apply]
  show V m c main_v6 _ = V m c main_v6 j
  congr 1
  funext a
  apply Fin.ext
  match a with
  | ⟨0, _⟩ => show win0_5.index t (0 : Fin 2) * 256 + 1 * (j 0).val = (j 0).val; rw [(hi t).1]; omega
  | ⟨1, _⟩ => show win0_5.index t (1 : Fin 2) * 256 + 1 * (j 1).val = (j 1).val; rw [(hi t).2]; omega

/-- Window 6's block is its whole array at every point: argument 7. -/
theorem blk6 (c : Dev nD) (t : Fin cfg0.N) :
    (iblk m c 6 t : Vec F S256 .f32)
      = m ((c : Thread nD τ).loc main_arg7) := by
  have hi : ∀ t : Fin cfg0.N, win0_6.index t (0 : Fin 1) = 0 :=
    (by decide +kernel : ∀ t : Fin grid0.N, _)
  rw [← V_main_arg7 m c]
  funext j
  unfold iblk
  rw [View.read_apply]
  show V m c main_arg7 _ = V m c main_arg7 j
  congr 1
  funext a
  apply Fin.ext
  match a with
  | ⟨0, _⟩ => show win0_6.index t (0 : Fin 1) * 256 + 1 * (j 0).val = (j 0).val; rw [hi t]; omega

end Cert.KernelIdeal.Packed

end
-- ==== Proof.PackedBlocksB.lean ====
/-
  What the kernel's input windows hold, part B: each window of a weight or a bias has ONE block, its whole array,
  so its block at every grid point is the array the host operations before the region computed from the arguments
  (a weight: the argument transposed and narrowed to bf16, for two of them a row range of that; a bias: the argument itself).
-/
import proofs.«118394_j18519898980813_2_alg».proof.Proof.Gen.KernelIdeal.Frame.Runs
import Idealize.ShloMosaic.Lib.StableHlo.Run
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx

namespace Cert.KernelIdeal.Packed

open Cert.KernelIdeal Cert.KernelIdeal.Gen

variable {F : FTy → Type} [FloatOps F]
variable (m : (ℓ : Loc nD τ sig) → Buf (Elt F) ℓ)

/-- Window 7's block is its whole array at every point: argument 8 transposed, narrowed to bf16. -/
theorem blk7 (c : Dev nD) (t : Fin cfg0.N) :
    (iblk m c 7 t : Vec F S256x256 .bf16)
      = truncf .bf16 (transpose S256x256 [1, 0] (m ((c : Thread nD τ).loc main_arg8)) transposes_S256x256_S256x256_1_0) bitsLt_bf16_f32 := by
  have hi : ∀ t : Fin cfg0.N, win0_7.index t (0 : Fin 2) = 0 ∧ win0_7.index t (1 : Fin 2) = 0 :=
    (by decide +kernel : ∀ t : Fin grid0.N, _)
  have e : (V m c main_v8 : S256x256.Idx → Elt F .bf16)
      = truncf .bf16 (transpose S256x256 [1, 0] (m ((c : Thread nD τ).loc main_arg8)) transposes_S256x256_S256x256_1_0) bitsLt_bf16_f32 := by
    show StableHlo.after hostOps0 (fun b => m (c, b)) (Proc.devRef .tc main_v8) = _
    after_results
  rw [← e]
  funext j
  unfold iblk
  rw [View.read_apply]
  show V m c main_v8 _ = V m c main_v8 j
  congr 1
  funext a
  apply Fin.ext
  match a with
  | ⟨0, _⟩ => show win0_7.index t (0 : Fin 2) * 256 + 1 * (j 0).val = (j 0).val; rw [(hi t).1]; omega
  | ⟨1, _⟩ => show win0_7.index t (1 : Fin 2) * 256 + 1 * (j 1).val = (j 1).val; rw [(hi t).2]; omega

/-- Window 8's block is its whole array at every point: argument 9. -/
theorem blk8 (c : Dev nD) (t : Fin cfg0.N) :
    (iblk m c 8 t : Vec F S256 .f32)
      = m ((c : Thread nD τ).loc main_arg9) := by
  have hi : ∀ t : Fin cfg0.N, win0_8.index t (0 : Fin 1) = 0 :=
    (by decide +kernel : ∀ t : Fin grid0.N, _)
  rw [← V_main_arg9 m c]
  funext j
  unfold iblk
  rw [View.read_apply]
  show V m c main_arg9 _ = V m c main_arg9 j
  congr 1
  funext a
  apply Fin.ext
  match a with
  | ⟨0, _⟩ => show win0_8.index t (0 : Fin 1) * 256 + 1 * (j 0).val = (j 0).val; rw [hi t]; omega

/-- Window 9's block is its whole array at every point: argument 10 transposed, narrowed to bf16. -/
theorem blk9 (c : Dev nD) (t : Fin cfg0.N) :
    (iblk m c 9 t : Vec F S256x256 .bf16)
      = truncf .bf16 (transpose S256x256 [1, 0] (m ((c : Thread nD τ).loc main_arg10)) transposes_S256x256_S256x256_1_0) bitsLt_bf16_f32 := by
  have hi : ∀ t : Fin cfg0.N, win0_9.index t (0 : Fin 2) = 0 ∧ win0_9.index t (1 : Fin 2) = 0 :=
    (by decide +kernel : ∀ t : Fin grid0.N, _)
  have e : (V m c main_v10 : S256x256.Idx → Elt F .bf16)
      = truncf .bf16 (transpose S256x256 [1, 0] (m ((c : Thread nD τ).loc main_arg10)) transposes_S256x256_S256x256_1_0) bitsLt_bf16_f32 := by
    show StableHlo.after hostOps0 (fun b => m (c, b)) (Proc.devRef .tc main_v10) = _
    after_results
  rw [← e]
  funext j
  unfold iblk
  rw [View.read_apply]
  show V m c main_v10 _ = V m c main_v10 j
  congr 1
  funext a
  apply Fin.ext
  match a with
  | ⟨0, _⟩ => show win0_9.index t (0 : Fin 2) * 256 + 1 * (j 0).val = (j 0).val; rw [(hi t).1]; omega
  | ⟨1, _⟩ => show win0_9.index t (1 : Fin 2) * 256 + 1 * (j 1).val = (j 1).val; rw [(hi t).2]; omega

/-- Window 10's block is its whole array at every point: argument 11. -/
theorem blk10 (c : Dev nD) (t : Fin cfg0.N) :
    (iblk m c 10 t : Vec F S256 .f32)
      = m ((c : Thread nD τ).loc main_arg11) := by
  have hi : ∀ t : Fin cfg0.N, win0_10.index t (0 : Fin 1) = 0 :=
    (by decide +kernel : ∀ t : Fin grid0.N, _)
  rw [← V_main_arg11 m c]
  funext j
  unfold iblk
  rw [View.read_apply]
  show V m c main_arg11 _ = V m c main_arg11 j
  congr 1
  funext a
  apply Fin.ext
  match a with
  | ⟨0, _⟩ => show win0_10.index t (0 : Fin 1) * 256 + 1 * (j 0).val = (j 0).val; rw [hi t]; omega

/-- Window 11's block is its whole array at every point: rows 0 … 62 of argument 12 transposed to [319,256] and narrowed to bf16. -/
theorem blk11 (c : Dev nD) (t : Fin cfg0.N) :
    (iblk m c 11 t : Vec F S63x256 .bf16)
      = extractStridedSlice S63x256 ![0, 0] (truncf .bf16 (transpose S319x256 [1, 0] (m ((c : Thread nD τ).loc main_arg12)) transposes_S256x319_S319x256_1_0) bitsLt_bf16_f32) slices_S319x256_S63x256_0_0 := by
  have hi : ∀ t : Fin cfg0.N, win0_11.index t (0 : Fin 2) = 0 ∧ win0_11.index t (1 : Fin 2) = 0 :=
    (by decide +kernel : ∀ t : Fin grid0.N, _)
  have e : (V m c main_v13 : S63x256.Idx → Elt F .bf16)
      = extractStridedSlice S63x256 ![0, 0] (truncf .bf16 (transpose S319x256 [1, 0] (m ((c : Thread nD τ).loc main_arg12)) transposes_S256x319_S319x256_1_0) bitsLt_bf16_f32) slices_S319x256_S63x256_0_0 := by
    show StableHlo.after hostOps0 (fun b => m (c, b)) (Proc.devRef .tc main_v13) = _
    after_results
  rw [← e]
  funext j
  unfold iblk
  rw [View.read_apply]
  show V m c main_v13 _ = V m c main_v13 j
  congr 1
  funext a
  apply Fin.ext
  match a with
  | ⟨0, _⟩ => show win0_11.index t (0 : Fin 2) * 63 + 1 * (j 0).val = (j 0).val; rw [(hi t).1]; omega
  | ⟨1, _⟩ => show win0_11.index t (1 : Fin 2) * 256 + 1 * (j 1).val = (j 1).val; rw [(hi t).2]; omega

/-- Window 12's block is its whole array at every point: rows 63 … 318 of argument 12 transposed to [319,256] and narrowed to bf16. -/
theorem blk12 (c : Dev nD) (t : Fin cfg0.N) :
    (iblk m c 12 t : Vec F S256x256 .bf16)
      = extractStridedSlice S256x256 ![63, 0] (truncf .bf16 (transpose S319x256 [1, 0] (m ((c : Thread nD τ).loc main_arg12)) transposes_S256x319_S319x256_1_0) bitsLt_bf16_f32) slices_S319x256_S256x256_63_0 := by
  have hi : ∀ t : Fin cfg0.N, win0_12.index t (0 : Fin 2) = 0 ∧ win0_12.index t (1 : Fin 2) = 0 :=
    (by decide +kernel : ∀ t : Fin grid0.N, _)
  have e : (V m c main_v14 : S256x256.Idx → Elt F .bf16)
      = extractStridedSlice S256x256 ![63, 0] (truncf .bf16 (transpose S319x256 [1, 0] (m ((c : Thread nD τ).loc main_arg12)) transposes_S256x319_S319x256_1_0) bitsLt_bf16_f32) slices_S319x256_S256x256_63_0 := by
    show StableHlo.after hostOps0 (fun b => m (c, b)) (Proc.devRef .tc main_v14) = _
    after_results
  rw [← e]
  funext j
  unfold iblk
  rw [View.read_apply]
  show V m c main_v14 _ = V m c main_v14 j
  congr 1
  funext a
  apply Fin.ext
  match a with
  | ⟨0, _⟩ => show win0_12.index t (0 : Fin 2) * 256 + 1 * (j 0).val = (j 0).val; rw [(hi t).1]; omega
  | ⟨1, _⟩ => show win0_12.index t (1 : Fin 2) * 256 + 1 * (j 1).val = (j 1).val; rw [(hi t).2]; omega

/-- Window 13's block is its whole array at every point: argument 13. -/
theorem blk13 (c : Dev nD) (t : Fin cfg0.N) :
    (iblk m c 13 t : Vec F S256 .f32)
      = m ((c : Thread nD τ).loc main_arg13) := by
  have hi : ∀ t : Fin cfg0.N, win0_13.index t (0 : Fin 1) = 0 :=
    (by decide +kernel : ∀ t : Fin grid0.N, _)
  rw [← V_main_arg13 m c]
  funext j
  unfold iblk
  rw [View.read_apply]
  show V m c main_arg13 _ = V m c main_arg13 j
  congr 1
  funext a
  apply Fin.ext
  match a with
  | ⟨0, _⟩ => show win0_13.index t (0 : Fin 1) * 256 + 1 * (j 0).val = (j 0).val; rw [hi t]; omega

end Cert.KernelIdeal.Packed

end
-- ==== Proof.PackedBlocksC.lean ====
/-
  What the kernel's input windows hold, part C: each window of a weight or a bias has ONE block, its whole array,
  so its block at every grid point is the array the host operations before the region computed from the arguments
  (a weight: the argument transposed and narrowed to bf16, for two of them a row range of that; a bias: the argument itself).
-/
import proofs.«118394_j18519898980813_2_alg».proof.Proof.Gen.KernelIdeal.Frame.Runs
import Idealize.ShloMosaic.Lib.StableHlo.Run
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx

namespace Cert.KernelIdeal.Packed

open Cert.KernelIdeal Cert.KernelIdeal.Gen

variable {F : FTy → Type} [FloatOps F]
variable (m : (ℓ : Loc nD τ sig) → Buf (Elt F) ℓ)

/-- Window 14's block is its whole array at every point: argument 14 transposed, narrowed to bf16. -/
theorem blk14 (c : Dev nD) (t : Fin cfg0.N) :
    (iblk m c 14 t : Vec F S256x256 .bf16)
      = truncf .bf16 (transpose S256x256 [1, 0] (m ((c : Thread nD τ).loc main_arg14)) transposes_S256x256_S256x256_1_0) bitsLt_bf16_f32 := by
  have hi : ∀ t : Fin cfg0.N, win0_14.index t (0 : Fin 2) = 0 ∧ win0_14.index t (1 : Fin 2) = 0 :=
    (by decide +kernel : ∀ t : Fin grid0.N, _)
  have e : (V m c main_v16 : S256x256.Idx → Elt F .bf16)
      = truncf .bf16 (transpose S256x256 [1, 0] (m ((c : Thread nD τ).loc main_arg14)) transposes_S256x256_S256x256_1_0) bitsLt_bf16_f32 := by
    show StableHlo.after hostOps0 (fun b => m (c, b)) (Proc.devRef .tc main_v16) = _
    after_results
  rw [← e]
  funext j
  unfold iblk
  rw [View.read_apply]
  show V m c main_v16 _ = V m c main_v16 j
  congr 1
  funext a
  apply Fin.ext
  match a with
  | ⟨0, _⟩ => show win0_14.index t (0 : Fin 2) * 256 + 1 * (j 0).val = (j 0).val; rw [(hi t).1]; omega
  | ⟨1, _⟩ => show win0_14.index t (1 : Fin 2) * 256 + 1 * (j 1).val = (j 1).val; rw [(hi t).2]; omega

/-- Window 15's block is its whole array at every point: argument 15. -/
theorem blk15 (c : Dev nD) (t : Fin cfg0.N) :
    (iblk m c 15 t : Vec F S256 .f32)
      = m ((c : Thread nD τ).loc main_arg15) := by
  have hi : ∀ t : Fin cfg0.N, win0_15.index t (0 : Fin 1) = 0 :=
    (by decide +kernel : ∀ t : Fin grid0.N, _)
  rw [← V_main_arg15 m c]
  funext j
  unfold iblk
  rw [View.read_apply]
  show V m c main_arg15 _ = V m c main_arg15 j
  congr 1
  funext a
  apply Fin.ext
  match a with
  | ⟨0, _⟩ => show win0_15.index t (0 : Fin 1) * 256 + 1 * (j 0).val = (j 0).val; rw [hi t]; omega

/-- Window 16's block is its whole array at every point: argument 16 transposed, narrowed to bf16. -/
theorem blk16 (c : Dev nD) (t : Fin cfg0.N) :
    (iblk m c 16 t : Vec F S256x256 .bf16)
      = truncf .bf16 (transpose S256x256 [1, 0] (m ((c : Thread nD τ).loc main_arg16)) transposes_S256x256_S256x256_1_0) bitsLt_bf16_f32 := by
  have hi : ∀ t : Fin cfg0.N, win0_16.index t (0 : Fin 2) = 0 ∧ win0_16.index t (1 : Fin 2) = 0 :=
    (by decide +kernel : ∀ t : Fin grid0.N, _)
  have e : (V m c main_v18 : S256x256.Idx → Elt F .bf16)
      = truncf .bf16 (transpose S256x256 [1, 0] (m ((c : Thread nD τ).loc main_arg16)) transposes_S256x256_S256x256_1_0) bitsLt_bf16_f32 := by
    show StableHlo.after hostOps0 (fun b => m (c, b)) (Proc.devRef .tc main_v18) = _
    after_results
  rw [← e]
  funext j
  unfold iblk
  rw [View.read_apply]
  show V m c main_v18 _ = V m c main_v18 j
  congr 1
  funext a
  apply Fin.ext
  match a with
  | ⟨0, _⟩ => show win0_16.index t (0 : Fin 2) * 256 + 1 * (j 0).val = (j 0).val; rw [(hi t).1]; omega
  | ⟨1, _⟩ => show win0_16.index t (1 : Fin 2) * 256 + 1 * (j 1).val = (j 1).val; rw [(hi t).2]; omega

/-- Window 17's block is its whole array at every point: argument 17. -/
theorem blk17 (c : Dev nD) (t : Fin cfg0.N) :
    (iblk m c 17 t : Vec F S256 .f32)
      = m ((c : Thread nD τ).loc main_arg17) := by
  have hi : ∀ t : Fin cfg0.N, win0_17.index t (0 : Fin 1) = 0 :=
    (by decide +kernel : ∀ t : Fin grid0.N, _)
  rw [← V_main_arg17 m c]
  funext j
  unfold iblk
  rw [View.read_apply]
  show V m c main_arg17 _ = V m c main_arg17 j
  congr 1
  funext a
  apply Fin.ext
  match a with
  | ⟨0, _⟩ => show win0_17.index t (0 : Fin 1) * 256 + 1 * (j 0).val = (j 0).val; rw [hi t]; omega

/-- Window 18's block is its whole array at every point: argument 18 transposed to [256,1], narrowed to bf16. -/
theorem blk18 (c : Dev nD) (t : Fin cfg0.N) :
    (iblk m c 18 t : Vec F S256x1 .bf16)
      = truncf .bf16 (transpose S256x1 [1, 0] (m ((c : Thread nD τ).loc main_arg18)) transposes_S1x256_S256x1_1_0) bitsLt_bf16_f32 := by
  have hi : ∀ t : Fin cfg0.N, win0_18.index t (0 : Fin 2) = 0 ∧ win0_18.index t (1 : Fin 2) = 0 :=
    (by decide +kernel : ∀ t : Fin grid0.N, _)
  have e : (V m c main_v20 : S256x1.Idx → Elt F .bf16)
      = truncf .bf16 (transpose S256x1 [1, 0] (m ((c : Thread nD τ).loc main_arg18)) transposes_S1x256_S256x1_1_0) bitsLt_bf16_f32 := by
    show StableHlo.after hostOps0 (fun b => m (c, b)) (Proc.devRef .tc main_v20) = _
    after_results
  rw [← e]
  funext j
  unfold iblk
  rw [View.read_apply]
  show V m c main_v20 _ = V m c main_v20 j
  congr 1
  funext a
  apply Fin.ext
  match a with
  | ⟨0, _⟩ => show win0_18.index t (0 : Fin 2) * 256 + 1 * (j 0).val = (j 0).val; rw [(hi t).1]; omega
  | ⟨1, _⟩ => show win0_18.index t (1 : Fin 2) * 1 + 1 * (j 1).val = (j 1).val; rw [(hi t).2]; omega

/-- Window 19's block is its whole array at every point: argument 19. -/
theorem blk19 (c : Dev nD) (t : Fin cfg0.N) :
    (iblk m c 19 t : Vec F S1 .f32)
      = m ((c : Thread nD τ).loc main_arg19) := by
  have hi : ∀ t : Fin cfg0.N, win0_19.index t (0 : Fin 1) = 0 :=
    (by decide +kernel : ∀ t : Fin grid0.N, _)
  rw [← V_main_arg19 m c]
  funext j
  unfold iblk
  rw [View.read_apply]
  show V m c main_arg19 _ = V m c main_arg19 j
  congr 1
  funext a
  apply Fin.ext
  match a with
  | ⟨0, _⟩ => show win0_19.index t (0 : Fin 1) * 1 + 1 * (j 0).val = (j 0).val; rw [hi t]; omega

/-- Window 20's block is its whole array at every point: argument 20 transposed, narrowed to bf16. -/
theorem blk20 (c : Dev nD) (t : Fin cfg0.N) :
    (iblk m c 20 t : Vec F S256x256 .bf16)
      = truncf .bf16 (transpose S256x256 [1, 0] (m ((c : Thread nD τ).loc main_arg20)) transposes_S256x256_S256x256_1_0) bitsLt_bf16_f32 := by
  have hi : ∀ t : Fin cfg0.N, win0_20.index t (0 : Fin 2) = 0 ∧ win0_20.index t (1 : Fin 2) = 0 :=
    (by decide +kernel : ∀ t : Fin grid0.N, _)
  have e : (V m c main_v22 : S256x256.Idx → Elt F .bf16)
      = truncf .bf16 (transpose S256x256 [1, 0] (m ((c : Thread nD τ).loc main_arg20)) transposes_S256x256_S256x256_1_0) bitsLt_bf16_f32 := by
    show StableHlo.after hostOps0 (fun b => m (c, b)) (Proc.devRef .tc main_v22) = _
    after_results
  rw [← e]
  funext j
  unfold iblk
  rw [View.read_apply]
  show V m c main_v22 _ = V m c main_v22 j
  congr 1
  funext a
  apply Fin.ext
  match a with
  | ⟨0, _⟩ => show win0_20.index t (0 : Fin 2) * 256 + 1 * (j 0).val = (j 0).val; rw [(hi t).1]; omega
  | ⟨1, _⟩ => show win0_20.index t (1 : Fin 2) * 256 + 1 * (j 1).val = (j 1).val; rw [(hi t).2]; omega

end Cert.KernelIdeal.Packed

end
-- ==== Proof.PackedBlocksD.lean ====
/-
  What the kernel's input windows hold, part D: each window of a weight or a bias has ONE block, its whole array,
  so its block at every grid point is the array the host operations before the region computed from the arguments
  (a weight: the argument transposed and narrowed to bf16, for two of them a row range of that; a bias: the argument itself).
-/
import proofs.«118394_j18519898980813_2_alg».proof.Proof.Gen.KernelIdeal.Frame.Runs
import Idealize.ShloMosaic.Lib.StableHlo.Run
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx

namespace Cert.KernelIdeal.Packed

open Cert.KernelIdeal Cert.KernelIdeal.Gen

variable {F : FTy → Type} [FloatOps F]
variable (m : (ℓ : Loc nD τ sig) → Buf (Elt F) ℓ)

/-- Window 21's block is its whole array at every point: argument 21. -/
theorem blk21 (c : Dev nD) (t : Fin cfg0.N) :
    (iblk m c 21 t : Vec F S256 .f32)
      = m ((c : Thread nD τ).loc main_arg21) := by
  have hi : ∀ t : Fin cfg0.N, win0_21.index t (0 : Fin 1) = 0 :=
    (by decide +kernel : ∀ t : Fin grid0.N, _)
  rw [← V_main_arg21 m c]
  funext j
  unfold iblk
  rw [View.read_apply]
  show V m c main_arg21 _ = V m c main_arg21 j
  congr 1
  funext a
  apply Fin.ext
  match a with
  | ⟨0, _⟩ => show win0_21.index t (0 : Fin 1) * 256 + 1 * (j 0).val = (j 0).val; rw [hi t]; omega

/-- Window 22's block is its whole array at every point: rows 0 … 255 of argument 22 transposed to [283,128] and narrowed to bf16. -/
theorem blk22 (c : Dev nD) (t : Fin cfg0.N) :
    (iblk m c 22 t : Vec F S256x128 .bf16)
      = extractStridedSlice S256x128 ![0, 0] (truncf .bf16 (transpose S283x128 [1, 0] (m ((c : Thread nD τ).loc main_arg22)) transposes_S128x283_S283x128_1_0) bitsLt_bf16_f32) slices_S283x128_S256x128_0_0 := by
  have hi : ∀ t : Fin cfg0.N, win0_22.index t (0 : Fin 2) = 0 ∧ win0_22.index t (1 : Fin 2) = 0 :=
    (by decide +kernel : ∀ t : Fin grid0.N, _)
  have e : (V m c main_v25 : S256x128.Idx → Elt F .bf16)
      = extractStridedSlice S256x128 ![0, 0] (truncf .bf16 (transpose S283x128 [1, 0] (m ((c : Thread nD τ).loc main_arg22)) transposes_S128x283_S283x128_1_0) bitsLt_bf16_f32) slices_S283x128_S256x128_0_0 := by
    show StableHlo.after hostOps0 (fun b => m (c, b)) (Proc.devRef .tc main_v25) = _
    after_results
  rw [← e]
  funext j
  unfold iblk
  rw [View.read_apply]
  show V m c main_v25 _ = V m c main_v25 j
  congr 1
  funext a
  apply Fin.ext
  match a with
  | ⟨0, _⟩ => show win0_22.index t (0 : Fin 2) * 256 + 1 * (j 0).val = (j 0).val; rw [(hi t).1]; omega
  | ⟨1, _⟩ => show win0_22.index t (1 : Fin 2) * 128 + 1 * (j 1).val = (j 1).val; rw [(hi t).2]; omega

/-- Window 23's block is its whole array at every point: rows 256 … 282 of argument 22 transposed to [283,128] and narrowed to bf16. -/
theorem blk23 (c : Dev nD) (t : Fin cfg0.N) :
    (iblk m c 23 t : Vec F S27x128 .bf16)
      = extractStridedSlice S27x128 ![256, 0] (truncf .bf16 (transpose S283x128 [1, 0] (m ((c : Thread nD τ).loc main_arg22)) transposes_S128x283_S283x128_1_0) bitsLt_bf16_f32) slices_S283x128_S27x128_256_0 := by
  have hi : ∀ t : Fin cfg0.N, win0_23.index t (0 : Fin 2) = 0 ∧ win0_23.index t (1 : Fin 2) = 0 :=
    (by decide +kernel : ∀ t : Fin grid0.N, _)
  have e : (V m c main_v26 : S27x128.Idx → Elt F .bf16)
      = extractStridedSlice S27x128 ![256, 0] (truncf .bf16 (transpose S283x128 [1, 0] (m ((c : Thread nD τ).loc main_arg22)) transposes_S128x283_S283x128_1_0) bitsLt_bf16_f32) slices_S283x128_S27x128_256_0 := by
    show StableHlo.after hostOps0 (fun b => m (c, b)) (Proc.devRef .tc main_v26) = _
    after_results
  rw [← e]
  funext j
  unfold iblk
  rw [View.read_apply]
  show V m c main_v26 _ = V m c main_v26 j
  congr 1
  funext a
  apply Fin.ext
  match a with
  | ⟨0, _⟩ => show win0_23.index t (0 : Fin 2) * 27 + 1 * (j 0).val = (j 0).val; rw [(hi t).1]; omega
  | ⟨1, _⟩ => show win0_23.index t (1 : Fin 2) * 128 + 1 * (j 1).val = (j 1).val; rw [(hi t).2]; omega

/-- Window 24's block is its whole array at every point: argument 23. -/
theorem blk24 (c : Dev nD) (t : Fin cfg0.N) :
    (iblk m c 24 t : Vec F S128 .f32)
      = m ((c : Thread nD τ).loc main_arg23) := by
  have hi : ∀ t : Fin cfg0.N, win0_24.index t (0 : Fin 1) = 0 :=
    (by decide +kernel : ∀ t : Fin grid0.N, _)
  rw [← V_main_arg23 m c]
  funext j
  unfold iblk
  rw [View.read_apply]
  show V m c main_arg23 _ = V m c main_arg23 j
  congr 1
  funext a
  apply Fin.ext
  match a with
  | ⟨0, _⟩ => show win0_24.index t (0 : Fin 1) * 128 + 1 * (j 0).val = (j 0).val; rw [hi t]; omega

/-- Window 25's block is its whole array at every point: argument 24 transposed to [128,3], narrowed to bf16. -/
theorem blk25 (c : Dev nD) (t : Fin cfg0.N) :
    (iblk m c 25 t : Vec F S128x3 .bf16)
      = truncf .bf16 (transpose S128x3 [1, 0] (m ((c : Thread nD τ).loc main_arg24)) transposes_S3x128_S128x3_1_0) bitsLt_bf16_f32 := by
  have hi : ∀ t : Fin cfg0.N, win0_25.index t (0 : Fin 2) = 0 ∧ win0_25.index t (1 : Fin 2) = 0 :=
    (by decide +kernel : ∀ t : Fin grid0.N, _)
  have e : (V m c main_v28 : S128x3.Idx → Elt F .bf16)
      = truncf .bf16 (transpose S128x3 [1, 0] (m ((c : Thread nD τ).loc main_arg24)) transposes_S3x128_S128x3_1_0) bitsLt_bf16_f32 := by
    show StableHlo.after hostOps0 (fun b => m (c, b)) (Proc.devRef .tc main_v28) = _
    after_results
  rw [← e]
  funext j
  unfold iblk
  rw [View.read_apply]
  show V m c main_v28 _ = V m c main_v28 j
  congr 1
  funext a
  apply Fin.ext
  match a with
  | ⟨0, _⟩ => show win0_25.index t (0 : Fin 2) * 128 + 1 * (j 0).val = (j 0).val; rw [(hi t).1]; omega
  | ⟨1, _⟩ => show win0_25.index t (1 : Fin 2) * 3 + 1 * (j 1).val = (j 1).val; rw [(hi t).2]; omega

/-- Window 26's block is its whole array at every point: argument 25. -/
theorem blk26 (c : Dev nD) (t : Fin cfg0.N) :
    (iblk m c 26 t : Vec F S3 .f32)
      = m ((c : Thread nD τ).loc main_arg25) := by
  have hi : ∀ t : Fin cfg0.N, win0_26.index t (0 : Fin 1) = 0 :=
    (by decide +kernel : ∀ t : Fin grid0.N, _)
  rw [← V_main_arg25 m c]
  funext j
  unfold iblk
  rw [View.read_apply]
  show V m c main_arg25 _ = V m c main_arg25 j
  congr 1
  funext a
  apply Fin.ext
  match a with
  | ⟨0, _⟩ => show win0_26.index t (0 : Fin 1) * 3 + 1 * (j 0).val = (j 0).val; rw [hi t]; omega

end Cert.KernelIdeal.Packed

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«118394_j18519898980813_2_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«118394_j18519898980813_2_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibHostBiasRelu.lean ====
/-
  A bias row added on the host, then a rectified linear unit, read at an entry.

  The host adds a bias vector of length B to every row of an [A, B] array by making the vector a [1, B] row and
  repeating it down the A rows, then takes the maximum with the all-zero array (the scalar zero repeated to [A, B]).
  At the ideal values entry (p, q) of the result is max (u (p, q) + bias q, 0): the repeated row reads the bias at the
  entry's column, and the repeated scalar reads zero everywhere.
-/
import proofs.«118394_j18519898980813_2_alg».proof.Proof.LibHostRowCol
import Idealize.ShloMosaic.Lib.Pipeline.Value
import Idealize.ShloMosaic.Lib.ValueIdx

noncomputable section

namespace Cert.Lib

open Idealize.ShloMosaic Idealize.ShloMosaic.ValueIdx

/-- A scalar repeated to any shape reads, at every index, the scalar. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun a => a.elim0

/-- The host's bias-add and rectified linear unit at entry (p, q) is `max (u (p, q) + bias q) 0`. -/
theorem hostBiasRelu_apply {A B : ℕ} (u : FVec Ideal ⟨2, ![A, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) (p : Fin A) (q : Fin B) :
    maximumf (addf u (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32)) (ix2 p q)
      = max (u (ix2 p q) + bias (ix1 q)) (Ideal.ofBits .f32 0x00000000#32) := by
  rw [maximumf_apply, addf_apply, bcast_row_rows_apply bias h1 h2 p q, bcast_scalar_apply _ h0 (ix2 p q), constant_apply]

end Cert.Lib

end
-- ==== Proof.LibRowLayers.lean ====
/-
  A multilayer perceptron's layers, one row at a time.

  A kernel evaluates the network on a tile of A rows and a host program on all N rows at once; both apply the same map
  to every row. The statement carried from layer to layer is that row p of a tile's array is row R of the host's
  array. It survives: an affine layer (the tile's product into a zero accumulator plus a broadcast bias row, the host's
  dot_general of the transposed weights plus the twice-repeated bias vector), with or without the maximum with zero; a
  layer fed by two arrays joined along the columns, which the tile computes as two products added together and the
  host as one product over the joined axis (a finite sum over k < K1 + K2 splits into the sums over k < K1 and
  k < K2, in any commutative monoid, so no finiteness is needed); the logistic function, which the host spells
  1 / (1 + exp (-x)); and the host's x + max(x, 0) * 0, which is x because a product with zero is zero on the
  extended reals.  All statements are at the ideal values and generic in the extents.
-/
import proofs.«118394_j18519898980813_2_alg».proof.Proof.LibAffineLayer
import proofs.«118394_j18519898980813_2_alg».proof.Proof.LibHostDot2
import proofs.«118394_j18519898980813_2_alg».proof.Proof.LibHostBiasRelu
import Idealize.ShloMosaic.Lib.Pipeline.Value
import Idealize.ShloMosaic.Lib.ValueLayout
import Idealize.ShloMosaic.Lib.IdealHost

noncomputable section

namespace Cert.Lib

open Idealize.ShloMosaic Idealize.ShloMosaic.ValueIdx

variable {A N K K1 K2 B : ℕ} {φ₁ φ₂ φ₃ φ₄ : FTy}

/-- Row `p` of `u` is row `R` of `U`, entry by entry. -/
def RowEq (u : (⟨2, ![A, K]⟩ : Shape).Idx → EReal) (p : Fin A) (U : (⟨2, ![N, K]⟩ : Shape).Idx → EReal) (R : Fin N) : Prop :=
  ∀ k : Fin K, u (ix2 p k) = U (ix2 R k)

/-- The transposed matrix at (k, q) is the matrix at (q, k). -/
theorem transposed_apply (W : (⟨2, ![B, K]⟩ : Shape).Idx → EReal)
    (ht : (⟨2, ![B, K]⟩ : Shape).Transposes [1, 0] ⟨2, ![K, B]⟩) (k : Fin K) (q : Fin B) :
    transpose ⟨2, ![K, B]⟩ [1, 0] W ht (ix2 k q) = W (ix2 q k) :=
  transpose_apply [1, 0] W ht (ix2 k q) (ix2 q k) (fun b => match b with
    | ⟨0, _⟩ => rfl
    | ⟨1, _⟩ => rfl)

/-- Equal rows on the left and equal right operands give equal contractions. -/
theorem sum_rowEq (l : (⟨2, ![A, K]⟩ : Shape).Idx → EReal) (w r : (⟨2, ![K, B]⟩ : Shape).Idx → EReal)
    (L : (⟨2, ![N, K]⟩ : Shape).Idx → EReal) (p : Fin A) (R : Fin N) (hl : RowEq l p L R)
    (hw : ∀ (k : Fin K) (q : Fin B), w (ix2 k q) = r (ix2 k q)) (q : Fin B) :
    ∑ k : Fin K, l (ix2 p k) * w (ix2 k q) = ∑ k : Fin K, L (ix2 R k) * r (ix2 k q) :=
  Finset.sum_congr rfl fun k _ => by rw [hl k, hw k q]

/-- The scalar zero of a kernel is the host's zero constant. -/
theorem scalar_zero : (Scalar.ofBits (F := Ideal) .f32 0x00000000#32 : EReal) = Ideal.ofBits .f32 0x00000000#32 := rfl

/-- An affine layer: the tile's product plus bias row against the host's product plus repeated bias vector. -/
theorem affineLayer_rowEq (wfT : DotDims.WF ⟨2, ![A, K]⟩ ⟨2, ![K, B]⟩ ⟨2, ![A, B]⟩ [1] [0] [0] [1] [] [])
    (wfH : DotDims.WF ⟨2, ![N, K]⟩ ⟨2, ![K, B]⟩ ⟨2, ![N, B]⟩ [1] [0] [0] [1] [] [])
    (l : FVec Ideal ⟨2, ![A, K]⟩ φ₁) (w : FVec Ideal ⟨2, ![K, B]⟩ φ₂) (b : FVec Ideal ⟨1, ![B]⟩ .f32)
    (hc : (⟨1, ![B]⟩ : Shape).ShapeCasts ⟨2, ![1, B]⟩) (hb : (⟨2, ![1, B]⟩ : Shape).Broadcasts ⟨2, ![A, B]⟩)
    (L : FVec Ideal ⟨2, ![N, K]⟩ φ₃) (r : FVec Ideal ⟨2, ![K, B]⟩ φ₄)
    (h1 : (⟨1, ![B]⟩ : Shape).BroadcastsInDim ⟨2, ![1, B]⟩ (![1] : Fin 1 → Fin 2))
    (h2 : (⟨2, ![1, B]⟩ : Shape).BroadcastsInDim ⟨2, ![N, B]⟩ (![0, 1] : Fin 2 → Fin 2))
    (p : Fin A) (R : Fin N) (hl : RowEq l p L R) (hw : ∀ (k : Fin K) (q : Fin B), w (ix2 k q) = r (ix2 k q)) :
    RowEq (addf (matmul (plain2 wfT) none l w (constant ⟨2, ![A, B]⟩ .f32 0x00000000#32))
            (broadcastTo ⟨2, ![A, B]⟩ (shapeCast ⟨2, ![1, B]⟩ b hc) hb)) p
          (addf (Host.dotGeneral (plain2 wfH) none L r)
            (broadcastInDim ⟨2, ![N, B]⟩ ![0, 1] h2 (broadcastInDim ⟨2, ![1, B]⟩ ![1] h1 b))) R := by
  intro q
  rw [affine_apply wfT l w b hc hb p q, addf_apply, hostDot2_apply wfH L r R q, bcast_row_rows_apply b h1 h2 R q,
    sum_rowEq l w r L p R hl hw q]

/-- The same layer followed by the maximum with zero. -/
theorem reluLayer_rowEq (wfT : DotDims.WF ⟨2, ![A, K]⟩ ⟨2, ![K, B]⟩ ⟨2, ![A, B]⟩ [1] [0] [0] [1] [] [])
    (wfH : DotDims.WF ⟨2, ![N, K]⟩ ⟨2, ![K, B]⟩ ⟨2, ![N, B]⟩ [1] [0] [0] [1] [] [])
    (l : FVec Ideal ⟨2, ![A, K]⟩ φ₁) (w : FVec Ideal ⟨2, ![K, B]⟩ φ₂) (b : FVec Ideal ⟨1, ![B]⟩ .f32)
    (hc : (⟨1, ![B]⟩ : Shape).ShapeCasts ⟨2, ![1, B]⟩) (hb : (⟨2, ![1, B]⟩ : Shape).Broadcasts ⟨2, ![A, B]⟩)
    (L : FVec Ideal ⟨2, ![N, K]⟩ φ₃) (r : FVec Ideal ⟨2, ![K, B]⟩ φ₄)
    (h1 : (⟨1, ![B]⟩ : Shape).BroadcastsInDim ⟨2, ![1, B]⟩ (![1] : Fin 1 → Fin 2))
    (h2 : (⟨2, ![1, B]⟩ : Shape).BroadcastsInDim ⟨2, ![N, B]⟩ (![0, 1] : Fin 2 → Fin 2))
    (h0 : (⟨0, ![]⟩ : Shape).BroadcastsInDim ⟨2, ![N, B]⟩ (![] : Fin 0 → Fin 2))
    (p : Fin A) (R : Fin N) (hl : RowEq l p L R) (hw : ∀ (k : Fin K) (q : Fin B), w (ix2 k q) = r (ix2 k q)) :
    RowEq (maximumf (addf (matmul (plain2 wfT) none l w (constant ⟨2, ![A, B]⟩ .f32 0x00000000#32))
            (broadcastTo ⟨2, ![A, B]⟩ (shapeCast ⟨2, ![1, B]⟩ b hc) hb))
            (broadcast ⟨2, ![A, B]⟩ (Scalar.ofBits (F := Ideal) .f32 0x00000000#32))) p
          (maximumf (addf (Host.dotGeneral (plain2 wfH) none L r)
            (broadcastInDim ⟨2, ![N, B]⟩ ![0, 1] h2 (broadcastInDim ⟨2, ![1, B]⟩ ![1] h1 b)))
            (broadcastInDim ⟨2, ![N, B]⟩ ![] h0 (constant (F := Ideal) ⟨0, ![]⟩ .f32 0x00000000#32))) R := by
  intro q
  rw [maximumf_apply, maximumf_apply, broadcast_apply, bcast_scalar_apply _ h0 (ix2 R q), constant_apply,
    affineLayer_rowEq wfT wfH l w b hc hb L r h1 h2 p R hl hw q]
  rfl

/-- A layer fed by two arrays joined along the columns: the tile adds two products, the host multiplies once over
    the joined axis. The right operands `w1`, `w2` are the first `K1` and the last `K2` rows of the host's `r`. -/
theorem joinedLayer_rowEq (wf1 : DotDims.WF ⟨2, ![A, K1]⟩ ⟨2, ![K1, B]⟩ ⟨2, ![A, B]⟩ [1] [0] [0] [1] [] [])
    (wf2 : DotDims.WF ⟨2, ![A, K2]⟩ ⟨2, ![K2, B]⟩ ⟨2, ![A, B]⟩ [1] [0] [0] [1] [] [])
    (wfH : DotDims.WF ⟨2, ![N, K1 + K2]⟩ ⟨2, ![K1 + K2, B]⟩ ⟨2, ![N, B]⟩ [1] [0] [0] [1] [] [])
    (l1 : FVec Ideal ⟨2, ![A, K1]⟩ φ₁) (l2 : FVec Ideal ⟨2, ![A, K2]⟩ φ₁) (w1 : FVec Ideal ⟨2, ![K1, B]⟩ φ₂)
    (w2 : FVec Ideal ⟨2, ![K2, B]⟩ φ₂) (b : FVec Ideal ⟨1, ![B]⟩ .f32)
    (hc : (⟨1, ![B]⟩ : Shape).ShapeCasts ⟨2, ![1, B]⟩) (hb : (⟨2, ![1, B]⟩ : Shape).Broadcasts ⟨2, ![A, B]⟩)
    (L1 : FVec Ideal ⟨2, ![N, K1]⟩ .f32) (L2 : FVec Ideal ⟨2, ![N, K2]⟩ .f32)
    (hcat : Shape.Concatenates [(⟨2, ![N, K1]⟩ : Shape), ⟨2, ![N, K2]⟩] ⟨2, ![N, K1 + K2]⟩ (1 : Fin 2))
    (r : FVec Ideal ⟨2, ![K1 + K2, B]⟩ φ₄)
    (h1 : (⟨1, ![B]⟩ : Shape).BroadcastsInDim ⟨2, ![1, B]⟩ (![1] : Fin 1 → Fin 2))
    (h2 : (⟨2, ![1, B]⟩ : Shape).BroadcastsInDim ⟨2, ![N, B]⟩ (![0, 1] : Fin 2 → Fin 2))
    (h0 : (⟨0, ![]⟩ : Shape).BroadcastsInDim ⟨2, ![N, B]⟩ (![] : Fin 0 → Fin 2))
    (p : Fin A) (R : Fin N) (hl1 : RowEq l1 p L1 R) (hl2 : RowEq l2 p L2 R)
    (hw1 : ∀ (k : Fin K1) (q : Fin B), w1 (ix2 k q) = r (ix2 (Fin.castAdd K2 k) q))
    (hw2 : ∀ (k : Fin K2) (q : Fin B), w2 (ix2 k q) = r (ix2 (Fin.natAdd K1 k) q)) :
    RowEq (maximumf (addf (addf (matmul (plain2 wf1) none l1 w1 (constant ⟨2, ![A, B]⟩ .f32 0x00000000#32))
              (matmul (plain2 wf2) none l2 w2 (constant ⟨2, ![A, B]⟩ .f32 0x00000000#32)))
            (broadcastTo ⟨2, ![A, B]⟩ (shapeCast ⟨2, ![1, B]⟩ b hc) hb))
            (broadcast ⟨2, ![A, B]⟩ (Scalar.ofBits (F := Ideal) .f32 0x00000000#32))) p
          (maximumf (addf (Host.dotGeneral (plain2 wfH) none
              (concatenate ⟨2, ![N, K1 + K2]⟩ (1 : Fin 2) [⟨⟨2, ![N, K1]⟩, L1⟩, ⟨⟨2, ![N, K2]⟩, L2⟩] hcat) r)
            (broadcastInDim ⟨2, ![N, B]⟩ ![0, 1] h2 (broadcastInDim ⟨2, ![1, B]⟩ ![1] h1 b)))
            (broadcastInDim ⟨2, ![N, B]⟩ ![] h0 (constant (F := Ideal) ⟨0, ![]⟩ .f32 0x00000000#32))) R := by
  intro q
  have hleft : ∀ k : Fin K1, concatenate ⟨2, ![N, K1 + K2]⟩ (1 : Fin 2) [⟨⟨2, ![N, K1]⟩, L1⟩, ⟨⟨2, ![N, K2]⟩, L2⟩] hcat
      (ix2 R (Fin.castAdd K2 k)) = L1 (ix2 R k) := fun k =>
    concatenate_pair_apply_left (1 : Fin 2) L1 L2 hcat (ix2 R (Fin.castAdd K2 k)) rfl (ix2 R k) (fun b => match b with
      | ⟨0, _⟩ => rfl
      | ⟨1, _⟩ => rfl)
  have hright : ∀ k : Fin K2, concatenate ⟨2, ![N, K1 + K2]⟩ (1 : Fin 2) [⟨⟨2, ![N, K1]⟩, L1⟩, ⟨⟨2, ![N, K2]⟩, L2⟩] hcat
      (ix2 R (Fin.natAdd K1 k)) = L2 (ix2 R k) := fun k =>
    concatenate_pair_apply_right (1 : Fin 2) L1 L2 hcat (ix2 R (Fin.natAdd K1 k)) rfl rfl (ix2 R k) (fun b hb => match b, hb with
      | ⟨0, _⟩, _ => rfl
      | ⟨1, _⟩, hb => absurd rfl hb) (by show k.val + K1 = K1 + k.val; omega)
  rw [maximumf_apply, maximumf_apply, broadcast_apply, bcast_scalar_apply _ h0 (ix2 R q), constant_apply, addf_apply,
    addf_apply, addf_apply, matmul2_zero_apply wf1 l1 w1 p q, matmul2_zero_apply wf2 l2 w2 p q,
    rowBroadcast_apply b hc hb p q, hostDot2_apply wfH _ r R q, bcast_row_rows_apply b h1 h2 R q, Fin.sum_univ_add]
  simp only [hleft, hright, hl1 _, hl2 _, hw1, hw2]
  rfl

/-- The logistic function of a tile against the host's `1 / (1 + exp (-x))`. -/
theorem logistic_rowEq (u : FVec Ideal ⟨2, ![A, B]⟩ .f32) (U : FVec Ideal ⟨2, ![N, B]⟩ .f32)
    (h0 : (⟨0, ![]⟩ : Shape).BroadcastsInDim ⟨2, ![N, B]⟩ (![] : Fin 0 → Fin 2))
    (p : Fin A) (R : Fin N) (h : RowEq u p U R) :
    RowEq (logistic u) p
      (Host.divf (broadcastInDim ⟨2, ![N, B]⟩ ![] h0 (constant (F := Ideal) ⟨0, ![]⟩ .f32 0x3F800000#32))
        (addf (broadcastInDim ⟨2, ![N, B]⟩ ![] h0 (constant (F := Ideal) ⟨0, ![]⟩ .f32 0x3F800000#32))
          (Host.exp (Host.negf U)))) R := by
  intro q
  show Ideal.logistic (u (ix2 p q)) = Ideal.div
      (broadcastInDim ⟨2, ![N, B]⟩ ![] h0 (constant (F := Ideal) ⟨0, ![]⟩ .f32 0x3F800000#32) (ix2 R q))
      (broadcastInDim ⟨2, ![N, B]⟩ ![] h0 (constant (F := Ideal) ⟨0, ![]⟩ .f32 0x3F800000#32) (ix2 R q)
        + Ideal.exp (-(U (ix2 R q))))
  rw [bcast_scalar_apply _ h0 (ix2 R q), constant_apply, Ideal.ofBits_one_f32, h q]
  rfl

/-- The host's `x + max (x, 0) * 0` is `x`. -/
theorem add_relu_mul_zero (x z : EReal) : x + max x z * Ideal.ofBits .f32 0x00000000#32 = x := by
  rw [Ideal.ofBits_zero_f32, mul_zero, add_zero]

end Cert.Lib

end
-- ==== Proof.BlockRows.lean ====
/-
  The rows and weights a tile sees.

  Row p of the tile's input block at grid point t is row 4096 t + p of the points (columns 0, 1, 2) and of the
  directions (columns 3, 4, 5). Each weight block is the transposed weight matrix, so its entry (k, q) is the matrix's
  entry (q, k); the blocks of the two joined layers are the first and the remaining rows of their transposed matrix,
  so their entry (k, q) is the matrix's entry (q, k) and (q, K1 + k).
-/
import proofs.«118394_j18519898980813_2_alg».proof.Proof.PackedBlocksA
import proofs.«118394_j18519898980813_2_alg».proof.Proof.PackedBlocksB
import proofs.«118394_j18519898980813_2_alg».proof.Proof.PackedBlocksC
import proofs.«118394_j18519898980813_2_alg».proof.Proof.PackedBlocksD
import proofs.«118394_j18519898980813_2_alg».proof.Proof.LibRowLayers

set_option maxRecDepth 16384

noncomputable section

namespace Cert.Nerf

open Idealize.ShloMosaic Idealize.ShloMosaic.TcCoe Idealize.SL.Sem Idealize.ShloMosaic.ValueIdx Cert.Lib
open Cert.KernelIdeal Cert.KernelIdeal.Gen Cert.KernelIdeal.Packed

variable (m : (ℓ : Loc nD τ sig) → Buf (Elt Ideal) ℓ) (c : Dev nD) (t : Fin cfg0.N)

/-- The point of the tile's row. -/
theorem rows_pts (p : Fin 4096) (R : Fin 262144) (hR : R.val = 4096 * t.val + p.val) (e : Fin 3) :
    (iblk m c 0 t : Vec Ideal S4096x6 .f32) (ix2 p ⟨0 + e.val, Nat.lt_of_lt_of_le (Nat.add_lt_add_left e.isLt 0) (by decide)⟩)
      = ((m ((c : Thread nD τ).loc main_arg0)) : S262144x3.Idx → EReal) (ix2 R e) :=
  (blk0 m c t p ⟨0 + e.val, Nat.lt_of_lt_of_le (Nat.add_lt_add_left e.isLt 0) (by decide)⟩ R hR).trans
    (concatenate_pair_apply_left (t := S262144x6) (s₁ := S262144x3) (s₂ := S262144x3) (1 : Fin 2) _ _ _ (ix2 R ⟨0 + e.val, Nat.lt_of_lt_of_le (Nat.add_lt_add_left e.isLt 0) (by decide)⟩) rfl (ix2 R e) (fun b => match b with
      | ⟨0, _⟩ => rfl
      | ⟨1, _⟩ => (Nat.zero_add _).symm))

/-- The direction of the tile's row. -/
theorem rows_dirs (p : Fin 4096) (R : Fin 262144) (hR : R.val = 4096 * t.val + p.val) (e : Fin 3) :
    (iblk m c 0 t : Vec Ideal S4096x6 .f32) (ix2 p ⟨3 + e.val, Nat.lt_of_lt_of_le (Nat.add_lt_add_left e.isLt 3) (by decide)⟩)
      = ((m ((c : Thread nD τ).loc main_arg1)) : S262144x3.Idx → EReal) (ix2 R e) :=
  (blk0 m c t p ⟨3 + e.val, Nat.lt_of_lt_of_le (Nat.add_lt_add_left e.isLt 3) (by decide)⟩ R hR).trans
    (concatenate_pair_apply_right (t := S262144x6) (s₁ := S262144x3) (s₂ := S262144x3) (1 : Fin 2) _ _ _ (ix2 R ⟨3 + e.val, Nat.lt_of_lt_of_le (Nat.add_lt_add_left e.isLt 3) (by decide)⟩) rfl rfl (ix2 R e)
      (fun b hb => match b, hb with
        | ⟨0, _⟩, _ => rfl
        | ⟨1, _⟩, hb => absurd rfl hb)
      (by show e.val + 3 = 3 + e.val; omega))

theorem weight1 (k : Fin 63) (q : Fin 256) :
    (iblk m c 1 t : Vec Ideal S63x256 .bf16) (ix2 k q) = (m ((c : Thread nD τ).loc main_arg2)) (ix2 q k) := by
  rw [blk1 m c t]
  exact transposed_apply _ _ k q

theorem weight3 (k : Fin 256) (q : Fin 256) :
    (iblk m c 3 t : Vec Ideal S256x256 .bf16) (ix2 k q) = (m ((c : Thread nD τ).loc main_arg4)) (ix2 q k) := by
  rw [blk3 m c t]
  exact transposed_apply _ _ k q

theorem weight5 (k : Fin 256) (q : Fin 256) :
    (iblk m c 5 t : Vec Ideal S256x256 .bf16) (ix2 k q) = (m ((c : Thread nD τ).loc main_arg6)) (ix2 q k) := by
  rw [blk5 m c t]
  exact transposed_apply _ _ k q

theorem weight7 (k : Fin 256) (q : Fin 256) :
    (iblk m c 7 t : Vec Ideal S256x256 .bf16) (ix2 k q) = (m ((c : Thread nD τ).loc main_arg8)) (ix2 q k) := by
  rw [blk7 m c t]
  exact transposed_apply _ _ k q

theorem weight9 (k : Fin 256) (q : Fin 256) :
    (iblk m c 9 t : Vec Ideal S256x256 .bf16) (ix2 k q) = (m ((c : Thread nD τ).loc main_arg10)) (ix2 q k) := by
  rw [blk9 m c t]
  exact transposed_apply _ _ k q

theorem weight14 (k : Fin 256) (q : Fin 256) :
    (iblk m c 14 t : Vec Ideal S256x256 .bf16) (ix2 k q) = (m ((c : Thread nD τ).loc main_arg14)) (ix2 q k) := by
  rw [blk14 m c t]
  exact transposed_apply _ _ k q

theorem weight16 (k : Fin 256) (q : Fin 256) :
    (iblk m c 16 t : Vec Ideal S256x256 .bf16) (ix2 k q) = (m ((c : Thread nD τ).loc main_arg16)) (ix2 q k) := by
  rw [blk16 m c t]
  exact transposed_apply _ _ k q

theorem weight18 (k : Fin 256) (q : Fin 1) :
    (iblk m c 18 t : Vec Ideal S256x1 .bf16) (ix2 k q) = (m ((c : Thread nD τ).loc main_arg18)) (ix2 q k) := by
  rw [blk18 m c t]
  exact transposed_apply _ _ k q

theorem weight20 (k : Fin 256) (q : Fin 256) :
    (iblk m c 20 t : Vec Ideal S256x256 .bf16) (ix2 k q) = (m ((c : Thread nD τ).loc main_arg20)) (ix2 q k) := by
  rw [blk20 m c t]
  exact transposed_apply _ _ k q

theorem weight25 (k : Fin 128) (q : Fin 3) :
    (iblk m c 25 t : Vec Ideal S128x3 .bf16) (ix2 k q) = (m ((c : Thread nD τ).loc main_arg24)) (ix2 q k) := by
  rw [blk25 m c t]
  exact transposed_apply _ _ k q

theorem weight11 (k : Fin 63) (q : Fin 256) :
    (iblk m c 11 t : Vec Ideal S63x256 .bf16) (ix2 k q) = (m ((c : Thread nD τ).loc main_arg12)) (ix2 q (Fin.castAdd 256 k)) := by
  rw [blk11 m c t, slice2_axis0_eq]
  exact (transposed_apply (K := 319) _ _ _ q).trans (congrArg (fun z => (m ((c : Thread nD τ).loc main_arg12)) (ix2 q z)) (Fin.ext (Nat.zero_add k.val)))

theorem weight12 (k : Fin 256) (q : Fin 256) :
    (iblk m c 12 t : Vec Ideal S256x256 .bf16) (ix2 k q) = (m ((c : Thread nD τ).loc main_arg12)) (ix2 q (Fin.natAdd 63 k)) := by
  rw [blk12 m c t, slice2_axis0_eq]
  exact transposed_apply (K := 319) _ _ _ q

theorem weight22 (k : Fin 256) (q : Fin 128) :
    (iblk m c 22 t : Vec Ideal S256x128 .bf16) (ix2 k q) = (m ((c : Thread nD τ).loc main_arg22)) (ix2 q (Fin.castAdd 27 k)) := by
  rw [blk22 m c t, slice2_axis0_eq]
  exact (transposed_apply (K := 283) _ _ _ q).trans (congrArg (fun z => (m ((c : Thread nD τ).loc main_arg22)) (ix2 q z)) (Fin.ext (Nat.zero_add k.val)))

theorem weight23 (k : Fin 27) (q : Fin 128) :
    (iblk m c 23 t : Vec Ideal S27x128 .bf16) (ix2 k q) = (m ((c : Thread nD τ).loc main_arg22)) (ix2 q (Fin.natAdd 256 k)) := by
  rw [blk23 m c t, slice2_axis0_eq]
  exact transposed_apply (K := 283) _ _ _ q

end Cert.Nerf

end
-- ==== Proof.Freqs.lean ====
/-
  The frequencies of a positional encoding.

  A kernel writes the frequencies 1, 2, 4, …, 512 as single-precision constants; a host program computes them as 2
  raised to the integers 0, 1, …, 9 converted to floats. Each constant's word denotes exactly that power of two, and
  the real power of 2 with a natural exponent is the natural power, so the two spellings denote one extended real.
-/
import Idealize.ShloMosaic.PureOps.Ideal
import Idealize.ShloMosaic.Lib.IdealHost

noncomputable section

namespace Cert.Nerf

open Idealize.ShloMosaic

/-- The word `0x3F800000` denotes 2 to the 0. -/
theorem word_pow0 : Ideal.ofBits .f32 0x3F800000#32 = (((2 : ℝ) ^ 0 : ℝ) : EReal) := by
  simp [Ideal.ofBits, Ideal.ieee, -EReal.coe_mul]; norm_num

/-- The word `0x40000000` denotes 2 to the 1. -/
theorem word_pow1 : Ideal.ofBits .f32 0x40000000#32 = (((2 : ℝ) ^ 1 : ℝ) : EReal) := by
  simp [Ideal.ofBits, Ideal.ieee, -EReal.coe_mul]; norm_num

/-- The word `0x40800000` denotes 2 to the 2. -/
theorem word_pow2 : Ideal.ofBits .f32 0x40800000#32 = (((2 : ℝ) ^ 2 : ℝ) : EReal) := by
  rw [show ((2 : ℝ) ^ 2 : ℝ) = 4 by norm_num]
  simp [Ideal.ofBits, Ideal.ieee, -EReal.coe_mul] <;> norm_num

/-- The word `0x41000000` denotes 2 to the 3. -/
theorem word_pow3 : Ideal.ofBits .f32 0x41000000#32 = (((2 : ℝ) ^ 3 : ℝ) : EReal) := by
  rw [show ((2 : ℝ) ^ 3 : ℝ) = 8 by norm_num]
  simp [Ideal.ofBits, Ideal.ieee, -EReal.coe_mul] <;> norm_num

/-- The word `0x41800000` denotes 2 to the 4. -/
theorem word_pow4 : Ideal.ofBits .f32 0x41800000#32 = (((2 : ℝ) ^ 4 : ℝ) : EReal) := by
  rw [show ((2 : ℝ) ^ 4 : ℝ) = 16 by norm_num]
  simp [Ideal.ofBits, Ideal.ieee, -EReal.coe_mul] <;> norm_num

/-- The word `0x42000000` denotes 2 to the 5. -/
theorem word_pow5 : Ideal.ofBits .f32 0x42000000#32 = (((2 : ℝ) ^ 5 : ℝ) : EReal) := by
  rw [show ((2 : ℝ) ^ 5 : ℝ) = 32 by norm_num]
  simp [Ideal.ofBits, Ideal.ieee, -EReal.coe_mul] <;> norm_num

/-- The word `0x42800000` denotes 2 to the 6. -/
theorem word_pow6 : Ideal.ofBits .f32 0x42800000#32 = (((2 : ℝ) ^ 6 : ℝ) : EReal) := by
  rw [show ((2 : ℝ) ^ 6 : ℝ) = 64 by norm_num]
  simp [Ideal.ofBits, Ideal.ieee, -EReal.coe_mul] <;> norm_num

/-- The word `0x43000000` denotes 2 to the 7. -/
theorem word_pow7 : Ideal.ofBits .f32 0x43000000#32 = (((2 : ℝ) ^ 7 : ℝ) : EReal) := by
  rw [show ((2 : ℝ) ^ 7 : ℝ) = 128 by norm_num]
  simp [Ideal.ofBits, Ideal.ieee, -EReal.coe_mul] <;> norm_num

/-- The word `0x43800000` denotes 2 to the 8. -/
theorem word_pow8 : Ideal.ofBits .f32 0x43800000#32 = (((2 : ℝ) ^ 8 : ℝ) : EReal) := by
  rw [show ((2 : ℝ) ^ 8 : ℝ) = 256 by norm_num]
  simp [Ideal.ofBits, Ideal.ieee, -EReal.coe_mul] <;> norm_num

/-- The word `0x44000000` denotes 2 to the 9. -/
theorem word_pow9 : Ideal.ofBits .f32 0x44000000#32 = (((2 : ℝ) ^ 9 : ℝ) : EReal) := by
  rw [show ((2 : ℝ) ^ 9 : ℝ) = 512 by norm_num]
  simp [Ideal.ofBits, Ideal.ieee, -EReal.coe_mul] <;> norm_num

/-- The integer word of a small natural number reads, signed, as that number. -/
theorem toInt_small (f : ℕ) (hf : f < 10) : (BitVec.ofNat 32 f).toInt = (f : ℤ) := by
  interval_cases f <;> decide

/-- 2.0 raised to the float of the integer word `f` is the natural power 2 ^ f. -/
theorem pow_two_word (f : ℕ) (hf : f < 10) :
    Ideal.pow (Ideal.ofBits .f32 0x40000000#32) ((((BitVec.ofNat 32 f).toInt : ℤ) : ℝ) : EReal)
      = (((2 : ℝ) ^ f : ℝ) : EReal) := by
  rw [toInt_small f hf, word_pow1, Ideal.pow_coe_coe]
  congr 1
  rw [pow_one, Int.cast_natCast]
  exact Real.rpow_natCast 2 f

/-- One trigonometric entry of the encoding of `x`: the sine (`s = 0`) or the cosine (`s = 1`) of `x` times 2 to the `f`. -/
def encEntry (x : EReal) (f : ℕ) (s : Fin 2) : EReal :=
  if s = 0 then Ideal.sin (x * (((2 : ℝ) ^ f : ℝ) : EReal)) else Ideal.cos (x * (((2 : ℝ) ^ f : ℝ) : EReal))

theorem encEntry_sin (x : EReal) (f : ℕ) : encEntry x f 0 = Ideal.sin (x * (((2 : ℝ) ^ f : ℝ) : EReal)) := rfl

theorem encEntry_cos (x : EReal) (f : ℕ) : encEntry x f 1 = Ideal.cos (x * (((2 : ℝ) ^ f : ℝ) : EReal)) := rfl

end Cert.Nerf

end
-- ==== Proof.TileEncoding.lean ====
/-
  The kernel's positional encoding read at an entry.

  A tile's encoded block is the join, along the columns, of the component block itself and, for each frequency
  2 ^ f, the sines and then the cosines of the components times that frequency (a broadcast constant). Each piece is
  three columns wide, so column 3 j + c lies in piece j at component c: piece 0 is the components, piece 1 + 2 f the
  sines and piece 2 + 2 f the cosines at frequency 2 ^ f. The point components are columns 0, 1, 2 of the tile's
  input block and the direction components columns 3, 4, 5.
-/
import proofs.«118394_j18519898980813_2_alg».proof.Proof.Gen.KernelIdeal.Skeleton
import proofs.«118394_j18519898980813_2_alg».proof.Proof.Freqs
import Idealize.ShloMosaic.Lib.Pipeline.Value
import Idealize.ShloMosaic.Lib.ValueLayout

noncomputable section

namespace Cert.Nerf

open Idealize.ShloMosaic Idealize.ShloMosaic.ValueIdx Cert.KernelIdeal Cert.KernelIdeal.Gen

/-! ## The points: ten frequencies, 63 columns -/

/-- Columns 0, 1, 2 of the input block. -/
abbrev cols0 (v0 : Vec Ideal S4096x6 .f32) : FVec Ideal S4096x3 .f32 :=
  extractStridedSlice S4096x3 ![0, 0] (shapeCast S4096x6 v0 shapeCasts_S4096x6_S4096x6) slices_S4096x6_o0_0_S4096x3

/-- The 21 pieces of the encoded block: the components, then sine and cosine at each frequency. -/
def tileEnc10Pieces (v0 : Vec Ideal S4096x6 .f32) : Fin 21 → FVec Ideal S4096x3 .f32 :=
  ![(cols0 v0),
    sin (mulf (cols0 v0) (broadcast S4096x3 (Scalar.ofBits (F := Ideal) .f32 0x3F800000#32))),
    cos (mulf (cols0 v0) (broadcast S4096x3 (Scalar.ofBits (F := Ideal) .f32 0x3F800000#32))),
    sin (mulf (cols0 v0) (broadcast S4096x3 (Scalar.ofBits (F := Ideal) .f32 0x40000000#32))),
    cos (mulf (cols0 v0) (broadcast S4096x3 (Scalar.ofBits (F := Ideal) .f32 0x40000000#32))),
    sin (mulf (cols0 v0) (broadcast S4096x3 (Scalar.ofBits (F := Ideal) .f32 0x40800000#32))),
    cos (mulf (cols0 v0) (broadcast S4096x3 (Scalar.ofBits (F := Ideal) .f32 0x40800000#32))),
    sin (mulf (cols0 v0) (broadcast S4096x3 (Scalar.ofBits (F := Ideal) .f32 0x41000000#32))),
    cos (mulf (cols0 v0) (broadcast S4096x3 (Scalar.ofBits (F := Ideal) .f32 0x41000000#32))),
    sin (mulf (cols0 v0) (broadcast S4096x3 (Scalar.ofBits (F := Ideal) .f32 0x41800000#32))),
    cos (mulf (cols0 v0) (broadcast S4096x3 (Scalar.ofBits (F := Ideal) .f32 0x41800000#32))),
    sin (mulf (cols0 v0) (broadcast S4096x3 (Scalar.ofBits (F := Ideal) .f32 0x42000000#32))),
    cos (mulf (cols0 v0) (broadcast S4096x3 (Scalar.ofBits (F := Ideal) .f32 0x42000000#32))),
    sin (mulf (cols0 v0) (broadcast S4096x3 (Scalar.ofBits (F := Ideal) .f32 0x42800000#32))),
    cos (mulf (cols0 v0) (broadcast S4096x3 (Scalar.ofBits (F := Ideal) .f32 0x42800000#32))),
    sin (mulf (cols0 v0) (broadcast S4096x3 (Scalar.ofBits (F := Ideal) .f32 0x43000000#32))),
    cos (mulf (cols0 v0) (broadcast S4096x3 (Scalar.ofBits (F := Ideal) .f32 0x43000000#32))),
    sin (mulf (cols0 v0) (broadcast S4096x3 (Scalar.ofBits (F := Ideal) .f32 0x43800000#32))),
    cos (mulf (cols0 v0) (broadcast S4096x3 (Scalar.ofBits (F := Ideal) .f32 0x43800000#32))),
    sin (mulf (cols0 v0) (broadcast S4096x3 (Scalar.ofBits (F := Ideal) .f32 0x44000000#32))),
    cos (mulf (cols0 v0) (broadcast S4096x3 (Scalar.ofBits (F := Ideal) .f32 0x44000000#32)))]

/-- The encoded block is the join of those pieces. -/
theorem tileEnc10_join (v0 : Vec Ideal S4096x6 .f32) :
    k0_pay5 (F := Ideal) v0 = concatenate S4096x63 (1 : Fin 2)
      (List.ofFn fun n : Fin 21 => (⟨S4096x3, tileEnc10Pieces v0 n⟩ : (s : Shape) × (s.Idx → Elt Ideal .f32)))
      concatenates_S4096x3_S4096x3_S4096x3_S4096x3_S4096x3_S4096x3_S4096x3_S4096x3_S4096x3_S4096x3_S4096x3_S4096x3_S4096x3_S4096x3_S4096x3_S4096x3_S4096x3_S4096x3_S4096x3_S4096x3_S4096x3_S4096x63_d1 := rfl

/-- Column `3 n + c` of the encoded block is piece `n` at component `c`. -/
theorem tileEnc10_piece (v0 : Vec Ideal S4096x6 .f32) (p : Fin 4096) (n : Fin 21) (c : Fin 3) (h : 3 * n.val + c.val < 63) :
    k0_pay5 (F := Ideal) v0 (ix2 p ⟨3 * n.val + c.val, h⟩) = tileEnc10Pieces v0 n (ix2 p c) := by
  have hc := c.isLt
  rw [tileEnc10_join]
  exact concatenate_ofFn_apply (t := S4096x63) (1 : Fin 2) (tileEnc10Pieces v0) _ rfl 3 rfl (ix2 p ⟨3 * n.val + c.val, h⟩) n
    (by show (3 * n.val + c.val) / 3 = n.val; omega) (ix2 p c)
    (by show c.val = (3 * n.val + c.val) % 3; omega)
    (fun b hb => match b, hb with
      | ⟨0, _⟩, _ => rfl
      | ⟨1, _⟩, hb => absurd rfl hb)

theorem tileEnc10_0 (v0 : Vec Ideal S4096x6 .f32) (p : Fin 4096) (c : Fin 3) (h : 3 * 0 + c.val < 63) :
    k0_pay5 (F := Ideal) v0 (ix2 p ⟨3 * 0 + c.val, h⟩) = v0 (ix2 p ⟨0 + c.val, by omega⟩) := by
  refine (tileEnc10_piece v0 p ⟨0, by decide⟩ c h).trans ?_
  show extractStridedSlice S4096x3 ![0, 0] (shapeCast S4096x6 v0 shapeCasts_S4096x6_S4096x6) slices_S4096x6_o0_0_S4096x3 (ix2 p c) = _
  rw [slice2_axis1_eq, shapeCast_self]

theorem tileEnc10_1 (v0 : Vec Ideal S4096x6 .f32) (p : Fin 4096) (c : Fin 3) (h : 3 * 1 + c.val < 63) :
    k0_pay5 (F := Ideal) v0 (ix2 p ⟨3 * 1 + c.val, h⟩) = encEntry (v0 (ix2 p ⟨0 + c.val, by omega⟩)) 0 0 := by
  refine (tileEnc10_piece v0 p ⟨1, by decide⟩ c h).trans ?_
  show Ideal.sin (extractStridedSlice S4096x3 ![0, 0] (shapeCast S4096x6 v0 shapeCasts_S4096x6_S4096x6) slices_S4096x6_o0_0_S4096x3 (ix2 p c) * Ideal.ofBits .f32 0x3F800000#32) = _
  rw [slice2_axis1_eq, shapeCast_self, word_pow0, encEntry_sin]

theorem tileEnc10_2 (v0 : Vec Ideal S4096x6 .f32) (p : Fin 4096) (c : Fin 3) (h : 3 * 2 + c.val < 63) :
    k0_pay5 (F := Ideal) v0 (ix2 p ⟨3 * 2 + c.val, h⟩) = encEntry (v0 (ix2 p ⟨0 + c.val, by omega⟩)) 0 1 := by
  refine (tileEnc10_piece v0 p ⟨2, by decide⟩ c h).trans ?_
  show Ideal.cos (extractStridedSlice S4096x3 ![0, 0] (shapeCast S4096x6 v0 shapeCasts_S4096x6_S4096x6) slices_S4096x6_o0_0_S4096x3 (ix2 p c) * Ideal.ofBits .f32 0x3F800000#32) = _
  rw [slice2_axis1_eq, shapeCast_self, word_pow0, encEntry_cos]

theorem tileEnc10_3 (v0 : Vec Ideal S4096x6 .f32) (p : Fin 4096) (c : Fin 3) (h : 3 * 3 + c.val < 63) :
    k0_pay5 (F := Ideal) v0 (ix2 p ⟨3 * 3 + c.val, h⟩) = encEntry (v0 (ix2 p ⟨0 + c.val, by omega⟩)) 1 0 := by
  refine (tileEnc10_piece v0 p ⟨3, by decide⟩ c h).trans ?_
  show Ideal.sin (extractStridedSlice S4096x3 ![0, 0] (shapeCast S4096x6 v0 shapeCasts_S4096x6_S4096x6) slices_S4096x6_o0_0_S4096x3 (ix2 p c) * Ideal.ofBits .f32 0x40000000#32) = _
  rw [slice2_axis1_eq, shapeCast_self, word_pow1, encEntry_sin]

theorem tileEnc10_4 (v0 : Vec Ideal S4096x6 .f32) (p : Fin 4096) (c : Fin 3) (h : 3 * 4 + c.val < 63) :
    k0_pay5 (F := Ideal) v0 (ix2 p ⟨3 * 4 + c.val, h⟩) = encEntry (v0 (ix2 p ⟨0 + c.val, by omega⟩)) 1 1 := by
  refine (tileEnc10_piece v0 p ⟨4, by decide⟩ c h).trans ?_
  show Ideal.cos (extractStridedSlice S4096x3 ![0, 0] (shapeCast S4096x6 v0 shapeCasts_S4096x6_S4096x6) slices_S4096x6_o0_0_S4096x3 (ix2 p c) * Ideal.ofBits .f32 0x40000000#32) = _
  rw [slice2_axis1_eq, shapeCast_self, word_pow1, encEntry_cos]

theorem tileEnc10_5 (v0 : Vec Ideal S4096x6 .f32) (p : Fin 4096) (c : Fin 3) (h : 3 * 5 + c.val < 63) :
    k0_pay5 (F := Ideal) v0 (ix2 p ⟨3 * 5 + c.val, h⟩) = encEntry (v0 (ix2 p ⟨0 + c.val, by omega⟩)) 2 0 := by
  refine (tileEnc10_piece v0 p ⟨5, by decide⟩ c h).trans ?_
  show Ideal.sin (extractStridedSlice S4096x3 ![0, 0] (shapeCast S4096x6 v0 shapeCasts_S4096x6_S4096x6) slices_S4096x6_o0_0_S4096x3 (ix2 p c) * Ideal.ofBits .f32 0x40800000#32) = _
  rw [slice2_axis1_eq, shapeCast_self, word_pow2, encEntry_sin]

theorem tileEnc10_6 (v0 : Vec Ideal S4096x6 .f32) (p : Fin 4096) (c : Fin 3) (h : 3 * 6 + c.val < 63) :
    k0_pay5 (F := Ideal) v0 (ix2 p ⟨3 * 6 + c.val, h⟩) = encEntry (v0 (ix2 p ⟨0 + c.val, by omega⟩)) 2 1 := by
  refine (tileEnc10_piece v0 p ⟨6, by decide⟩ c h).trans ?_
  show Ideal.cos (extractStridedSlice S4096x3 ![0, 0] (shapeCast S4096x6 v0 shapeCasts_S4096x6_S4096x6) slices_S4096x6_o0_0_S4096x3 (ix2 p c) * Ideal.ofBits .f32 0x40800000#32) = _
  rw [slice2_axis1_eq, shapeCast_self, word_pow2, encEntry_cos]

theorem tileEnc10_7 (v0 : Vec Ideal S4096x6 .f32) (p : Fin 4096) (c : Fin 3) (h : 3 * 7 + c.val < 63) :
    k0_pay5 (F := Ideal) v0 (ix2 p ⟨3 * 7 + c.val, h⟩) = encEntry (v0 (ix2 p ⟨0 + c.val, by omega⟩)) 3 0 := by
  refine (tileEnc10_piece v0 p ⟨7, by decide⟩ c h).trans ?_
  show Ideal.sin (extractStridedSlice S4096x3 ![0, 0] (shapeCast S4096x6 v0 shapeCasts_S4096x6_S4096x6) slices_S4096x6_o0_0_S4096x3 (ix2 p c) * Ideal.ofBits .f32 0x41000000#32) = _
  rw [slice2_axis1_eq, shapeCast_self, word_pow3, encEntry_sin]

theorem tileEnc10_8 (v0 : Vec Ideal S4096x6 .f32) (p : Fin 4096) (c : Fin 3) (h : 3 * 8 + c.val < 63) :
    k0_pay5 (F := Ideal) v0 (ix2 p ⟨3 * 8 + c.val, h⟩) = encEntry (v0 (ix2 p ⟨0 + c.val, by omega⟩)) 3 1 := by
  refine (tileEnc10_piece v0 p ⟨8, by decide⟩ c h).trans ?_
  show Ideal.cos (extractStridedSlice S4096x3 ![0, 0] (shapeCast S4096x6 v0 shapeCasts_S4096x6_S4096x6) slices_S4096x6_o0_0_S4096x3 (ix2 p c) * Ideal.ofBits .f32 0x41000000#32) = _
  rw [slice2_axis1_eq, shapeCast_self, word_pow3, encEntry_cos]

theorem tileEnc10_9 (v0 : Vec Ideal S4096x6 .f32) (p : Fin 4096) (c : Fin 3) (h : 3 * 9 + c.val < 63) :
    k0_pay5 (F := Ideal) v0 (ix2 p ⟨3 * 9 + c.val, h⟩) = encEntry (v0 (ix2 p ⟨0 + c.val, by omega⟩)) 4 0 := by
  refine (tileEnc10_piece v0 p ⟨9, by decide⟩ c h).trans ?_
  show Ideal.sin (extractStridedSlice S4096x3 ![0, 0] (shapeCast S4096x6 v0 shapeCasts_S4096x6_S4096x6) slices_S4096x6_o0_0_S4096x3 (ix2 p c) * Ideal.ofBits .f32 0x41800000#32) = _
  rw [slice2_axis1_eq, shapeCast_self, word_pow4, encEntry_sin]

theorem tileEnc10_10 (v0 : Vec Ideal S4096x6 .f32) (p : Fin 4096) (c : Fin 3) (h : 3 * 10 + c.val < 63) :
    k0_pay5 (F := Ideal) v0 (ix2 p ⟨3 * 10 + c.val, h⟩) = encEntry (v0 (ix2 p ⟨0 + c.val, by omega⟩)) 4 1 := by
  refine (tileEnc10_piece v0 p ⟨10, by decide⟩ c h).trans ?_
  show Ideal.cos (extractStridedSlice S4096x3 ![0, 0] (shapeCast S4096x6 v0 shapeCasts_S4096x6_S4096x6) slices_S4096x6_o0_0_S4096x3 (ix2 p c) * Ideal.ofBits .f32 0x41800000#32) = _
  rw [slice2_axis1_eq, shapeCast_self, word_pow4, encEntry_cos]

theorem tileEnc10_11 (v0 : Vec Ideal S4096x6 .f32) (p : Fin 4096) (c : Fin 3) (h : 3 * 11 + c.val < 63) :
    k0_pay5 (F := Ideal) v0 (ix2 p ⟨3 * 11 + c.val, h⟩) = encEntry (v0 (ix2 p ⟨0 + c.val, by omega⟩)) 5 0 := by
  refine (tileEnc10_piece v0 p ⟨11, by decide⟩ c h).trans ?_
  show Ideal.sin (extractStridedSlice S4096x3 ![0, 0] (shapeCast S4096x6 v0 shapeCasts_S4096x6_S4096x6) slices_S4096x6_o0_0_S4096x3 (ix2 p c) * Ideal.ofBits .f32 0x42000000#32) = _
  rw [slice2_axis1_eq, shapeCast_self, word_pow5, encEntry_sin]

theorem tileEnc10_12 (v0 : Vec Ideal S4096x6 .f32) (p : Fin 4096) (c : Fin 3) (h : 3 * 12 + c.val < 63) :
    k0_pay5 (F := Ideal) v0 (ix2 p ⟨3 * 12 + c.val, h⟩) = encEntry (v0 (ix2 p ⟨0 + c.val, by omega⟩)) 5 1 := by
  refine (tileEnc10_piece v0 p ⟨12, by decide⟩ c h).trans ?_
  show Ideal.cos (extractStridedSlice S4096x3 ![0, 0] (shapeCast S4096x6 v0 shapeCasts_S4096x6_S4096x6) slices_S4096x6_o0_0_S4096x3 (ix2 p c) * Ideal.ofBits .f32 0x42000000#32) = _
  rw [slice2_axis1_eq, shapeCast_self, word_pow5, encEntry_cos]

theorem tileEnc10_13 (v0 : Vec Ideal S4096x6 .f32) (p : Fin 4096) (c : Fin 3) (h : 3 * 13 + c.val < 63) :
    k0_pay5 (F := Ideal) v0 (ix2 p ⟨3 * 13 + c.val, h⟩) = encEntry (v0 (ix2 p ⟨0 + c.val, by omega⟩)) 6 0 := by
  refine (tileEnc10_piece v0 p ⟨13, by decide⟩ c h).trans ?_
  show Ideal.sin (extractStridedSlice S4096x3 ![0, 0] (shapeCast S4096x6 v0 shapeCasts_S4096x6_S4096x6) slices_S4096x6_o0_0_S4096x3 (ix2 p c) * Ideal.ofBits .f32 0x42800000#32) = _
  rw [slice2_axis1_eq, shapeCast_self, word_pow6, encEntry_sin]

theorem tileEnc10_14 (v0 : Vec Ideal S4096x6 .f32) (p : Fin 4096) (c : Fin 3) (h : 3 * 14 + c.val < 63) :
    k0_pay5 (F := Ideal) v0 (ix2 p ⟨3 * 14 + c.val, h⟩) = encEntry (v0 (ix2 p ⟨0 + c.val, by omega⟩)) 6 1 := by
  refine (tileEnc10_piece v0 p ⟨14, by decide⟩ c h).trans ?_
  show Ideal.cos (extractStridedSlice S4096x3 ![0, 0] (shapeCast S4096x6 v0 shapeCasts_S4096x6_S4096x6) slices_S4096x6_o0_0_S4096x3 (ix2 p c) * Ideal.ofBits .f32 0x42800000#32) = _
  rw [slice2_axis1_eq, shapeCast_self, word_pow6, encEntry_cos]

theorem tileEnc10_15 (v0 : Vec Ideal S4096x6 .f32) (p : Fin 4096) (c : Fin 3) (h : 3 * 15 + c.val < 63) :
    k0_pay5 (F := Ideal) v0 (ix2 p ⟨3 * 15 + c.val, h⟩) = encEntry (v0 (ix2 p ⟨0 + c.val, by omega⟩)) 7 0 := by
  refine (tileEnc10_piece v0 p ⟨15, by decide⟩ c h).trans ?_
  show Ideal.sin (extractStridedSlice S4096x3 ![0, 0] (shapeCast S4096x6 v0 shapeCasts_S4096x6_S4096x6) slices_S4096x6_o0_0_S4096x3 (ix2 p c) * Ideal.ofBits .f32 0x43000000#32) = _
  rw [slice2_axis1_eq, shapeCast_self, word_pow7, encEntry_sin]

theorem tileEnc10_16 (v0 : Vec Ideal S4096x6 .f32) (p : Fin 4096) (c : Fin 3) (h : 3 * 16 + c.val < 63) :
    k0_pay5 (F := Ideal) v0 (ix2 p ⟨3 * 16 + c.val, h⟩) = encEntry (v0 (ix2 p ⟨0 + c.val, by omega⟩)) 7 1 := by
  refine (tileEnc10_piece v0 p ⟨16, by decide⟩ c h).trans ?_
  show Ideal.cos (extractStridedSlice S4096x3 ![0, 0] (shapeCast S4096x6 v0 shapeCasts_S4096x6_S4096x6) slices_S4096x6_o0_0_S4096x3 (ix2 p c) * Ideal.ofBits .f32 0x43000000#32) = _
  rw [slice2_axis1_eq, shapeCast_self, word_pow7, encEntry_cos]

theorem tileEnc10_17 (v0 : Vec Ideal S4096x6 .f32) (p : Fin 4096) (c : Fin 3) (h : 3 * 17 + c.val < 63) :
    k0_pay5 (F := Ideal) v0 (ix2 p ⟨3 * 17 + c.val, h⟩) = encEntry (v0 (ix2 p ⟨0 + c.val, by omega⟩)) 8 0 := by
  refine (tileEnc10_piece v0 p ⟨17, by decide⟩ c h).trans ?_
  show Ideal.sin (extractStridedSlice S4096x3 ![0, 0] (shapeCast S4096x6 v0 shapeCasts_S4096x6_S4096x6) slices_S4096x6_o0_0_S4096x3 (ix2 p c) * Ideal.ofBits .f32 0x43800000#32) = _
  rw [slice2_axis1_eq, shapeCast_self, word_pow8, encEntry_sin]

theorem tileEnc10_18 (v0 : Vec Ideal S4096x6 .f32) (p : Fin 4096) (c : Fin 3) (h : 3 * 18 + c.val < 63) :
    k0_pay5 (F := Ideal) v0 (ix2 p ⟨3 * 18 + c.val, h⟩) = encEntry (v0 (ix2 p ⟨0 + c.val, by omega⟩)) 8 1 := by
  refine (tileEnc10_piece v0 p ⟨18, by decide⟩ c h).trans ?_
  show Ideal.cos (extractStridedSlice S4096x3 ![0, 0] (shapeCast S4096x6 v0 shapeCasts_S4096x6_S4096x6) slices_S4096x6_o0_0_S4096x3 (ix2 p c) * Ideal.ofBits .f32 0x43800000#32) = _
  rw [slice2_axis1_eq, shapeCast_self, word_pow8, encEntry_cos]

theorem tileEnc10_19 (v0 : Vec Ideal S4096x6 .f32) (p : Fin 4096) (c : Fin 3) (h : 3 * 19 + c.val < 63) :
    k0_pay5 (F := Ideal) v0 (ix2 p ⟨3 * 19 + c.val, h⟩) = encEntry (v0 (ix2 p ⟨0 + c.val, by omega⟩)) 9 0 := by
  refine (tileEnc10_piece v0 p ⟨19, by decide⟩ c h).trans ?_
  show Ideal.sin (extractStridedSlice S4096x3 ![0, 0] (shapeCast S4096x6 v0 shapeCasts_S4096x6_S4096x6) slices_S4096x6_o0_0_S4096x3 (ix2 p c) * Ideal.ofBits .f32 0x44000000#32) = _
  rw [slice2_axis1_eq, shapeCast_self, word_pow9, encEntry_sin]

theorem tileEnc10_20 (v0 : Vec Ideal S4096x6 .f32) (p : Fin 4096) (c : Fin 3) (h : 3 * 20 + c.val < 63) :
    k0_pay5 (F := Ideal) v0 (ix2 p ⟨3 * 20 + c.val, h⟩) = encEntry (v0 (ix2 p ⟨0 + c.val, by omega⟩)) 9 1 := by
  refine (tileEnc10_piece v0 p ⟨20, by decide⟩ c h).trans ?_
  show Ideal.cos (extractStridedSlice S4096x3 ![0, 0] (shapeCast S4096x6 v0 shapeCasts_S4096x6_S4096x6) slices_S4096x6_o0_0_S4096x3 (ix2 p c) * Ideal.ofBits .f32 0x44000000#32) = _
  rw [slice2_axis1_eq, shapeCast_self, word_pow9, encEntry_cos]

/-! ## The directions: four frequencies, 27 columns -/

/-- Columns 3, 4, 5 of the input block. -/
abbrev cols3 (v0 : Vec Ideal S4096x6 .f32) : FVec Ideal S4096x3 .f32 :=
  extractStridedSlice S4096x3 ![0, 3] (shapeCast S4096x6 v0 shapeCasts_S4096x6_S4096x6) slices_S4096x6_o0_3_S4096x3

/-- The 9 pieces of the encoded block: the components, then sine and cosine at each frequency. -/
def tileEnc4Pieces (v0 : Vec Ideal S4096x6 .f32) : Fin 9 → FVec Ideal S4096x3 .f32 :=
  ![(cols3 v0),
    sin (mulf (cols3 v0) (broadcast S4096x3 (Scalar.ofBits (F := Ideal) .f32 0x3F800000#32))),
    cos (mulf (cols3 v0) (broadcast S4096x3 (Scalar.ofBits (F := Ideal) .f32 0x3F800000#32))),
    sin (mulf (cols3 v0) (broadcast S4096x3 (Scalar.ofBits (F := Ideal) .f32 0x40000000#32))),
    cos (mulf (cols3 v0) (broadcast S4096x3 (Scalar.ofBits (F := Ideal) .f32 0x40000000#32))),
    sin (mulf (cols3 v0) (broadcast S4096x3 (Scalar.ofBits (F := Ideal) .f32 0x40800000#32))),
    cos (mulf (cols3 v0) (broadcast S4096x3 (Scalar.ofBits (F := Ideal) .f32 0x40800000#32))),
    sin (mulf (cols3 v0) (broadcast S4096x3 (Scalar.ofBits (F := Ideal) .f32 0x41000000#32))),
    cos (mulf (cols3 v0) (broadcast S4096x3 (Scalar.ofBits (F := Ideal) .f32 0x41000000#32)))]

/-- The encoded block is the join of those pieces. -/
theorem tileEnc4_join (v0 : Vec Ideal S4096x6 .f32) :
    k0_pay7 (F := Ideal) (k0_pay4 v0) k0_pay6 = concatenate S4096x27 (1 : Fin 2)
      (List.ofFn fun n : Fin 9 => (⟨S4096x3, tileEnc4Pieces v0 n⟩ : (s : Shape) × (s.Idx → Elt Ideal .f32)))
      concatenates_S4096x3_S4096x3_S4096x3_S4096x3_S4096x3_S4096x3_S4096x3_S4096x3_S4096x3_S4096x27_d1 := rfl

/-- Column `3 n + c` of the encoded block is piece `n` at component `c`. -/
theorem tileEnc4_piece (v0 : Vec Ideal S4096x6 .f32) (p : Fin 4096) (n : Fin 9) (c : Fin 3) (h : 3 * n.val + c.val < 27) :
    k0_pay7 (F := Ideal) (k0_pay4 v0) k0_pay6 (ix2 p ⟨3 * n.val + c.val, h⟩) = tileEnc4Pieces v0 n (ix2 p c) := by
  have hc := c.isLt
  rw [tileEnc4_join]
  exact concatenate_ofFn_apply (t := S4096x27) (1 : Fin 2) (tileEnc4Pieces v0) _ rfl 3 rfl (ix2 p ⟨3 * n.val + c.val, h⟩) n
    (by show (3 * n.val + c.val) / 3 = n.val; omega) (ix2 p c)
    (by show c.val = (3 * n.val + c.val) % 3; omega)
    (fun b hb => match b, hb with
      | ⟨0, _⟩, _ => rfl
      | ⟨1, _⟩, hb => absurd rfl hb)

theorem tileEnc4_0 (v0 : Vec Ideal S4096x6 .f32) (p : Fin 4096) (c : Fin 3) (h : 3 * 0 + c.val < 27) :
    k0_pay7 (F := Ideal) (k0_pay4 v0) k0_pay6 (ix2 p ⟨3 * 0 + c.val, h⟩) = v0 (ix2 p ⟨3 + c.val, by omega⟩) := by
  refine (tileEnc4_piece v0 p ⟨0, by decide⟩ c h).trans ?_
  show extractStridedSlice S4096x3 ![0, 3] (shapeCast S4096x6 v0 shapeCasts_S4096x6_S4096x6) slices_S4096x6_o0_3_S4096x3 (ix2 p c) = _
  rw [slice2_axis1_eq, shapeCast_self]

theorem tileEnc4_1 (v0 : Vec Ideal S4096x6 .f32) (p : Fin 4096) (c : Fin 3) (h : 3 * 1 + c.val < 27) :
    k0_pay7 (F := Ideal) (k0_pay4 v0) k0_pay6 (ix2 p ⟨3 * 1 + c.val, h⟩) = encEntry (v0 (ix2 p ⟨3 + c.val, by omega⟩)) 0 0 := by
  refine (tileEnc4_piece v0 p ⟨1, by decide⟩ c h).trans ?_
  show Ideal.sin (extractStridedSlice S4096x3 ![0, 3] (shapeCast S4096x6 v0 shapeCasts_S4096x6_S4096x6) slices_S4096x6_o0_3_S4096x3 (ix2 p c) * Ideal.ofBits .f32 0x3F800000#32) = _
  rw [slice2_axis1_eq, shapeCast_self, word_pow0, encEntry_sin]

theorem tileEnc4_2 (v0 : Vec Ideal S4096x6 .f32) (p : Fin 4096) (c : Fin 3) (h : 3 * 2 + c.val < 27) :
    k0_pay7 (F := Ideal) (k0_pay4 v0) k0_pay6 (ix2 p ⟨3 * 2 + c.val, h⟩) = encEntry (v0 (ix2 p ⟨3 + c.val, by omega⟩)) 0 1 := by
  refine (tileEnc4_piece v0 p ⟨2, by decide⟩ c h).trans ?_
  show Ideal.cos (extractStridedSlice S4096x3 ![0, 3] (shapeCast S4096x6 v0 shapeCasts_S4096x6_S4096x6) slices_S4096x6_o0_3_S4096x3 (ix2 p c) * Ideal.ofBits .f32 0x3F800000#32) = _
  rw [slice2_axis1_eq, shapeCast_self, word_pow0, encEntry_cos]

theorem tileEnc4_3 (v0 : Vec Ideal S4096x6 .f32) (p : Fin 4096) (c : Fin 3) (h : 3 * 3 + c.val < 27) :
    k0_pay7 (F := Ideal) (k0_pay4 v0) k0_pay6 (ix2 p ⟨3 * 3 + c.val, h⟩) = encEntry (v0 (ix2 p ⟨3 + c.val, by omega⟩)) 1 0 := by
  refine (tileEnc4_piece v0 p ⟨3, by decide⟩ c h).trans ?_
  show Ideal.sin (extractStridedSlice S4096x3 ![0, 3] (shapeCast S4096x6 v0 shapeCasts_S4096x6_S4096x6) slices_S4096x6_o0_3_S4096x3 (ix2 p c) * Ideal.ofBits .f32 0x40000000#32) = _
  rw [slice2_axis1_eq, shapeCast_self, word_pow1, encEntry_sin]

theorem tileEnc4_4 (v0 : Vec Ideal S4096x6 .f32) (p : Fin 4096) (c : Fin 3) (h : 3 * 4 + c.val < 27) :
    k0_pay7 (F := Ideal) (k0_pay4 v0) k0_pay6 (ix2 p ⟨3 * 4 + c.val, h⟩) = encEntry (v0 (ix2 p ⟨3 + c.val, by omega⟩)) 1 1 := by
  refine (tileEnc4_piece v0 p ⟨4, by decide⟩ c h).trans ?_
  show Ideal.cos (extractStridedSlice S4096x3 ![0, 3] (shapeCast S4096x6 v0 shapeCasts_S4096x6_S4096x6) slices_S4096x6_o0_3_S4096x3 (ix2 p c) * Ideal.ofBits .f32 0x40000000#32) = _
  rw [slice2_axis1_eq, shapeCast_self, word_pow1, encEntry_cos]

theorem tileEnc4_5 (v0 : Vec Ideal S4096x6 .f32) (p : Fin 4096) (c : Fin 3) (h : 3 * 5 + c.val < 27) :
    k0_pay7 (F := Ideal) (k0_pay4 v0) k0_pay6 (ix2 p ⟨3 * 5 + c.val, h⟩) = encEntry (v0 (ix2 p ⟨3 + c.val, by omega⟩)) 2 0 := by
  refine (tileEnc4_piece v0 p ⟨5, by decide⟩ c h).trans ?_
  show Ideal.sin (extractStridedSlice S4096x3 ![0, 3] (shapeCast S4096x6 v0 shapeCasts_S4096x6_S4096x6) slices_S4096x6_o0_3_S4096x3 (ix2 p c) * Ideal.ofBits .f32 0x40800000#32) = _
  rw [slice2_axis1_eq, shapeCast_self, word_pow2, encEntry_sin]

theorem tileEnc4_6 (v0 : Vec Ideal S4096x6 .f32) (p : Fin 4096) (c : Fin 3) (h : 3 * 6 + c.val < 27) :
    k0_pay7 (F := Ideal) (k0_pay4 v0) k0_pay6 (ix2 p ⟨3 * 6 + c.val, h⟩) = encEntry (v0 (ix2 p ⟨3 + c.val, by omega⟩)) 2 1 := by
  refine (tileEnc4_piece v0 p ⟨6, by decide⟩ c h).trans ?_
  show Ideal.cos (extractStridedSlice S4096x3 ![0, 3] (shapeCast S4096x6 v0 shapeCasts_S4096x6_S4096x6) slices_S4096x6_o0_3_S4096x3 (ix2 p c) * Ideal.ofBits .f32 0x40800000#32) = _
  rw [slice2_axis1_eq, shapeCast_self, word_pow2, encEntry_cos]

theorem tileEnc4_7 (v0 : Vec Ideal S4096x6 .f32) (p : Fin 4096) (c : Fin 3) (h : 3 * 7 + c.val < 27) :
    k0_pay7 (F := Ideal) (k0_pay4 v0) k0_pay6 (ix2 p ⟨3 * 7 + c.val, h⟩) = encEntry (v0 (ix2 p ⟨3 + c.val, by omega⟩)) 3 0 := by
  refine (tileEnc4_piece v0 p ⟨7, by decide⟩ c h).trans ?_
  show Ideal.sin (extractStridedSlice S4096x3 ![0, 3] (shapeCast S4096x6 v0 shapeCasts_S4096x6_S4096x6) slices_S4096x6_o0_3_S4096x3 (ix2 p c) * Ideal.ofBits .f32 0x41000000#32) = _
  rw [slice2_axis1_eq, shapeCast_self, word_pow3, encEntry_sin]

theorem tileEnc4_8 (v0 : Vec Ideal S4096x6 .f32) (p : Fin 4096) (c : Fin 3) (h : 3 * 8 + c.val < 27) :
    k0_pay7 (F := Ideal) (k0_pay4 v0) k0_pay6 (ix2 p ⟨3 * 8 + c.val, h⟩) = encEntry (v0 (ix2 p ⟨3 + c.val, by omega⟩)) 3 1 := by
  refine (tileEnc4_piece v0 p ⟨8, by decide⟩ c h).trans ?_
  show Ideal.cos (extractStridedSlice S4096x3 ![0, 3] (shapeCast S4096x6 v0 shapeCasts_S4096x6_S4096x6) slices_S4096x6_o0_3_S4096x3 (ix2 p c) * Ideal.ofBits .f32 0x41000000#32) = _
  rw [slice2_axis1_eq, shapeCast_self, word_pow3, encEntry_cos]

end Cert.Nerf

end
-- ==== Proof.RefEncoding.lean ====
/-
  The reference's positional encoding read at an entry.

  The host repeats the argument over the frequencies, multiplies by the frequency vector 2 ^ (0, 1, …) repeated over
  rows and components, takes sines and cosines, stacks the two along a new axis, flattens frequency × function ×
  component into one axis of 6 F columns and puts the argument's own three columns in front. Column 3 + 6 f + 3 s + c
  therefore holds the sine (s = 0) or cosine (s = 1) of component c times 2 ^ f, and columns 0, 1, 2 the argument.
-/
import proofs.«118394_j18519898980813_2_alg».proof.Proof.Gen.ReferenceIdeal.Read
import proofs.«118394_j18519898980813_2_alg».proof.Proof.Freqs
import Idealize.ShloMosaic.Lib.Pipeline.Value
import Idealize.ShloMosaic.Lib.ValueIdx

noncomputable section

namespace Cert.Nerf

open Idealize.ShloMosaic Idealize.ShloMosaic.ValueIdx Cert.ReferenceIdeal Cert.ReferenceIdeal.Read

/-- The first three columns of the encoded array are the argument's. -/
theorem refEnc10_id (x0 : (⟨S262144x3, .f32⟩ : BufTy).Contents (Elt Ideal)) (R : Fin 262144) (c : Fin 3) (h : 3 * 0 + c.val < 63) :
    val_main_v17 (F := Ideal) x0 (ix2 R ⟨3 * 0 + c.val, h⟩) = x0 (ix2 R c) := by
  unfold val_main_v17
  exact concatenate_pair_apply_left (1 : Fin 2) x0 (val_main_v16 (F := Ideal) x0) _ (ix2 R ⟨3 * 0 + c.val, h⟩) rfl (ix2 R c)
    (fun b => match b with
      | ⟨0, _⟩ => rfl
      | ⟨1, _⟩ => by show c.val = 3 * 0 + c.val; omega)

/-- Column `3 (1 + 2 f + s) + c` of the encoded array is the sine (`s = 0`) or cosine (`s = 1`) of component `c` times 2 to the `f`:
    the reshape sends that column to frequency `f`, function `s`, component `c`. -/
theorem refEnc10 (x0 : (⟨S262144x3, .f32⟩ : BufTy).Contents (Elt Ideal)) (R : Fin 262144) (j f : ℕ) (s : Fin 2)
    (hj : j = 1 + 2 * f + s.val) (hf : f < 10) (c : Fin 3) (h : 3 * j + c.val < 63) :
    val_main_v17 (F := Ideal) x0 (ix2 R ⟨3 * j + c.val, h⟩) = encEntry (x0 (ix2 R c)) f s := by
  subst hj
  have hs := s.isLt
  have hc := c.isLt
  have hq : 6 * f + 3 * s.val + c.val < 60 := by omega
  unfold val_main_v17
  refine (concatenate_pair_apply_right (1 : Fin 2) x0 (val_main_v16 (F := Ideal) x0) _
    (ix2 R ⟨3 * (1 + 2 * f + s.val) + c.val, h⟩) rfl rfl (ix2 R ⟨6 * f + 3 * s.val + c.val, hq⟩)
    (fun b hb => match b, hb with
      | ⟨0, _⟩, _ => rfl
      | ⟨1, _⟩, hb => absurd rfl hb)
    (by show 6 * f + 3 * s.val + c.val + 3 = 3 * (1 + 2 * f + s.val) + c.val; omega)).trans ?_
  rw [val_main_v16_apply]
  have hidx : idx_main_v16 (ix2 R ⟨6 * f + 3 * s.val + c.val, hq⟩) = ix4 R (⟨f, hf⟩ : Fin 10) s c := by
    funext a; apply Fin.ext
    match a with
    | ⟨0, _⟩ => show (R.val * 60 + (6 * f + 3 * s.val + c.val)) / 60 = R.val; omega
    | ⟨1, _⟩ => show (R.val * 60 + (6 * f + 3 * s.val + c.val)) / 6 % 10 = f; omega
    | ⟨2, _⟩ => show (R.val * 60 + (6 * f + 3 * s.val + c.val)) / 3 % 2 = s.val; omega
    | ⟨3, _⟩ => show (R.val * 60 + (6 * f + 3 * s.val + c.val)) % 3 = c.val; omega
  rw [hidx]
  unfold val_main_v15
  have e1 : idx_main_v5 (idx_main_v8 (idx_main_v13 (ix4 R (⟨f, hf⟩ : Fin 10) (0 : Fin 1) c))) = ix2 R c :=
    funext fun a => match a with
      | ⟨0, _⟩ => rfl
      | ⟨1, _⟩ => rfl
  have e2 : idx_main_v5 (idx_main_v8 (idx_main_v14 (ix4 R (⟨f, hf⟩ : Fin 10) (0 : Fin 1) c))) = ix2 R c :=
    funext fun a => match a with
      | ⟨0, _⟩ => rfl
      | ⟨1, _⟩ => rfl
  match s, hs with
  | ⟨0, _⟩, _ =>
    refine (concatenate_pair_apply_left (2 : Fin 4) (val_main_v13 (F := Ideal) x0) (val_main_v14 (F := Ideal) x0) _
      (ix4 R (⟨f, hf⟩ : Fin 10) (0 : Fin 2) c) rfl (ix4 R (⟨f, hf⟩ : Fin 10) (0 : Fin 1) c)
      (fun b => match b with
        | ⟨0, _⟩ => rfl
        | ⟨1, _⟩ => rfl
        | ⟨2, _⟩ => rfl
        | ⟨3, _⟩ => rfl)).trans ?_
    rw [val_main_v13_apply, val_main_v11_apply, val_main_v10_apply, val_main_v8_apply, val_main_v5_apply, val_main_v9_apply, val_main_v7_apply, val_main_v6_apply, val_main_v4_apply, val_main_v3_apply,
      val_main_cst_apply, val_main_v2_apply, val_main_v0_apply, e1]
    refine Eq.trans ?_ (encEntry_sin _ f).symm
    rw [← pow_two_word f (by omega)]
    rfl
  | ⟨1, _⟩, _ =>
    refine (concatenate_pair_apply_right (2 : Fin 4) (val_main_v13 (F := Ideal) x0) (val_main_v14 (F := Ideal) x0) _
      (ix4 R (⟨f, hf⟩ : Fin 10) (1 : Fin 2) c) rfl rfl (ix4 R (⟨f, hf⟩ : Fin 10) (0 : Fin 1) c)
      (fun b hb => match b, hb with
        | ⟨0, _⟩, _ => rfl
        | ⟨1, _⟩, _ => rfl
        | ⟨2, _⟩, hb => absurd rfl hb
        | ⟨3, _⟩, _ => rfl) rfl).trans ?_
    rw [val_main_v14_apply, val_main_v12_apply, val_main_v10_apply, val_main_v8_apply, val_main_v5_apply, val_main_v9_apply, val_main_v7_apply, val_main_v6_apply, val_main_v4_apply, val_main_v3_apply,
      val_main_cst_apply, val_main_v2_apply, val_main_v0_apply, e2]
    refine Eq.trans ?_ (encEntry_cos _ f).symm
    rw [← pow_two_word f (by omega)]
    rfl

/-- The first three columns of the encoded array are the argument's. -/
theorem refEnc4_id (x1 : (⟨S262144x3, .f32⟩ : BufTy).Contents (Elt Ideal)) (R : Fin 262144) (c : Fin 3) (h : 3 * 0 + c.val < 27) :
    val_main_v35 (F := Ideal) x1 (ix2 R ⟨3 * 0 + c.val, h⟩) = x1 (ix2 R c) := by
  unfold val_main_v35
  exact concatenate_pair_apply_left (1 : Fin 2) x1 (val_main_v34 (F := Ideal) x1) _ (ix2 R ⟨3 * 0 + c.val, h⟩) rfl (ix2 R c)
    (fun b => match b with
      | ⟨0, _⟩ => rfl
      | ⟨1, _⟩ => by show c.val = 3 * 0 + c.val; omega)

/-- Column `3 (1 + 2 f + s) + c` of the encoded array is the sine (`s = 0`) or cosine (`s = 1`) of component `c` times 2 to the `f`:
    the reshape sends that column to frequency `f`, function `s`, component `c`. -/
theorem refEnc4 (x1 : (⟨S262144x3, .f32⟩ : BufTy).Contents (Elt Ideal)) (R : Fin 262144) (j f : ℕ) (s : Fin 2)
    (hj : j = 1 + 2 * f + s.val) (hf : f < 4) (c : Fin 3) (h : 3 * j + c.val < 27) :
    val_main_v35 (F := Ideal) x1 (ix2 R ⟨3 * j + c.val, h⟩) = encEntry (x1 (ix2 R c)) f s := by
  subst hj
  have hs := s.isLt
  have hc := c.isLt
  have hq : 6 * f + 3 * s.val + c.val < 24 := by omega
  unfold val_main_v35
  refine (concatenate_pair_apply_right (1 : Fin 2) x1 (val_main_v34 (F := Ideal) x1) _
    (ix2 R ⟨3 * (1 + 2 * f + s.val) + c.val, h⟩) rfl rfl (ix2 R ⟨6 * f + 3 * s.val + c.val, hq⟩)
    (fun b hb => match b, hb with
      | ⟨0, _⟩, _ => rfl
      | ⟨1, _⟩, hb => absurd rfl hb)
    (by show 6 * f + 3 * s.val + c.val + 3 = 3 * (1 + 2 * f + s.val) + c.val; omega)).trans ?_
  rw [val_main_v34_apply]
  have hidx : idx_main_v34 (ix2 R ⟨6 * f + 3 * s.val + c.val, hq⟩) = ix4 R (⟨f, hf⟩ : Fin 4) s c := by
    funext a; apply Fin.ext
    match a with
    | ⟨0, _⟩ => show (R.val * 24 + (6 * f + 3 * s.val + c.val)) / 24 = R.val; omega
    | ⟨1, _⟩ => show (R.val * 24 + (6 * f + 3 * s.val + c.val)) / 6 % 4 = f; omega
    | ⟨2, _⟩ => show (R.val * 24 + (6 * f + 3 * s.val + c.val)) / 3 % 2 = s.val; omega
    | ⟨3, _⟩ => show (R.val * 24 + (6 * f + 3 * s.val + c.val)) % 3 = c.val; omega
  rw [hidx]
  unfold val_main_v33
  have e1 : idx_main_v23 (idx_main_v26 (idx_main_v31 (ix4 R (⟨f, hf⟩ : Fin 4) (0 : Fin 1) c))) = ix2 R c :=
    funext fun a => match a with
      | ⟨0, _⟩ => rfl
      | ⟨1, _⟩ => rfl
  have e2 : idx_main_v23 (idx_main_v26 (idx_main_v32 (ix4 R (⟨f, hf⟩ : Fin 4) (0 : Fin 1) c))) = ix2 R c :=
    funext fun a => match a with
      | ⟨0, _⟩ => rfl
      | ⟨1, _⟩ => rfl
  match s, hs with
  | ⟨0, _⟩, _ =>
    refine (concatenate_pair_apply_left (2 : Fin 4) (val_main_v31 (F := Ideal) x1) (val_main_v32 (F := Ideal) x1) _
      (ix4 R (⟨f, hf⟩ : Fin 4) (0 : Fin 2) c) rfl (ix4 R (⟨f, hf⟩ : Fin 4) (0 : Fin 1) c)
      (fun b => match b with
        | ⟨0, _⟩ => rfl
        | ⟨1, _⟩ => rfl
        | ⟨2, _⟩ => rfl
        | ⟨3, _⟩ => rfl)).trans ?_
    rw [val_main_v31_apply, val_main_v29_apply, val_main_v28_apply, val_main_v26_apply, val_main_v23_apply, val_main_v27_apply, val_main_v25_apply, val_main_v24_apply, val_main_v22_apply, val_main_v21_apply,
      val_main_cst_0_apply, val_main_v20_apply, val_main_v18_apply, e1]
    refine Eq.trans ?_ (encEntry_sin _ f).symm
    rw [← pow_two_word f (by omega)]
    rfl
  | ⟨1, _⟩, _ =>
    refine (concatenate_pair_apply_right (2 : Fin 4) (val_main_v31 (F := Ideal) x1) (val_main_v32 (F := Ideal) x1) _
      (ix4 R (⟨f, hf⟩ : Fin 4) (1 : Fin 2) c) rfl rfl (ix4 R (⟨f, hf⟩ : Fin 4) (0 : Fin 1) c)
      (fun b hb => match b, hb with
        | ⟨0, _⟩, _ => rfl
        | ⟨1, _⟩, _ => rfl
        | ⟨2, _⟩, hb => absurd rfl hb
        | ⟨3, _⟩, _ => rfl) rfl).trans ?_
    rw [val_main_v32_apply, val_main_v30_apply, val_main_v28_apply, val_main_v26_apply, val_main_v23_apply, val_main_v27_apply, val_main_v25_apply, val_main_v24_apply, val_main_v22_apply, val_main_v21_apply,
      val_main_cst_0_apply, val_main_v20_apply, val_main_v18_apply, e2]
    refine Eq.trans ?_ (encEntry_cos _ f).symm
    rw [← pow_two_word f (by omega)]
    rfl

end Cert.Nerf

end
-- ==== Proof.Bridge.lean ====
/-
  The network evaluated on a tile is the network evaluated on all rows.

  Take a tile whose input block's row p holds the point and direction of global row R, and whose weight blocks are the
  transposed weight matrices (the two joined layers' blocks the first and the last rows of theirs). Then row p of every
  array the tile computes is row R of the corresponding array of the host program: first the two encodings, piece by
  piece; then the eight hidden layers, the density head, the remapping layer, the colour layers and the logistic
  function, each by its row-by-row lemma. The three results follow: the colours, the density (the host's
  x + max (x, 0) * 0 being x) and the encoded directions.
-/
import proofs.«118394_j18519898980813_2_alg».proof.Proof.LibRowLayers
import proofs.«118394_j18519898980813_2_alg».proof.Proof.TileEncoding
import proofs.«118394_j18519898980813_2_alg».proof.Proof.RefEncoding

set_option maxHeartbeats 1600000

noncomputable section

namespace Cert.Nerf

open Idealize.ShloMosaic Idealize.ShloMosaic.ValueIdx Cert.Lib Cert.KernelIdeal.Gen Cert.ReferenceIdeal.Read

/-- A weight block that holds the transposed matrix (read through a map `e` of its rows into the matrix's columns) is, after
    the kernel's identity shape cast, the host's transposed matrix at those rows. -/
theorem weight_at {K K' B : ℕ} (Bt : (⟨2, ![K, B]⟩ : Shape).Idx → EReal) (W : (⟨2, ![B, K']⟩ : Shape).Idx → EReal)
    (hc : (⟨2, ![K, B]⟩ : Shape).ShapeCasts ⟨2, ![K, B]⟩) (ht : (⟨2, ![B, K']⟩ : Shape).Transposes [1, 0] ⟨2, ![K', B]⟩)
    (e : Fin K → Fin K') (hB : ∀ (k : Fin K) (q : Fin B), Bt (ix2 k q) = W (ix2 q (e k))) (k : Fin K) (q : Fin B) :
    shapeCast ⟨2, ![K, B]⟩ Bt hc (ix2 k q) = transpose ⟨2, ![K', B]⟩ [1, 0] W ht (ix2 (e k) q) := by
  rw [shapeCast_self, hB, transposed_apply]

theorem weight_apply {K B : ℕ} (Bt : (⟨2, ![K, B]⟩ : Shape).Idx → EReal) (W : (⟨2, ![B, K]⟩ : Shape).Idx → EReal)
    (hc : (⟨2, ![K, B]⟩ : Shape).ShapeCasts ⟨2, ![K, B]⟩) (ht : (⟨2, ![B, K]⟩ : Shape).Transposes [1, 0] ⟨2, ![K, B]⟩)
    (hB : ∀ (k : Fin K) (q : Fin B), Bt (ix2 k q) = W (ix2 q k)) (k : Fin K) (q : Fin B) :
    shapeCast ⟨2, ![K, B]⟩ Bt hc (ix2 k q) = transpose ⟨2, ![K, B]⟩ [1, 0] W ht (ix2 k q) :=
  weight_at Bt W hc ht id hB k q

/-- Every column index below `3 n` is `3 j + c` with `c < 3`. -/
theorem col_split (n : ℕ) (k : Fin n) : ∃ (j : ℕ) (c : Fin 3) (hj : 3 * j + c.val < n), k = ⟨3 * j + c.val, hj⟩ :=
  ⟨k.val / 3, ⟨k.val % 3, Nat.mod_lt _ (by norm_num)⟩, by have := k.isLt; show 3 * (k.val / 3) + k.val % 3 < n; omega,
    Fin.ext (by show k.val = 3 * (k.val / 3) + k.val % 3; omega)⟩

/-- The encoded points of the tile's row are the encoded points of the host's row. -/
theorem encPoints_rowEq (B0 : Vec Ideal Cert.KernelIdeal.S4096x6 .f32) (a0 : (⟨Cert.ReferenceIdeal.S262144x3, .f32⟩ : BufTy).Contents (Elt Ideal)) (p : Fin 4096) (R : Fin 262144)
    (h0 : ∀ c : Fin 3, B0 (ix2 p ⟨0 + c.val, by omega⟩) = a0 (ix2 R c)) :
    RowEq (k0_pay5 (F := Ideal) B0) p (val_main_v17 (F := Ideal) a0) R := by
  intro k
  obtain ⟨j, c, hj, rfl⟩ := col_split 63 k
  have hj21 : j < 21 := by omega
  interval_cases j
  · exact (tileEnc10_0 B0 p c hj).trans ((h0 c).trans (refEnc10_id a0 R c hj).symm)
  · exact (tileEnc10_1 B0 p c hj).trans ((congrArg (encEntry · 0 0) (h0 c)).trans (refEnc10 a0 R 1 0 0 rfl (by norm_num) c hj).symm)
  · exact (tileEnc10_2 B0 p c hj).trans ((congrArg (encEntry · 0 1) (h0 c)).trans (refEnc10 a0 R 2 0 1 rfl (by norm_num) c hj).symm)
  · exact (tileEnc10_3 B0 p c hj).trans ((congrArg (encEntry · 1 0) (h0 c)).trans (refEnc10 a0 R 3 1 0 rfl (by norm_num) c hj).symm)
  · exact (tileEnc10_4 B0 p c hj).trans ((congrArg (encEntry · 1 1) (h0 c)).trans (refEnc10 a0 R 4 1 1 rfl (by norm_num) c hj).symm)
  · exact (tileEnc10_5 B0 p c hj).trans ((congrArg (encEntry · 2 0) (h0 c)).trans (refEnc10 a0 R 5 2 0 rfl (by norm_num) c hj).symm)
  · exact (tileEnc10_6 B0 p c hj).trans ((congrArg (encEntry · 2 1) (h0 c)).trans (refEnc10 a0 R 6 2 1 rfl (by norm_num) c hj).symm)
  · exact (tileEnc10_7 B0 p c hj).trans ((congrArg (encEntry · 3 0) (h0 c)).trans (refEnc10 a0 R 7 3 0 rfl (by norm_num) c hj).symm)
  · exact (tileEnc10_8 B0 p c hj).trans ((congrArg (encEntry · 3 1) (h0 c)).trans (refEnc10 a0 R 8 3 1 rfl (by norm_num) c hj).symm)
  · exact (tileEnc10_9 B0 p c hj).trans ((congrArg (encEntry · 4 0) (h0 c)).trans (refEnc10 a0 R 9 4 0 rfl (by norm_num) c hj).symm)
  · exact (tileEnc10_10 B0 p c hj).trans ((congrArg (encEntry · 4 1) (h0 c)).trans (refEnc10 a0 R 10 4 1 rfl (by norm_num) c hj).symm)
  · exact (tileEnc10_11 B0 p c hj).trans ((congrArg (encEntry · 5 0) (h0 c)).trans (refEnc10 a0 R 11 5 0 rfl (by norm_num) c hj).symm)
  · exact (tileEnc10_12 B0 p c hj).trans ((congrArg (encEntry · 5 1) (h0 c)).trans (refEnc10 a0 R 12 5 1 rfl (by norm_num) c hj).symm)
  · exact (tileEnc10_13 B0 p c hj).trans ((congrArg (encEntry · 6 0) (h0 c)).trans (refEnc10 a0 R 13 6 0 rfl (by norm_num) c hj).symm)
  · exact (tileEnc10_14 B0 p c hj).trans ((congrArg (encEntry · 6 1) (h0 c)).trans (refEnc10 a0 R 14 6 1 rfl (by norm_num) c hj).symm)
  · exact (tileEnc10_15 B0 p c hj).trans ((congrArg (encEntry · 7 0) (h0 c)).trans (refEnc10 a0 R 15 7 0 rfl (by norm_num) c hj).symm)
  · exact (tileEnc10_16 B0 p c hj).trans ((congrArg (encEntry · 7 1) (h0 c)).trans (refEnc10 a0 R 16 7 1 rfl (by norm_num) c hj).symm)
  · exact (tileEnc10_17 B0 p c hj).trans ((congrArg (encEntry · 8 0) (h0 c)).trans (refEnc10 a0 R 17 8 0 rfl (by norm_num) c hj).symm)
  · exact (tileEnc10_18 B0 p c hj).trans ((congrArg (encEntry · 8 1) (h0 c)).trans (refEnc10 a0 R 18 8 1 rfl (by norm_num) c hj).symm)
  · exact (tileEnc10_19 B0 p c hj).trans ((congrArg (encEntry · 9 0) (h0 c)).trans (refEnc10 a0 R 19 9 0 rfl (by norm_num) c hj).symm)
  · exact (tileEnc10_20 B0 p c hj).trans ((congrArg (encEntry · 9 1) (h0 c)).trans (refEnc10 a0 R 20 9 1 rfl (by norm_num) c hj).symm)

/-- The encoded directions likewise. -/
theorem encDirs_rowEq (B0 : Vec Ideal Cert.KernelIdeal.S4096x6 .f32) (a1 : (⟨Cert.ReferenceIdeal.S262144x3, .f32⟩ : BufTy).Contents (Elt Ideal)) (p : Fin 4096) (R : Fin 262144)
    (h1 : ∀ c : Fin 3, B0 (ix2 p ⟨3 + c.val, by omega⟩) = a1 (ix2 R c)) :
    RowEq (k0_pay7 (F := Ideal) (k0_pay4 B0) k0_pay6) p (val_main_v35 (F := Ideal) a1) R := by
  intro k
  obtain ⟨j, c, hj, rfl⟩ := col_split 27 k
  have hj9 : j < 9 := by omega
  interval_cases j
  · exact (tileEnc4_0 B0 p c hj).trans ((h1 c).trans (refEnc4_id a1 R c hj).symm)
  · exact (tileEnc4_1 B0 p c hj).trans ((congrArg (encEntry · 0 0) (h1 c)).trans (refEnc4 a1 R 1 0 0 rfl (by norm_num) c hj).symm)
  · exact (tileEnc4_2 B0 p c hj).trans ((congrArg (encEntry · 0 1) (h1 c)).trans (refEnc4 a1 R 2 0 1 rfl (by norm_num) c hj).symm)
  · exact (tileEnc4_3 B0 p c hj).trans ((congrArg (encEntry · 1 0) (h1 c)).trans (refEnc4 a1 R 3 1 0 rfl (by norm_num) c hj).symm)
  · exact (tileEnc4_4 B0 p c hj).trans ((congrArg (encEntry · 1 1) (h1 c)).trans (refEnc4 a1 R 4 1 1 rfl (by norm_num) c hj).symm)
  · exact (tileEnc4_5 B0 p c hj).trans ((congrArg (encEntry · 2 0) (h1 c)).trans (refEnc4 a1 R 5 2 0 rfl (by norm_num) c hj).symm)
  · exact (tileEnc4_6 B0 p c hj).trans ((congrArg (encEntry · 2 1) (h1 c)).trans (refEnc4 a1 R 6 2 1 rfl (by norm_num) c hj).symm)
  · exact (tileEnc4_7 B0 p c hj).trans ((congrArg (encEntry · 3 0) (h1 c)).trans (refEnc4 a1 R 7 3 0 rfl (by norm_num) c hj).symm)
  · exact (tileEnc4_8 B0 p c hj).trans ((congrArg (encEntry · 3 1) (h1 c)).trans (refEnc4 a1 R 8 3 1 rfl (by norm_num) c hj).symm)

section Network

/-- The eighth hidden layer's output. -/
theorem hidden_rowEq (a0 : (⟨Cert.ReferenceIdeal.S262144x3, .f32⟩ : BufTy).Contents (Elt Ideal)) (a1 : (⟨Cert.ReferenceIdeal.S262144x3, .f32⟩ : BufTy).Contents (Elt Ideal)) (a2 : (⟨Cert.ReferenceIdeal.S256x63, .f32⟩ : BufTy).Contents (Elt Ideal)) (a3 : (⟨Cert.ReferenceIdeal.S256, .f32⟩ : BufTy).Contents (Elt Ideal)) (a4 : (⟨Cert.ReferenceIdeal.S256x256, .f32⟩ : BufTy).Contents (Elt Ideal)) (a5 : (⟨Cert.ReferenceIdeal.S256, .f32⟩ : BufTy).Contents (Elt Ideal)) (a6 : (⟨Cert.ReferenceIdeal.S256x256, .f32⟩ : BufTy).Contents (Elt Ideal)) (a7 : (⟨Cert.ReferenceIdeal.S256, .f32⟩ : BufTy).Contents (Elt Ideal)) (a8 : (⟨Cert.ReferenceIdeal.S256x256, .f32⟩ : BufTy).Contents (Elt Ideal)) (a9 : (⟨Cert.ReferenceIdeal.S256, .f32⟩ : BufTy).Contents (Elt Ideal)) (a10 : (⟨Cert.ReferenceIdeal.S256x256, .f32⟩ : BufTy).Contents (Elt Ideal)) (a11 : (⟨Cert.ReferenceIdeal.S256, .f32⟩ : BufTy).Contents (Elt Ideal)) (a12 : (⟨Cert.ReferenceIdeal.S256x319, .f32⟩ : BufTy).Contents (Elt Ideal)) (a13 : (⟨Cert.ReferenceIdeal.S256, .f32⟩ : BufTy).Contents (Elt Ideal)) (a14 : (⟨Cert.ReferenceIdeal.S256x256, .f32⟩ : BufTy).Contents (Elt Ideal)) (a15 : (⟨Cert.ReferenceIdeal.S256, .f32⟩ : BufTy).Contents (Elt Ideal)) (a16 : (⟨Cert.ReferenceIdeal.S256x256, .f32⟩ : BufTy).Contents (Elt Ideal)) (a17 : (⟨Cert.ReferenceIdeal.S256, .f32⟩ : BufTy).Contents (Elt Ideal)) (a18 : (⟨Cert.ReferenceIdeal.S1x256, .f32⟩ : BufTy).Contents (Elt Ideal)) (a19 : (⟨Cert.ReferenceIdeal.S1, .f32⟩ : BufTy).Contents (Elt Ideal)) (a20 : (⟨Cert.ReferenceIdeal.S256x256, .f32⟩ : BufTy).Contents (Elt Ideal)) (a21 : (⟨Cert.ReferenceIdeal.S256, .f32⟩ : BufTy).Contents (Elt Ideal)) (a22 : (⟨Cert.ReferenceIdeal.S128x283, .f32⟩ : BufTy).Contents (Elt Ideal)) (a23 : (⟨Cert.ReferenceIdeal.S128, .f32⟩ : BufTy).Contents (Elt Ideal)) (a24 : (⟨Cert.ReferenceIdeal.S3x128, .f32⟩ : BufTy).Contents (Elt Ideal)) (a25 : (⟨Cert.ReferenceIdeal.S3, .f32⟩ : BufTy).Contents (Elt Ideal))
    (B0 : Vec Ideal Cert.KernelIdeal.S4096x6 .f32) (p : Fin 4096) (R : Fin 262144)
    (h0 : ∀ c : Fin 3, B0 (ix2 p ⟨0 + c.val, by omega⟩) = a0 (ix2 R c))
    (h1 : ∀ c : Fin 3, B0 (ix2 p ⟨3 + c.val, by omega⟩) = a1 (ix2 R c))
    (B1 : Vec Ideal Cert.KernelIdeal.S63x256 .bf16) (hB1 : ∀ (k : Fin 63) (q : Fin 256), B1 (ix2 k q) = a2 (ix2 q k))
    (B3 : Vec Ideal Cert.KernelIdeal.S256x256 .bf16) (hB3 : ∀ (k : Fin 256) (q : Fin 256), B3 (ix2 k q) = a4 (ix2 q k))
    (B5 : Vec Ideal Cert.KernelIdeal.S256x256 .bf16) (hB5 : ∀ (k : Fin 256) (q : Fin 256), B5 (ix2 k q) = a6 (ix2 q k))
    (B7 : Vec Ideal Cert.KernelIdeal.S256x256 .bf16) (hB7 : ∀ (k : Fin 256) (q : Fin 256), B7 (ix2 k q) = a8 (ix2 q k))
    (B9 : Vec Ideal Cert.KernelIdeal.S256x256 .bf16) (hB9 : ∀ (k : Fin 256) (q : Fin 256), B9 (ix2 k q) = a10 (ix2 q k))
    (B14 : Vec Ideal Cert.KernelIdeal.S256x256 .bf16) (hB14 : ∀ (k : Fin 256) (q : Fin 256), B14 (ix2 k q) = a14 (ix2 q k))
    (B16 : Vec Ideal Cert.KernelIdeal.S256x256 .bf16) (hB16 : ∀ (k : Fin 256) (q : Fin 256), B16 (ix2 k q) = a16 (ix2 q k))
    (B18 : Vec Ideal Cert.KernelIdeal.S256x1 .bf16) (hB18 : ∀ (k : Fin 256) (q : Fin 1), B18 (ix2 k q) = a18 (ix2 q k))
    (B20 : Vec Ideal Cert.KernelIdeal.S256x256 .bf16) (hB20 : ∀ (k : Fin 256) (q : Fin 256), B20 (ix2 k q) = a20 (ix2 q k))
    (B25 : Vec Ideal Cert.KernelIdeal.S128x3 .bf16) (hB25 : ∀ (k : Fin 128) (q : Fin 3), B25 (ix2 k q) = a24 (ix2 q k))
    (B11 : Vec Ideal Cert.KernelIdeal.S63x256 .bf16) (hB11 : ∀ (k : Fin 63) (q : Fin 256), B11 (ix2 k q) = a12 (ix2 q (Fin.castAdd 256 k)))
    (B12 : Vec Ideal Cert.KernelIdeal.S256x256 .bf16) (hB12 : ∀ (k : Fin 256) (q : Fin 256), B12 (ix2 k q) = a12 (ix2 q (Fin.natAdd 63 k)))
    (B22 : Vec Ideal Cert.KernelIdeal.S256x128 .bf16) (hB22 : ∀ (k : Fin 256) (q : Fin 128), B22 (ix2 k q) = a22 (ix2 q (Fin.castAdd 27 k)))
    (B23 : Vec Ideal Cert.KernelIdeal.S27x128 .bf16) (hB23 : ∀ (k : Fin 27) (q : Fin 128), B23 (ix2 k q) = a22 (ix2 q (Fin.natAdd 256 k))) :
    RowEq (k0_pay11 (F := Ideal)
        (k0_pay10 (k0_pay5 B0) (k0_pay8 (k0_pay5 B0) B1 a3 B3 a5 B5) (k0_pay9 a7) B7 a9 B9 a11 B11 B12 a13) B14 a15 B16 a17) p
      (val_main_v84 (F := Ideal) a0 a2 a3 a4 a5 a6 a7 a8 a9 a10 a11 a12 a13 a14 a15 a16 a17) R := by
  have hp := encPoints_rowEq B0 a0 p R h0
  have l0 : RowEq _ p (val_main_v41 (F := Ideal) a0 a2 a3) R :=
    reluLayer_rowEq (φ₁ := .bf16) (φ₂ := .bf16) (φ₃ := .f32) (φ₄ := .f32) Cert.KernelIdeal.dot_S4096x63_S63x256_S4096x256_1_0_0_1_n_n.wf Cert.ReferenceIdeal.dot_S262144x63_S63x256_S262144x256_1_0_0_1_n_n.wf
      (truncf .bf16 (k0_pay5 (F := Ideal) B0) bitsLt_bf16_f32) (shapeCast Cert.KernelIdeal.S63x256 B1 shapeCasts_S63x256_S63x256) a3
      shapeCasts_S256_S1x256 broadcasts_S1x256_S4096x256 _ (val_main_v36 (F := Ideal) a2) _ _ _ p R hp
      (weight_apply B1 a2 _ _ hB1)
  have l1 : RowEq _ p (val_main_v47 (F := Ideal) a0 a2 a3 a4 a5) R :=
    reluLayer_rowEq (φ₁ := .bf16) (φ₂ := .bf16) (φ₃ := .f32) (φ₄ := .f32) Cert.KernelIdeal.dot_S4096x256_S256x256_S4096x256_1_0_0_1_n_n.wf Cert.ReferenceIdeal.dot_S262144x256_S256x256_S262144x256_1_0_0_1_n_n.wf
      (truncf .bf16 _ bitsLt_bf16_f32) (shapeCast Cert.KernelIdeal.S256x256 B3 shapeCasts_S256x256_S256x256) a5
      shapeCasts_S256_S1x256 broadcasts_S1x256_S4096x256 _ (val_main_v42 (F := Ideal) a4) _ _ _ p R l0
      (weight_apply B3 a4 _ _ hB3)
  have l2 : RowEq _ p (val_main_v53 (F := Ideal) a0 a2 a3 a4 a5 a6 a7) R :=
    reluLayer_rowEq (φ₁ := .bf16) (φ₂ := .bf16) (φ₃ := .f32) (φ₄ := .f32) Cert.KernelIdeal.dot_S4096x256_S256x256_S4096x256_1_0_0_1_n_n.wf Cert.ReferenceIdeal.dot_S262144x256_S256x256_S262144x256_1_0_0_1_n_n.wf
      (truncf .bf16 _ bitsLt_bf16_f32) (shapeCast Cert.KernelIdeal.S256x256 B5 shapeCasts_S256x256_S256x256) a7
      shapeCasts_S256_S1x256 broadcasts_S1x256_S4096x256 _ (val_main_v48 (F := Ideal) a6) _ _ _ p R l1
      (weight_apply B5 a6 _ _ hB5)
  have l3 : RowEq _ p (val_main_v59 (F := Ideal) a0 a2 a3 a4 a5 a6 a7 a8 a9) R :=
    reluLayer_rowEq (φ₁ := .bf16) (φ₂ := .bf16) (φ₃ := .f32) (φ₄ := .f32) Cert.KernelIdeal.dot_S4096x256_S256x256_S4096x256_1_0_0_1_n_n.wf Cert.ReferenceIdeal.dot_S262144x256_S256x256_S262144x256_1_0_0_1_n_n.wf
      (truncf .bf16 _ bitsLt_bf16_f32) (shapeCast Cert.KernelIdeal.S256x256 B7 shapeCasts_S256x256_S256x256) a9
      shapeCasts_S256_S1x256 broadcasts_S1x256_S4096x256 _ (val_main_v54 (F := Ideal) a8) _ _ _ p R l2
      (weight_apply B7 a8 _ _ hB7)
  have l4 : RowEq _ p (val_main_v65 (F := Ideal) a0 a2 a3 a4 a5 a6 a7 a8 a9 a10 a11) R :=
    reluLayer_rowEq (φ₁ := .bf16) (φ₂ := .bf16) (φ₃ := .f32) (φ₄ := .f32) Cert.KernelIdeal.dot_S4096x256_S256x256_S4096x256_1_0_0_1_n_n.wf Cert.ReferenceIdeal.dot_S262144x256_S256x256_S262144x256_1_0_0_1_n_n.wf
      (truncf .bf16 _ bitsLt_bf16_f32) (shapeCast Cert.KernelIdeal.S256x256 B9 shapeCasts_S256x256_S256x256) a11
      shapeCasts_S256_S1x256 broadcasts_S1x256_S4096x256 _ (val_main_v60 (F := Ideal) a10) _ _ _ p R l3
      (weight_apply B9 a10 _ _ hB9)
  have l5 : RowEq _ p (val_main_v72 (F := Ideal) a0 a2 a3 a4 a5 a6 a7 a8 a9 a10 a11 a12 a13) R :=
    joinedLayer_rowEq (φ₁ := .bf16) (φ₂ := .bf16) (φ₄ := .f32) (K1 := 63) (K2 := 256) Cert.KernelIdeal.dot_S4096x63_S63x256_S4096x256_1_0_0_1_n_n.wf Cert.KernelIdeal.dot_S4096x256_S256x256_S4096x256_1_0_0_1_n_n.wf
      Cert.ReferenceIdeal.dot_S262144x319_S319x256_S262144x256_1_0_0_1_n_n.wf
      (truncf .bf16 (k0_pay5 (F := Ideal) B0) bitsLt_bf16_f32) (truncf .bf16 _ bitsLt_bf16_f32)
      (shapeCast Cert.KernelIdeal.S63x256 B11 shapeCasts_S63x256_S63x256) (shapeCast Cert.KernelIdeal.S256x256 B12 shapeCasts_S256x256_S256x256) a13
      shapeCasts_S256_S1x256 broadcasts_S1x256_S4096x256 _ _ _ (val_main_v67 (F := Ideal) a12) _ _ _ p R hp l4
      (weight_at B11 a12 _ _ (Fin.castAdd 256) hB11) (weight_at B12 a12 _ _ (Fin.natAdd 63) hB12)
  have l6 : RowEq _ p (val_main_v78 (F := Ideal) a0 a2 a3 a4 a5 a6 a7 a8 a9 a10 a11 a12 a13 a14 a15) R :=
    reluLayer_rowEq (φ₁ := .bf16) (φ₂ := .bf16) (φ₃ := .f32) (φ₄ := .f32) Cert.KernelIdeal.dot_S4096x256_S256x256_S4096x256_1_0_0_1_n_n.wf Cert.ReferenceIdeal.dot_S262144x256_S256x256_S262144x256_1_0_0_1_n_n.wf
      (truncf .bf16 _ bitsLt_bf16_f32) (shapeCast Cert.KernelIdeal.S256x256 B14 shapeCasts_S256x256_S256x256) a15
      shapeCasts_S256_S1x256 broadcasts_S1x256_S4096x256 _ (val_main_v73 (F := Ideal) a14) _ _ _ p R l5
      (weight_apply B14 a14 _ _ hB14)
  have l7 : RowEq _ p (val_main_v84 (F := Ideal) a0 a2 a3 a4 a5 a6 a7 a8 a9 a10 a11 a12 a13 a14 a15 a16 a17) R :=
    reluLayer_rowEq (φ₁ := .bf16) (φ₂ := .bf16) (φ₃ := .f32) (φ₄ := .f32) Cert.KernelIdeal.dot_S4096x256_S256x256_S4096x256_1_0_0_1_n_n.wf Cert.ReferenceIdeal.dot_S262144x256_S256x256_S262144x256_1_0_0_1_n_n.wf
      (truncf .bf16 _ bitsLt_bf16_f32) (shapeCast Cert.KernelIdeal.S256x256 B16 shapeCasts_S256x256_S256x256) a17
      shapeCasts_S256_S1x256 broadcasts_S1x256_S4096x256 _ (val_main_v79 (F := Ideal) a16) _ _ _ p R l6
      (weight_apply B16 a16 _ _ hB16)
  exact l7

/-- The density before the host's no-op tail. -/
theorem density_rowEq (a0 : (⟨Cert.ReferenceIdeal.S262144x3, .f32⟩ : BufTy).Contents (Elt Ideal)) (a1 : (⟨Cert.ReferenceIdeal.S262144x3, .f32⟩ : BufTy).Contents (Elt Ideal)) (a2 : (⟨Cert.ReferenceIdeal.S256x63, .f32⟩ : BufTy).Contents (Elt Ideal)) (a3 : (⟨Cert.ReferenceIdeal.S256, .f32⟩ : BufTy).Contents (Elt Ideal)) (a4 : (⟨Cert.ReferenceIdeal.S256x256, .f32⟩ : BufTy).Contents (Elt Ideal)) (a5 : (⟨Cert.ReferenceIdeal.S256, .f32⟩ : BufTy).Contents (Elt Ideal)) (a6 : (⟨Cert.ReferenceIdeal.S256x256, .f32⟩ : BufTy).Contents (Elt Ideal)) (a7 : (⟨Cert.ReferenceIdeal.S256, .f32⟩ : BufTy).Contents (Elt Ideal)) (a8 : (⟨Cert.ReferenceIdeal.S256x256, .f32⟩ : BufTy).Contents (Elt Ideal)) (a9 : (⟨Cert.ReferenceIdeal.S256, .f32⟩ : BufTy).Contents (Elt Ideal)) (a10 : (⟨Cert.ReferenceIdeal.S256x256, .f32⟩ : BufTy).Contents (Elt Ideal)) (a11 : (⟨Cert.ReferenceIdeal.S256, .f32⟩ : BufTy).Contents (Elt Ideal)) (a12 : (⟨Cert.ReferenceIdeal.S256x319, .f32⟩ : BufTy).Contents (Elt Ideal)) (a13 : (⟨Cert.ReferenceIdeal.S256, .f32⟩ : BufTy).Contents (Elt Ideal)) (a14 : (⟨Cert.ReferenceIdeal.S256x256, .f32⟩ : BufTy).Contents (Elt Ideal)) (a15 : (⟨Cert.ReferenceIdeal.S256, .f32⟩ : BufTy).Contents (Elt Ideal)) (a16 : (⟨Cert.ReferenceIdeal.S256x256, .f32⟩ : BufTy).Contents (Elt Ideal)) (a17 : (⟨Cert.ReferenceIdeal.S256, .f32⟩ : BufTy).Contents (Elt Ideal)) (a18 : (⟨Cert.ReferenceIdeal.S1x256, .f32⟩ : BufTy).Contents (Elt Ideal)) (a19 : (⟨Cert.ReferenceIdeal.S1, .f32⟩ : BufTy).Contents (Elt Ideal)) (a20 : (⟨Cert.ReferenceIdeal.S256x256, .f32⟩ : BufTy).Contents (Elt Ideal)) (a21 : (⟨Cert.ReferenceIdeal.S256, .f32⟩ : BufTy).Contents (Elt Ideal)) (a22 : (⟨Cert.ReferenceIdeal.S128x283, .f32⟩ : BufTy).Contents (Elt Ideal)) (a23 : (⟨Cert.ReferenceIdeal.S128, .f32⟩ : BufTy).Contents (Elt Ideal)) (a24 : (⟨Cert.ReferenceIdeal.S3x128, .f32⟩ : BufTy).Contents (Elt Ideal)) (a25 : (⟨Cert.ReferenceIdeal.S3, .f32⟩ : BufTy).Contents (Elt Ideal))
    (B0 : Vec Ideal Cert.KernelIdeal.S4096x6 .f32) (p : Fin 4096) (R : Fin 262144)
    (h0 : ∀ c : Fin 3, B0 (ix2 p ⟨0 + c.val, by omega⟩) = a0 (ix2 R c))
    (h1 : ∀ c : Fin 3, B0 (ix2 p ⟨3 + c.val, by omega⟩) = a1 (ix2 R c))
    (B1 : Vec Ideal Cert.KernelIdeal.S63x256 .bf16) (hB1 : ∀ (k : Fin 63) (q : Fin 256), B1 (ix2 k q) = a2 (ix2 q k))
    (B3 : Vec Ideal Cert.KernelIdeal.S256x256 .bf16) (hB3 : ∀ (k : Fin 256) (q : Fin 256), B3 (ix2 k q) = a4 (ix2 q k))
    (B5 : Vec Ideal Cert.KernelIdeal.S256x256 .bf16) (hB5 : ∀ (k : Fin 256) (q : Fin 256), B5 (ix2 k q) = a6 (ix2 q k))
    (B7 : Vec Ideal Cert.KernelIdeal.S256x256 .bf16) (hB7 : ∀ (k : Fin 256) (q : Fin 256), B7 (ix2 k q) = a8 (ix2 q k))
    (B9 : Vec Ideal Cert.KernelIdeal.S256x256 .bf16) (hB9 : ∀ (k : Fin 256) (q : Fin 256), B9 (ix2 k q) = a10 (ix2 q k))
    (B14 : Vec Ideal Cert.KernelIdeal.S256x256 .bf16) (hB14 : ∀ (k : Fin 256) (q : Fin 256), B14 (ix2 k q) = a14 (ix2 q k))
    (B16 : Vec Ideal Cert.KernelIdeal.S256x256 .bf16) (hB16 : ∀ (k : Fin 256) (q : Fin 256), B16 (ix2 k q) = a16 (ix2 q k))
    (B18 : Vec Ideal Cert.KernelIdeal.S256x1 .bf16) (hB18 : ∀ (k : Fin 256) (q : Fin 1), B18 (ix2 k q) = a18 (ix2 q k))
    (B20 : Vec Ideal Cert.KernelIdeal.S256x256 .bf16) (hB20 : ∀ (k : Fin 256) (q : Fin 256), B20 (ix2 k q) = a20 (ix2 q k))
    (B25 : Vec Ideal Cert.KernelIdeal.S128x3 .bf16) (hB25 : ∀ (k : Fin 128) (q : Fin 3), B25 (ix2 k q) = a24 (ix2 q k))
    (B11 : Vec Ideal Cert.KernelIdeal.S63x256 .bf16) (hB11 : ∀ (k : Fin 63) (q : Fin 256), B11 (ix2 k q) = a12 (ix2 q (Fin.castAdd 256 k)))
    (B12 : Vec Ideal Cert.KernelIdeal.S256x256 .bf16) (hB12 : ∀ (k : Fin 256) (q : Fin 256), B12 (ix2 k q) = a12 (ix2 q (Fin.natAdd 63 k)))
    (B22 : Vec Ideal Cert.KernelIdeal.S256x128 .bf16) (hB22 : ∀ (k : Fin 256) (q : Fin 128), B22 (ix2 k q) = a22 (ix2 q (Fin.castAdd 27 k)))
    (B23 : Vec Ideal Cert.KernelIdeal.S27x128 .bf16) (hB23 : ∀ (k : Fin 27) (q : Fin 128), B23 (ix2 k q) = a22 (ix2 q (Fin.natAdd 256 k))) :
    RowEq (k0_pay12 (F := Ideal)
        (k0_pay10 (k0_pay5 B0) (k0_pay8 (k0_pay5 B0) B1 a3 B3 a5 B5) (k0_pay9 a7) B7 a9 B9 a11 B11 B12 a13) B14 a15 B16 a17 B18 a19) p
      (val_main_v89 (F := Ideal) a0 a2 a3 a4 a5 a6 a7 a8 a9 a10 a11 a12 a13 a14 a15 a16 a17 a18 a19) R :=
  affineLayer_rowEq (φ₁ := .bf16) (φ₂ := .bf16) (φ₃ := .f32) (φ₄ := .f32) Cert.KernelIdeal.dot_S4096x256_S256x1_S4096x1_1_0_0_1_n_n.wf Cert.ReferenceIdeal.dot_S262144x256_S256x1_S262144x1_1_0_0_1_n_n.wf
    (truncf .bf16 _ bitsLt_bf16_f32) (shapeCast Cert.KernelIdeal.S256x1 B18 shapeCasts_S256x1_S256x1) a19
    shapeCasts_S1_S1x1 broadcasts_S1x1_S4096x1 _ (val_main_v85 (F := Ideal) a18) _ _ p R
    (hidden_rowEq a0 a1 a2 a3 a4 a5 a6 a7 a8 a9 a10 a11 a12 a13 a14 a15 a16 a17 a18 a19 a20 a21 a22 a23 a24 a25 B0 p R h0 h1 B1 hB1 B3 hB3 B5 hB5 B7 hB7 B9 hB9 B14 hB14 B16 hB16 B18 hB18 B20 hB20 B25 hB25 B11 hB11 B12 hB12 B22 hB22 B23 hB23)
    (weight_apply B18 a18 _ _ hB18)

/-- The density: the host adds `max (x, 0) * 0` and flattens the column. -/
theorem density_eq (a0 : (⟨Cert.ReferenceIdeal.S262144x3, .f32⟩ : BufTy).Contents (Elt Ideal)) (a1 : (⟨Cert.ReferenceIdeal.S262144x3, .f32⟩ : BufTy).Contents (Elt Ideal)) (a2 : (⟨Cert.ReferenceIdeal.S256x63, .f32⟩ : BufTy).Contents (Elt Ideal)) (a3 : (⟨Cert.ReferenceIdeal.S256, .f32⟩ : BufTy).Contents (Elt Ideal)) (a4 : (⟨Cert.ReferenceIdeal.S256x256, .f32⟩ : BufTy).Contents (Elt Ideal)) (a5 : (⟨Cert.ReferenceIdeal.S256, .f32⟩ : BufTy).Contents (Elt Ideal)) (a6 : (⟨Cert.ReferenceIdeal.S256x256, .f32⟩ : BufTy).Contents (Elt Ideal)) (a7 : (⟨Cert.ReferenceIdeal.S256, .f32⟩ : BufTy).Contents (Elt Ideal)) (a8 : (⟨Cert.ReferenceIdeal.S256x256, .f32⟩ : BufTy).Contents (Elt Ideal)) (a9 : (⟨Cert.ReferenceIdeal.S256, .f32⟩ : BufTy).Contents (Elt Ideal)) (a10 : (⟨Cert.ReferenceIdeal.S256x256, .f32⟩ : BufTy).Contents (Elt Ideal)) (a11 : (⟨Cert.ReferenceIdeal.S256, .f32⟩ : BufTy).Contents (Elt Ideal)) (a12 : (⟨Cert.ReferenceIdeal.S256x319, .f32⟩ : BufTy).Contents (Elt Ideal)) (a13 : (⟨Cert.ReferenceIdeal.S256, .f32⟩ : BufTy).Contents (Elt Ideal)) (a14 : (⟨Cert.ReferenceIdeal.S256x256, .f32⟩ : BufTy).Contents (Elt Ideal)) (a15 : (⟨Cert.ReferenceIdeal.S256, .f32⟩ : BufTy).Contents (Elt Ideal)) (a16 : (⟨Cert.ReferenceIdeal.S256x256, .f32⟩ : BufTy).Contents (Elt Ideal)) (a17 : (⟨Cert.ReferenceIdeal.S256, .f32⟩ : BufTy).Contents (Elt Ideal)) (a18 : (⟨Cert.ReferenceIdeal.S1x256, .f32⟩ : BufTy).Contents (Elt Ideal)) (a19 : (⟨Cert.ReferenceIdeal.S1, .f32⟩ : BufTy).Contents (Elt Ideal)) (a20 : (⟨Cert.ReferenceIdeal.S256x256, .f32⟩ : BufTy).Contents (Elt Ideal)) (a21 : (⟨Cert.ReferenceIdeal.S256, .f32⟩ : BufTy).Contents (Elt Ideal)) (a22 : (⟨Cert.ReferenceIdeal.S128x283, .f32⟩ : BufTy).Contents (Elt Ideal)) (a23 : (⟨Cert.ReferenceIdeal.S128, .f32⟩ : BufTy).Contents (Elt Ideal)) (a24 : (⟨Cert.ReferenceIdeal.S3x128, .f32⟩ : BufTy).Contents (Elt Ideal)) (a25 : (⟨Cert.ReferenceIdeal.S3, .f32⟩ : BufTy).Contents (Elt Ideal))
    (B0 : Vec Ideal Cert.KernelIdeal.S4096x6 .f32) (p : Fin 4096) (R : Fin 262144)
    (h0 : ∀ c : Fin 3, B0 (ix2 p ⟨0 + c.val, by omega⟩) = a0 (ix2 R c))
    (h1 : ∀ c : Fin 3, B0 (ix2 p ⟨3 + c.val, by omega⟩) = a1 (ix2 R c))
    (B1 : Vec Ideal Cert.KernelIdeal.S63x256 .bf16) (hB1 : ∀ (k : Fin 63) (q : Fin 256), B1 (ix2 k q) = a2 (ix2 q k))
    (B3 : Vec Ideal Cert.KernelIdeal.S256x256 .bf16) (hB3 : ∀ (k : Fin 256) (q : Fin 256), B3 (ix2 k q) = a4 (ix2 q k))
    (B5 : Vec Ideal Cert.KernelIdeal.S256x256 .bf16) (hB5 : ∀ (k : Fin 256) (q : Fin 256), B5 (ix2 k q) = a6 (ix2 q k))
    (B7 : Vec Ideal Cert.KernelIdeal.S256x256 .bf16) (hB7 : ∀ (k : Fin 256) (q : Fin 256), B7 (ix2 k q) = a8 (ix2 q k))
    (B9 : Vec Ideal Cert.KernelIdeal.S256x256 .bf16) (hB9 : ∀ (k : Fin 256) (q : Fin 256), B9 (ix2 k q) = a10 (ix2 q k))
    (B14 : Vec Ideal Cert.KernelIdeal.S256x256 .bf16) (hB14 : ∀ (k : Fin 256) (q : Fin 256), B14 (ix2 k q) = a14 (ix2 q k))
    (B16 : Vec Ideal Cert.KernelIdeal.S256x256 .bf16) (hB16 : ∀ (k : Fin 256) (q : Fin 256), B16 (ix2 k q) = a16 (ix2 q k))
    (B18 : Vec Ideal Cert.KernelIdeal.S256x1 .bf16) (hB18 : ∀ (k : Fin 256) (q : Fin 1), B18 (ix2 k q) = a18 (ix2 q k))
    (B20 : Vec Ideal Cert.KernelIdeal.S256x256 .bf16) (hB20 : ∀ (k : Fin 256) (q : Fin 256), B20 (ix2 k q) = a20 (ix2 q k))
    (B25 : Vec Ideal Cert.KernelIdeal.S128x3 .bf16) (hB25 : ∀ (k : Fin 128) (q : Fin 3), B25 (ix2 k q) = a24 (ix2 q k))
    (B11 : Vec Ideal Cert.KernelIdeal.S63x256 .bf16) (hB11 : ∀ (k : Fin 63) (q : Fin 256), B11 (ix2 k q) = a12 (ix2 q (Fin.castAdd 256 k)))
    (B12 : Vec Ideal Cert.KernelIdeal.S256x256 .bf16) (hB12 : ∀ (k : Fin 256) (q : Fin 256), B12 (ix2 k q) = a12 (ix2 q (Fin.natAdd 63 k)))
    (B22 : Vec Ideal Cert.KernelIdeal.S256x128 .bf16) (hB22 : ∀ (k : Fin 256) (q : Fin 128), B22 (ix2 k q) = a22 (ix2 q (Fin.castAdd 27 k)))
    (B23 : Vec Ideal Cert.KernelIdeal.S27x128 .bf16) (hB23 : ∀ (k : Fin 27) (q : Fin 128), B23 (ix2 k q) = a22 (ix2 q (Fin.natAdd 256 k))) :
    k0_pay12 (F := Ideal)
        (k0_pay10 (k0_pay5 B0) (k0_pay8 (k0_pay5 B0) B1 a3 B3 a5 B5) (k0_pay9 a7) B7 a9 B9 a11 B11 B12 a13) B14 a15 B16 a17 B18 a19
        (ix2 p (0 : Fin 1))
      = val_main_v118 (F := Ideal) a0 a2 a3 a4 a5 a6 a7 a8 a9 a10 a11 a12 a13 a14 a15 a16 a17 a18 a19 (ix1 R) := by
  rw [density_rowEq a0 a1 a2 a3 a4 a5 a6 a7 a8 a9 a10 a11 a12 a13 a14 a15 a16 a17 a18 a19 a20 a21 a22 a23 a24 a25 B0 p R h0 h1 B1 hB1 B3 hB3 B5 hB5 B7 hB7 B9 hB9 B14 hB14 B16 hB16 B18 hB18 B20 hB20 B25 hB25 B11 hB11 B12 hB12 B22 hB22 B23 hB23 (0 : Fin 1),
    val_main_v118_apply]
  have e : idx_main_v118 (ix1 R) = ix2 R (0 : Fin 1) :=
    funext fun a => match a with
      | ⟨0, _⟩ => Fin.ext (Nat.div_one _)
      | ⟨1, _⟩ => rfl
  rw [e]
  exact (add_relu_mul_zero _ _).symm

/-- The colours. -/
theorem colour_rowEq (a0 : (⟨Cert.ReferenceIdeal.S262144x3, .f32⟩ : BufTy).Contents (Elt Ideal)) (a1 : (⟨Cert.ReferenceIdeal.S262144x3, .f32⟩ : BufTy).Contents (Elt Ideal)) (a2 : (⟨Cert.ReferenceIdeal.S256x63, .f32⟩ : BufTy).Contents (Elt Ideal)) (a3 : (⟨Cert.ReferenceIdeal.S256, .f32⟩ : BufTy).Contents (Elt Ideal)) (a4 : (⟨Cert.ReferenceIdeal.S256x256, .f32⟩ : BufTy).Contents (Elt Ideal)) (a5 : (⟨Cert.ReferenceIdeal.S256, .f32⟩ : BufTy).Contents (Elt Ideal)) (a6 : (⟨Cert.ReferenceIdeal.S256x256, .f32⟩ : BufTy).Contents (Elt Ideal)) (a7 : (⟨Cert.ReferenceIdeal.S256, .f32⟩ : BufTy).Contents (Elt Ideal)) (a8 : (⟨Cert.ReferenceIdeal.S256x256, .f32⟩ : BufTy).Contents (Elt Ideal)) (a9 : (⟨Cert.ReferenceIdeal.S256, .f32⟩ : BufTy).Contents (Elt Ideal)) (a10 : (⟨Cert.ReferenceIdeal.S256x256, .f32⟩ : BufTy).Contents (Elt Ideal)) (a11 : (⟨Cert.ReferenceIdeal.S256, .f32⟩ : BufTy).Contents (Elt Ideal)) (a12 : (⟨Cert.ReferenceIdeal.S256x319, .f32⟩ : BufTy).Contents (Elt Ideal)) (a13 : (⟨Cert.ReferenceIdeal.S256, .f32⟩ : BufTy).Contents (Elt Ideal)) (a14 : (⟨Cert.ReferenceIdeal.S256x256, .f32⟩ : BufTy).Contents (Elt Ideal)) (a15 : (⟨Cert.ReferenceIdeal.S256, .f32⟩ : BufTy).Contents (Elt Ideal)) (a16 : (⟨Cert.ReferenceIdeal.S256x256, .f32⟩ : BufTy).Contents (Elt Ideal)) (a17 : (⟨Cert.ReferenceIdeal.S256, .f32⟩ : BufTy).Contents (Elt Ideal)) (a18 : (⟨Cert.ReferenceIdeal.S1x256, .f32⟩ : BufTy).Contents (Elt Ideal)) (a19 : (⟨Cert.ReferenceIdeal.S1, .f32⟩ : BufTy).Contents (Elt Ideal)) (a20 : (⟨Cert.ReferenceIdeal.S256x256, .f32⟩ : BufTy).Contents (Elt Ideal)) (a21 : (⟨Cert.ReferenceIdeal.S256, .f32⟩ : BufTy).Contents (Elt Ideal)) (a22 : (⟨Cert.ReferenceIdeal.S128x283, .f32⟩ : BufTy).Contents (Elt Ideal)) (a23 : (⟨Cert.ReferenceIdeal.S128, .f32⟩ : BufTy).Contents (Elt Ideal)) (a24 : (⟨Cert.ReferenceIdeal.S3x128, .f32⟩ : BufTy).Contents (Elt Ideal)) (a25 : (⟨Cert.ReferenceIdeal.S3, .f32⟩ : BufTy).Contents (Elt Ideal))
    (B0 : Vec Ideal Cert.KernelIdeal.S4096x6 .f32) (p : Fin 4096) (R : Fin 262144)
    (h0 : ∀ c : Fin 3, B0 (ix2 p ⟨0 + c.val, by omega⟩) = a0 (ix2 R c))
    (h1 : ∀ c : Fin 3, B0 (ix2 p ⟨3 + c.val, by omega⟩) = a1 (ix2 R c))
    (B1 : Vec Ideal Cert.KernelIdeal.S63x256 .bf16) (hB1 : ∀ (k : Fin 63) (q : Fin 256), B1 (ix2 k q) = a2 (ix2 q k))
    (B3 : Vec Ideal Cert.KernelIdeal.S256x256 .bf16) (hB3 : ∀ (k : Fin 256) (q : Fin 256), B3 (ix2 k q) = a4 (ix2 q k))
    (B5 : Vec Ideal Cert.KernelIdeal.S256x256 .bf16) (hB5 : ∀ (k : Fin 256) (q : Fin 256), B5 (ix2 k q) = a6 (ix2 q k))
    (B7 : Vec Ideal Cert.KernelIdeal.S256x256 .bf16) (hB7 : ∀ (k : Fin 256) (q : Fin 256), B7 (ix2 k q) = a8 (ix2 q k))
    (B9 : Vec Ideal Cert.KernelIdeal.S256x256 .bf16) (hB9 : ∀ (k : Fin 256) (q : Fin 256), B9 (ix2 k q) = a10 (ix2 q k))
    (B14 : Vec Ideal Cert.KernelIdeal.S256x256 .bf16) (hB14 : ∀ (k : Fin 256) (q : Fin 256), B14 (ix2 k q) = a14 (ix2 q k))
    (B16 : Vec Ideal Cert.KernelIdeal.S256x256 .bf16) (hB16 : ∀ (k : Fin 256) (q : Fin 256), B16 (ix2 k q) = a16 (ix2 q k))
    (B18 : Vec Ideal Cert.KernelIdeal.S256x1 .bf16) (hB18 : ∀ (k : Fin 256) (q : Fin 1), B18 (ix2 k q) = a18 (ix2 q k))
    (B20 : Vec Ideal Cert.KernelIdeal.S256x256 .bf16) (hB20 : ∀ (k : Fin 256) (q : Fin 256), B20 (ix2 k q) = a20 (ix2 q k))
    (B25 : Vec Ideal Cert.KernelIdeal.S128x3 .bf16) (hB25 : ∀ (k : Fin 128) (q : Fin 3), B25 (ix2 k q) = a24 (ix2 q k))
    (B11 : Vec Ideal Cert.KernelIdeal.S63x256 .bf16) (hB11 : ∀ (k : Fin 63) (q : Fin 256), B11 (ix2 k q) = a12 (ix2 q (Fin.castAdd 256 k)))
    (B12 : Vec Ideal Cert.KernelIdeal.S256x256 .bf16) (hB12 : ∀ (k : Fin 256) (q : Fin 256), B12 (ix2 k q) = a12 (ix2 q (Fin.natAdd 63 k)))
    (B22 : Vec Ideal Cert.KernelIdeal.S256x128 .bf16) (hB22 : ∀ (k : Fin 256) (q : Fin 128), B22 (ix2 k q) = a22 (ix2 q (Fin.castAdd 27 k)))
    (B23 : Vec Ideal Cert.KernelIdeal.S27x128 .bf16) (hB23 : ∀ (k : Fin 27) (q : Fin 128), B23 (ix2 k q) = a22 (ix2 q (Fin.natAdd 256 k))) :
    RowEq (k0_pay1 (F := Ideal)
        (k0_pay13 (k0_pay10 (k0_pay5 B0) (k0_pay8 (k0_pay5 B0) B1 a3 B3 a5 B5) (k0_pay9 a7) B7 a9 B9 a11 B11 B12 a13) B14 a15 B16 a17 B20 a21)
        (k0_pay14 (k0_pay7 (k0_pay4 B0) k0_pay6)) (k0_pay15 B22) B23 a23 B25 a25) p
      (val_main_v117 (F := Ideal) a0 a1 a2 a3 a4 a5 a6 a7 a8 a9 a10 a11 a12 a13 a14 a15 a16 a17 a20 a21 a22 a23 a24 a25) R := by
  have hh := hidden_rowEq a0 a1 a2 a3 a4 a5 a6 a7 a8 a9 a10 a11 a12 a13 a14 a15 a16 a17 a18 a19 a20 a21 a22 a23 a24 a25 B0 p R h0 h1 B1 hB1 B3 hB3 B5 hB5 B7 hB7 B9 hB9 B14 hB14 B16 hB16 B18 hB18 B20 hB20 B25 hB25 B11 hB11 B12 hB12 B22 hB22 B23 hB23
  have hd := encDirs_rowEq B0 a1 p R h1
  have l8 : RowEq _ p (val_main_v99 (F := Ideal) a0 a2 a3 a4 a5 a6 a7 a8 a9 a10 a11 a12 a13 a14 a15 a16 a17 a20 a21) R :=
    reluLayer_rowEq (φ₁ := .bf16) (φ₂ := .bf16) (φ₃ := .f32) (φ₄ := .f32) Cert.KernelIdeal.dot_S4096x256_S256x256_S4096x256_1_0_0_1_n_n.wf Cert.ReferenceIdeal.dot_S262144x256_S256x256_S262144x256_1_0_0_1_n_n.wf
      (truncf .bf16 _ bitsLt_bf16_f32) (shapeCast Cert.KernelIdeal.S256x256 B20 shapeCasts_S256x256_S256x256) a21
      shapeCasts_S256_S1x256 broadcasts_S1x256_S4096x256 _ (val_main_v94 (F := Ideal) a20) _ _ _ p R hh
      (weight_apply B20 a20 _ _ hB20)
  have l9 : RowEq _ p (val_main_v106 (F := Ideal) a0 a1 a2 a3 a4 a5 a6 a7 a8 a9 a10 a11 a12 a13 a14 a15 a16 a17 a20 a21 a22 a23) R :=
    joinedLayer_rowEq (φ₁ := .bf16) (φ₂ := .bf16) (φ₄ := .f32) (K1 := 256) (K2 := 27) Cert.KernelIdeal.dot_S4096x256_S256x128_S4096x128_1_0_0_1_n_n.wf
      Cert.KernelIdeal.dot_S4096x27_S27x128_S4096x128_1_0_0_1_n_n.wf Cert.ReferenceIdeal.dot_S262144x283_S283x128_S262144x128_1_0_0_1_n_n.wf
      (truncf .bf16 _ bitsLt_bf16_f32) (truncf .bf16 (k0_pay7 (F := Ideal) (k0_pay4 B0) k0_pay6) bitsLt_bf16_f32)
      (shapeCast Cert.KernelIdeal.S256x128 B22 shapeCasts_S256x128_S256x128) (shapeCast Cert.KernelIdeal.S27x128 B23 shapeCasts_S27x128_S27x128) a23
      shapeCasts_S128_S1x128 broadcasts_S1x128_S4096x128 _ _ _ (val_main_v101 (F := Ideal) a22) _ _ _ p R l8 hd
      (weight_at B22 a22 _ _ (Fin.castAdd 27) hB22) (weight_at B23 a22 _ _ (Fin.natAdd 256) hB23)
  have l10 : RowEq _ p (val_main_v111 (F := Ideal) a0 a1 a2 a3 a4 a5 a6 a7 a8 a9 a10 a11 a12 a13 a14 a15 a16 a17 a20 a21 a22 a23 a24 a25) R :=
    affineLayer_rowEq (φ₁ := .bf16) (φ₂ := .bf16) (φ₃ := .f32) (φ₄ := .f32) Cert.KernelIdeal.dot_S4096x128_S128x3_S4096x3_1_0_0_1_n_n.wf Cert.ReferenceIdeal.dot_S262144x128_S128x3_S262144x3_1_0_0_1_n_n.wf
      (truncf .bf16 _ bitsLt_bf16_f32) (shapeCast Cert.KernelIdeal.S128x3 B25 shapeCasts_S128x3_S128x3) a25
      shapeCasts_S3_S1x3 broadcasts_S1x3_S4096x3 _ (val_main_v107 (F := Ideal) a24) _ _ p R l9
      (weight_apply B25 a24 _ _ hB25)
  exact logistic_rowEq _ _ _ p R l10

end Network

end Cert.Nerf

end
-- ==== Proof.Results.lean ====
/-
  The kernel's three results are the reference's.

  Every row R of the packed output is row p = R mod 4096 of the block written at grid point t = R div 4096. There the
  colours, the density and the encoded directions are the tile's payloads of the blocks at t, the blocks are the rows
  and the transposed weights of the arguments, and the network evaluated on the tile's row is the network evaluated
  on row R of the host's arrays.
-/
import proofs.«118394_j18519898980813_2_alg».proof.Proof.PackedRun
import proofs.«118394_j18519898980813_2_alg».proof.Proof.PackedRead
import proofs.«118394_j18519898980813_2_alg».proof.Proof.BlockRows
import proofs.«118394_j18519898980813_2_alg».proof.Proof.Bridge

set_option maxRecDepth 16384
set_option maxHeartbeats 1600000

noncomputable section

namespace Cert.Nerf

open Idealize.ShloMosaic Idealize.ShloMosaic.TcCoe Idealize.SL.Sem Idealize.ShloMosaic.ValueIdx Cert.Lib
open Cert.KernelIdeal Cert.KernelIdeal.Gen Cert.KernelIdeal.Packed Cert.ReferenceIdeal.Read

variable (m : (ℓ : Loc nD τ sig) → Buf (Elt Ideal) ℓ) (c : Dev nD)

/-- Every row is `4096 t + p` for a grid point `t` and a row `p` of its block. -/
theorem row_split (R : Fin 262144) : ∃ (t : Fin cfg0.N) (p : Fin 4096), R.val = 4096 * t.val + p.val :=
  ⟨Fin.cast N_0.symm ⟨R.val / 4096, by have := R.isLt; omega⟩, ⟨R.val % 4096, Nat.mod_lt _ (by norm_num)⟩,
    by show R.val = 4096 * (R.val / 4096) + R.val % 4096; omega⟩

/-- The colours. -/
theorem rgb_eq : (Packed.rgb m c : S262144x3.Idx → EReal)
    = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  funext i
  obtain ⟨R, q, rfl⟩ : ∃ (R : Fin 262144) (q : Fin 3), i = ix2 R q := ⟨i 0, i 1, eq_ix2 i⟩
  obtain ⟨t, p, hR⟩ := row_split R
  rw [Packed.rgb_apply m c t p q R hR, blk2 m c t, blk4 m c t, blk6 m c t, blk8 m c t, blk10 m c t, blk13 m c t, blk15 m c t, blk17 m c t, blk21 m c t, blk24 m c t, blk26 m c t]
  exact colour_rowEq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (iblk m c 0 t) p R (rows_pts m c t p R hR) (rows_dirs m c t p R hR) (iblk m c 1 t) (weight1 m c t) (iblk m c 3 t) (weight3 m c t) (iblk m c 5 t) (weight5 m c t) (iblk m c 7 t) (weight7 m c t) (iblk m c 9 t) (weight9 m c t) (iblk m c 14 t) (weight14 m c t) (iblk m c 16 t) (weight16 m c t) (iblk m c 18 t) (weight18 m c t) (iblk m c 20 t) (weight20 m c t) (iblk m c 25 t) (weight25 m c t) (iblk m c 11 t) (weight11 m c t) (iblk m c 12 t) (weight12 m c t) (iblk m c 22 t) (weight22 m c t) (iblk m c 23 t) (weight23 m c t) q

/-- The density. -/
theorem sigma_eq : (Packed.sigma m c : S262144.Idx → EReal)
    = val_main_v118 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  funext i
  obtain ⟨R, rfl⟩ : ∃ R : Fin 262144, i = ix1 R := ⟨i 0, eq_ix1 i⟩
  obtain ⟨t, p, hR⟩ := row_split R
  rw [Packed.sigma_apply m c t p R hR, blk2 m c t, blk4 m c t, blk6 m c t, blk8 m c t, blk10 m c t, blk13 m c t, blk15 m c t, blk17 m c t, blk19 m c t]
  exact density_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (iblk m c 0 t) p R (rows_pts m c t p R hR) (rows_dirs m c t p R hR) (iblk m c 1 t) (weight1 m c t) (iblk m c 3 t) (weight3 m c t) (iblk m c 5 t) (weight5 m c t) (iblk m c 7 t) (weight7 m c t) (iblk m c 9 t) (weight9 m c t) (iblk m c 14 t) (weight14 m c t) (iblk m c 16 t) (weight16 m c t) (iblk m c 18 t) (weight18 m c t) (iblk m c 20 t) (weight20 m c t) (iblk m c 25 t) (weight25 m c t) (iblk m c 11 t) (weight11 m c t) (iblk m c 12 t) (weight12 m c t) (iblk m c 22 t) (weight22 m c t) (iblk m c 23 t) (weight23 m c t)

/-- The encoded directions. -/
theorem dirs_eq : (Packed.dirs m c : S262144x27.Idx → EReal)
    = val_main_v35 (F := Ideal) (m ((c : Thread nD τ).loc main_arg1)) := by
  funext i
  obtain ⟨R, q, rfl⟩ : ∃ (R : Fin 262144) (q : Fin 27), i = ix2 R q := ⟨i 0, i 1, eq_ix2 i⟩
  obtain ⟨t, p, hR⟩ := row_split R
  rw [Packed.dirs_apply m c t p q R hR]
  exact encDirs_rowEq (iblk m c 0 t) (m ((c : Thread nD τ).loc main_arg1)) p R (rows_dirs m c t p R hR) q

end Cert.Nerf

end
-- ==== Proof.lean ====
/-
  The certificate of the multilayer-perceptron kernel against its reference.

  The three frames: each kernel program's frame is its frame certificate (every weakly fair execution of the region and
  of the host operations around it terminates without a fault and leaves the arguments as they were), and the
  reference's is its run with the results dropped. The idealization rewrote nothing, so it preserves the kernel
  trivially. At the ideal values both programs end with the same colours, density and encoded
  directions: the kernel's results are read off its run row by row, and on every row the tile computes what the host
  computes (the encodings piece by piece, the layers by one contraction law each, the joined layers by splitting a
  finite sum, the logistic head and the host's no-op density tail by their definitions).  No finiteness of the inputs
  is used.
-/
import proofs.«118394_j18519898980813_2_alg».proof.Defs
import proofs.«118394_j18519898980813_2_alg».proof.Proof.Gen.Kernel
import proofs.«118394_j18519898980813_2_alg».proof.Proof.GenPKernelFrame
import proofs.«118394_j18519898980813_2_alg».proof.Proof.Gen.KernelIdeal
import proofs.«118394_j18519898980813_2_alg».proof.Proof.GenPKernelIdealFrame
import proofs.«118394_j18519898980813_2_alg».proof.Proof.Gen.ReferenceIdeal
import proofs.«118394_j18519898980813_2_alg».proof.Proof.Gen.ReferenceIdeal.Run
import proofs.«118394_j18519898980813_2_alg».proof.Proof.Gen.ReferenceIdeal.Read
import proofs.«118394_j18519898980813_2_alg».proof.Proof.Gen.Pre_finite_inputs
import proofs.«118394_j18519898980813_2_alg».proof.Proof.Results
import Idealize.ShloMosaic.Adequacy
import Idealize.ShloMosaic.Init

set_option maxRecDepth 16384
set_option maxHeartbeats 1600000

noncomputable section

namespace Cert.Proof

open Idealize.ShloMosaic Idealize.SL.Sem

/-- Run from memories that agree on the arguments, the two idealized programs end with equal results. -/
theorem algebraic : Cert.algebraic_KernelIdeal_ReferenceIdeal := by
  intro m ρ m' ρ' _ hagree
  refine ⟨Cert.KernelIdeal.Packed.rgb m, Cert.KernelIdeal.Packed.sigma m, Cert.KernelIdeal.Packed.dirs m,
    Cert.KernelIdeal.Packed.run m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9, g10, g11, g12, g13, g14, g15, g16, g17, g18, g19, g20, g21, g22, g23, g24, g25⟩ := hagree c
  refine ⟨(h c).1.trans ?_, (h c).2.1.trans ?_, (h c).2.2.1.trans ?_, (h c).2.2.2⟩
  · rw [Cert.ReferenceIdeal.Read.val_main_v117_eq, g0, g1, g2, g3, g4, g5, g6, g7, g8, g9, g10, g11, g12, g13, g14, g15, g16, g17, g20, g21, g22, g23, g24, g25]
    exact (Cert.Nerf.rgb_eq m c).symm
  · rw [Cert.ReferenceIdeal.Read.val_main_v118_eq, g0, g2, g3, g4, g5, g6, g7, g8, g9, g10, g11, g12, g13, g14, g15, g16, g17, g18, g19]
    exact (Cert.Nerf.sigma_eq m c).symm
  · rw [g1]
    exact (Cert.Nerf.dirs_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2.2.2) (Cert.ReferenceIdeal.Value.run (F := Ideal) m ρ),
  trivial,
  algebraic⟩

end Cert.Proof

end
